-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384x512 : Shape := ⟨2, ![384, 512]⟩
abbrev S384x40 : Shape := ⟨2, ![384, 40]⟩
abbrev S_ : Shape := ⟨0, ![]⟩

class Facts : Prop where
  bcast_S_S384x512 : S_.BroadcastsInDim S384x512 (![] : Fin 0 → Fin S384x512.rank)
  reducesTo_S384x512_S_d0_1 : S384x512.ReducesTo [0, 1] S_
  h_S_ : 0 < S_.numel

variable [Facts]

def fn {F : FTy → Type} [FloatOps F] (main_arg0 : FVec F S384x512 .f32) (main_arg1 : IVec S384x40 32) : IVec S_ 1 :=
  let main_v0 : FVec F S384x512 .f32 := Host.absf main_arg0
  let main_cst : FVec F S_ .f32 := constant S_ .f32 0x7F800000#32
  let main_v1 : FVec F S384x512 .f32 := broadcastInDim S384x512 ![] bcast_S_S384x512 main_cst
  let main_v2 : IVec S384x512 1 := cmpf .olt main_v0 main_v1
  let main_c : IVec S_ 1 := constantI S_ 1 1#1
  let main_v3 : IVec S_ 1 := (fun x v => Host.reduce IntOp.andi x v reducesTo_S384x512_S_d0_1 h_S_) main_v2 main_c
  main_v3
-- ==== Kernel.lean ====
abbrev S384x512 : Shape := ⟨2, ![384, 512]⟩
abbrev S384x40 : Shape := ⟨2, ![384, 40]⟩
abbrev S384x384 : Shape := ⟨2, ![384, 384]⟩
abbrev S384 : Shape := ⟨1, ![384]⟩
abbrev S384x1 : Shape := ⟨2, ![384, 1]⟩
abbrev S2x1x40 : Shape := ⟨3, ![2, 1, 40]⟩
abbrev S16x384 : Shape := ⟨2, ![16, 384]⟩
abbrev S16x40 : Shape := ⟨2, ![16, 40]⟩
abbrev S1x1x40 : Shape := ⟨3, ![1, 1, 40]⟩
abbrev S16x1x384 : Shape := ⟨3, ![16, 1, 384]⟩
abbrev S16x384x1 : Shape := ⟨3, ![16, 384, 1]⟩
abbrev S16x384x384 : Shape := ⟨3, ![16, 384, 384]⟩
abbrev S1x384x40 : Shape := ⟨3, ![1, 384, 40]⟩
abbrev S16x384x40 : Shape := ⟨3, ![16, 384, 40]⟩
abbrev S40 : Shape := ⟨1, ![40]⟩
abbrev S1x40 : Shape := ⟨2, ![1, 40]⟩
abbrev S_ : Shape := ⟨0, ![]⟩

abbrev nBuf : Space → Nat
  | .hbm => 37
  | .vmem => 10
  | .smem => 0
  | _ => 0

abbrev bufTy : (tb : Table) → Fin (tcTables nBuf tb) → BufTy
  | .hbm, ⟨0, _⟩ => ⟨S384x512, .f32⟩
  | .hbm, ⟨1, _⟩ => ⟨S384x40, .i32⟩
  | .hbm, ⟨2, _⟩ => ⟨S384x384, .f32⟩
  | .hbm, ⟨3, _⟩ => ⟨S384x40, .f32⟩
  | .hbm, ⟨4, _⟩ => ⟨S2x1x40, .f32⟩
  | .hbm, ⟨5, _⟩ => ⟨S_, .f32⟩
  | .hbm, ⟨6, _⟩ => ⟨S1x40, .f32⟩
  | .hbm, ⟨7, _⟩ => ⟨S40, .f32⟩
  | .hbm, ⟨8, _⟩ => ⟨S_, .f32⟩
  | .hbm, ⟨9, _⟩ => ⟨S40, .f32⟩
  | .hbm, ⟨10, _⟩ => ⟨S_, .f32⟩
  | .hbm, ⟨11, _⟩ => ⟨S40, .f32⟩
  | .hbm, ⟨12, _⟩ => ⟨S40, .i1⟩
  | .hbm, ⟨13, _⟩ => ⟨S_, .f32⟩
  | .hbm, ⟨14, _⟩ => ⟨S40, .f32⟩
  | .hbm, ⟨15, _⟩ => ⟨S40, .f32⟩
  | .hbm, ⟨16, _⟩ => ⟨S40, .f32⟩
  | .hbm, ⟨17, _⟩ => ⟨S_, .f32⟩
  | .hbm, ⟨18, _⟩ => ⟨S40, .f32⟩
  | .hbm, ⟨19, _⟩ => ⟨S40, .f32⟩
  | .hbm, ⟨20, _⟩ => ⟨S_, .f32⟩
  | .hbm, ⟨21, _⟩ => ⟨S_, .f32⟩
  | .hbm, ⟨22, _⟩ => ⟨S40, .f32⟩
  | .hbm, ⟨23, _⟩ => ⟨S40, .f32⟩
  | .hbm, ⟨24, _⟩ => ⟨S40, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S40, .f32⟩
  | .hbm, ⟨31, _⟩ => ⟨S40, .f32⟩
  | .hbm, ⟨32, _⟩ => ⟨S40, .f32⟩
  | .hbm, ⟨33, _⟩ => ⟨S40, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S384x512, .f32⟩
  | .local _ .vmem, ⟨1, _⟩ => ⟨S384x384, .f32⟩
  | .local _ .vmem, ⟨2, _⟩ => ⟨S16x384, .f32⟩
  | .local _ .vmem, ⟨3, _⟩ => ⟨S16x384, .f32⟩
  | .local _ .vmem, ⟨4, _⟩ => ⟨S384x40, .f32⟩
  | .local _ .vmem, ⟨5, _⟩ => ⟨S16x40, .f32⟩
  | .local _ .vmem, ⟨6, _⟩ => ⟨S16x40, .f32⟩
  | .local _ .vmem, ⟨7, _⟩ => ⟨S1x1x40, .f32⟩
  | .local _ .vmem, ⟨8, _⟩ => ⟨S1x1x40, .f32⟩
  | .local _ .vmem, ⟨9, _⟩ => ⟨S1x1x40, .f32⟩
  | _, _ => ⟨S384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_8 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S384x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![2, 12], ![false, false]⟩

def cc1_transform_0 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S384x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S16x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S384x512_S384x512_0_0 : ∀ a, (![0, 0] : Fin 2 → Nat) a + S384x512.size a ≤ S384x512.size a
  h_S384x512 : 0 < S384x512.numel
  reduces_S384x512_S384 : S384x512.Reduces [1] S384
  shapeCasts_S384_S384x1 : S384.ShapeCasts S384x1
  broadcasts_S384x1_S384x512 : S384x1.Broadcasts S384x512
  inb_S384x384_S384x384_0_0 : ∀ a, (![0, 0] : Fin 2 → Nat) a + S384x384.size a ≤ S384x384.size a
  h_S384x384 : 0 < S384x384.numel
  inb_S1x1x40_S1x1x40_0_0_0 : ∀ a, (![0, 0, 0] : Fin 3 → Nat) a + S1x1x40.size a ≤ S1x1x40.size a
  h_S1x1x40 : 0 < S1x1x40.numel
  shapeCasts_S1x1x40_S1x1x40 : S1x1x40.ShapeCasts S1x1x40
  inb_S16x384_S16x384_0_0 : ∀ a, (![0, 0] : Fin 2 → Nat) a + S16x384.size a ≤ S16x384.size a
  h_S16x384 : 0 < S16x384.numel
  shapeCasts_S16x384_S16x384 : S16x384.ShapeCasts S16x384
  inb_S384x40_S384x40_0_0 : ∀ a, (![0, 0] : Fin 2 → Nat) a + S384x40.size a ≤ S384x40.size a
  h_S384x40 : 0 < S384x40.numel
  shapeCasts_S384x40_S384x40 : S384x40.ShapeCasts S384x40
  inb_S16x40_S16x40_0_0 : ∀ a, (![0, 0] : Fin 2 → Nat) a + S16x40.size a ≤ S16x40.size a
  h_S16x40 : 0 < S16x40.numel
  shapeCasts_S16x40_S16x40 : S16x40.ShapeCasts S16x40
  shapeCasts_S16x384_S16x1x384 : S16x384.ShapeCasts S16x1x384
  shapeCasts_S16x384_S16x384x1 : S16x384.ShapeCasts S16x384x1
  broadcasts_S16x1x384_S16x384x384 : S16x1x384.Broadcasts S16x384x384
  broadcasts_S16x384x1_S16x384x384 : S16x384x1.Broadcasts S16x384x384
  reduces_S16x384x384_S16x384 : S16x384x384.Reduces [2] S16x384
  shapeCasts_S384x40_S1x384x40 : S384x40.ShapeCasts S1x384x40
  shapeCasts_S1x384x40_S1x384x40 : S1x384x40.ShapeCasts S1x384x40
  broadcasts_S1x384x40_S16x384x40 : S1x384x40.Broadcasts S16x384x40
  bitsLt_bf16_f32 : FTy.bits .bf16 < FTy.bits .f32
  broadcasts_S16x384x1_S16x384x40 : S16x384x1.Broadcasts S16x384x40
  reduces_S16x384x40_S16x40 : S16x384x40.Reduces [1] S16x40
  reduces_S16x40_S40 : S16x40.Reduces [0] S40
  shapeCasts_S40_S1x40 : S40.ShapeCasts S1x40
  shapeCasts_S1x40_S1x1x40 : S1x40.ShapeCasts S1x1x40
  reducesTo_S2x1x40_S1x40_d0 : S2x1x40.ReducesTo [0] S1x40
  h_S_ : 0 < S_.numel
  shapeCasts_S1x40_S40 : S1x40.ShapeCasts S40
  reducesTo_S384x40_S40_d0 : S384x40.ReducesTo [0] S40
  bcast_S_S40 : S_.BroadcastsInDim S40 (![] : Fin 0 → Fin S40.rank)
  reducesTo_S40_S_d0 : S40.ReducesTo [0] S_
  dot_S384x512_S384x512_S384x384_1_1_0_0_n_n_wf : DotDims.WF S384x512 S384x512 S384x384 [1] [1] [0] [0] [] []
  dot_S16x384x384_S16x384x40_S16x384x40_2_1_1_2_0_0_wf : DotDims.WF S16x384x384 S16x384x40 S16x384x40 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S384x512.size a ≤ S384x512.size a
  hwx0_0 : ∀ i : grid0.Coords, EltTy.bits .f32 = 32 ∨ (Rect.block (s := S384x512) S384x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .f32 = 32 ∨ (Rect.block (s := S384x384) S384x384.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x384.size a ≤ S384x384.size a
  hwx1_0 : ∀ i : grid1.Coords, EltTy.bits .f32 = 32 ∨ (Rect.block (s := S384x384) S16x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x40.size a ≤ S384x40.size a
  hwx1_1 : ∀ i : grid1.Coords, EltTy.bits .f32 = 32 ∨ (Rect.block (s := S384x40) S384x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S384x40.size a
  hwx1_2 : ∀ i : grid1.Coords, EltTy.bits .f32 = 32 ∨ (Rect.block (s := S384x40) S16x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x40.size a ≤ S2x1x40.size a
  hwx1_3 : ∀ i : grid1.Coords, EltTy.bits .f32 = 32 ∨ (Rect.block (s := S2x1x40) S1x1x40.size (cc1_transform_3 i) (hinb1_3 i)).WholeWords (EltTy.packing .f32)

variable [Facts₀]

def dot_S384x512_S384x512_S384x384_1_1_0_0_n_n : DotDims S384x512 S384x512 S384x384 where
  lhsContracting := [1]
  rhsContracting := [1]
  lhsNonContracting := [0]
  rhsNonContracting := [0]
  lhsBatch := []
  rhsBatch := []
  wf := dot_S384x512_S384x512_S384x384_1_1_0_0_n_n_wf
def dot_S16x384x384_S16x384x40_S16x384x40_2_1_1_2_0_0 : DotDims S16x384x384 S16x384x40 S16x384x40 where
  lhsContracting := [2]
  rhsContracting := [1]
  lhsNonContracting := [1]
  rhsNonContracting := [2]
  lhsBatch := [0]
  rhsBatch := [0]
  wf := dot_S16x384x384_S16x384x40_S16x384x40_2_1_1_2_0_0_wf

abbrev win0_0 : Pipeline.Window sig grid0 :=
  Pipeline.Window.ofSpec (Memref.whole main_arg0) S384x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S384x384.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S16x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S384x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S16x40.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S384x512 : Shape := ⟨2, ![384, 512]⟩
abbrev S384x40 : Shape := ⟨2, ![384, 40]⟩
abbrev S_ : Shape := ⟨0, ![]⟩
abbrev S384 : Shape := ⟨1, ![384]⟩
abbrev S384x1 : Shape := ⟨2, ![384, 1]⟩
abbrev S512x384 : Shape := ⟨2, ![512, 384]⟩
abbrev S384x384 : Shape := ⟨2, ![384, 384]⟩
abbrev S384x1x384 : Shape := ⟨3, ![384, 1, 384]⟩
abbrev S384x384x1 : Shape := ⟨3, ![384, 384, 1]⟩
abbrev S384x384x384 : Shape := ⟨3, ![384, 384, 384]⟩
abbrev S40x384 : Shape := ⟨2, ![40, 384]⟩
abbrev S40 : Shape := ⟨1, ![40]⟩
abbrev S40x384x384 : Shape := ⟨3, ![40, 384, 384]⟩
abbrev S40x1x384 : Shape := ⟨3, ![40, 1, 384]⟩
abbrev S40x384x1 : Shape := ⟨3, ![40, 384, 1]⟩
abbrev S1x384x384 : Shape := ⟨3, ![1, 384, 384]⟩

abbrev nBuf : Space → Nat
  | .hbm => 98
  | .vmem => 0
  | .smem => 0
  | _ => 0

abbrev bufTy : (tb : Table) → Fin (tcTables nBuf tb) → BufTy
  | .hbm, ⟨0, _⟩ => ⟨S384x512, .f32⟩
  | .hbm, ⟨1, _⟩ => ⟨S384x40, .i32⟩
  | .hbm, ⟨2, _⟩ => ⟨S384x512, .f32⟩
  | .hbm, ⟨3, _⟩ => ⟨S_, .f32⟩
  | .hbm, ⟨4, _⟩ => ⟨S384, .f32⟩
  | .hbm, ⟨5, _⟩ => ⟨S384x1, .f32⟩
  | .hbm, ⟨6, _⟩ => ⟨S384x1, .f32⟩
  | .hbm, ⟨7, _⟩ => ⟨S_, .f32⟩
  | .hbm, ⟨8, _⟩ => ⟨S384x1, .f32⟩
  | .hbm, ⟨9, _⟩ => ⟨S384x1, .f32⟩
  | .hbm, ⟨10, _⟩ => ⟨S384x512, .f32⟩
  | .hbm, ⟨11, _⟩ => ⟨S384x512, .f32⟩
  | .hbm, ⟨12, _⟩ => ⟨S512x384, .f32⟩
  | .hbm, ⟨13, _⟩ => ⟨S384x384, .f32⟩
  | .hbm, ⟨14, _⟩ => ⟨S384x1x384, .f32⟩
  | .hbm, ⟨15, _⟩ => ⟨S384x384x1, .f32⟩
  | .hbm, ⟨16, _⟩ => ⟨S384x384x384, .f32⟩
  | .hbm, ⟨17, _⟩ => ⟨S384x384x384, .f32⟩
  | .hbm, ⟨18, _⟩ => ⟨S384x384x384, .f32⟩
  | .hbm, ⟨19, _⟩ => ⟨S384x384x384, .f32⟩
  | .hbm, ⟨20, _⟩ => ⟨S_, .f32⟩
  | .hbm, ⟨21, _⟩ => ⟨S384x384x384, .f32⟩
  | .hbm, ⟨22, _⟩ => ⟨S384x384x384, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S384x384x384, .f32⟩
  | .hbm, ⟨27, _⟩ => ⟨S384x384x384, .f32⟩
  | .hbm, ⟨28, _⟩ => ⟨S_, .f32⟩
  | .hbm, ⟨29, _⟩ => ⟨S384x384x384, .f32⟩
  | .hbm, ⟨30, _⟩ => ⟨S384x384x384, .f32⟩
  | .hbm, ⟨31, _⟩ => ⟨S384x384x384, .f32⟩
  | .hbm, ⟨32, _⟩ => ⟨S_, .f32⟩
  | .hbm, ⟨33, _⟩ => ⟨S384x384x384, .f32⟩
  | .hbm, ⟨34, _⟩ => ⟨S384x384x384, .f32⟩
  | .hbm, ⟨35, _⟩ => ⟨S_, .f32⟩
  | .hbm, ⟨36, _⟩ => ⟨S384x384x384, .f32⟩
  | .hbm, ⟨37, _⟩ => ⟨S384x384x384, .f32⟩
  | .hbm, ⟨38, _⟩ => ⟨S_, .f32⟩
  | .hbm, ⟨39, _⟩ => ⟨S384x384, .f32⟩
  | .hbm, ⟨40, _⟩ => ⟨S_, .f32⟩
  | .hbm, ⟨41, _⟩ => ⟨S384x384, .f32⟩
  | .hbm, ⟨42, _⟩ => ⟨S384x384, .f32⟩
  | .hbm, ⟨43, _⟩ => ⟨S_, .f32⟩
  | .hbm, ⟨44, _⟩ => ⟨S384x384, .f32⟩
  | .hbm, ⟨45, _⟩ => ⟨S384x384, .f32⟩
  | .hbm, ⟨46, _⟩ => ⟨S384x40, .f32⟩
  | .hbm, ⟨47, _⟩ => ⟨S40x384, .f32⟩
  | .hbm, ⟨48, _⟩ => ⟨S_, .f32⟩
  | .hbm, ⟨49, _⟩ => ⟨S40, .f32⟩
  | .hbm, ⟨50, _⟩ => ⟨S40x384x384, .f32⟩
  | .hbm, ⟨51, _⟩ => ⟨S_, .f32⟩
  | .hbm, ⟨52, _⟩ => ⟨S40x384x384, .f32⟩
  | .hbm, ⟨53, _⟩ => ⟨S40x384x384, .f32⟩
  | .hbm, ⟨54, _⟩ => ⟨S40x1x384, .f32⟩
  | .hbm, ⟨55, _⟩ => ⟨S_, .f32⟩
  | .hbm, ⟨56, _⟩ => ⟨S40x1x384, .f32⟩
  | .hbm, ⟨57, _⟩ => ⟨S40x1x384, .f32⟩
  | .hbm, ⟨58, _⟩ => ⟨S40x384x384, .f32⟩
  | .hbm, ⟨59, _⟩ => ⟨S40x384x384, .f32⟩
  | .hbm, ⟨60, _⟩ => ⟨S40x384x1, .f32⟩
  | .hbm, ⟨61, _⟩ => ⟨S40x1x384, .f32⟩
  | .hbm, ⟨62, _⟩ => ⟨S40x384x384, .f32⟩
  | .hbm, ⟨63, _⟩ => ⟨S40x384x384, .f32⟩
  | .hbm, ⟨64, _⟩ => ⟨S40x384x384, .f32⟩
  | .hbm, ⟨65, _⟩ => ⟨S1x384x384, .f32⟩
  | .hbm, ⟨66, _⟩ => ⟨S40x384x384, .f32⟩
  | .hbm, ⟨67, _⟩ => ⟨S40x384x384, .f32⟩
  | .hbm, ⟨68, _⟩ => ⟨S40x384x384, .f32⟩
  | .hbm, ⟨69, _⟩ => ⟨S_, .f32⟩
  | .hbm, ⟨70, _⟩ => ⟨S40, .f32⟩
  | .hbm, ⟨71, _⟩ => ⟨S_, .f32⟩
  | .hbm, ⟨72, _⟩ => ⟨S40, .f32⟩
  | .hbm, ⟨73, _⟩ => ⟨S40, .i1⟩
  | .hbm, ⟨74, _⟩ => ⟨S_, .f32⟩
  | .hbm, ⟨75, _⟩ => ⟨S40, .f32⟩
  | .hbm, ⟨76, _⟩ => ⟨S40, .f32⟩
  | .hbm, ⟨77, _⟩ => ⟨S40, .f32⟩
  | .hbm, ⟨78, _⟩ => ⟨S_, .f32⟩
  | .hbm, ⟨79, _⟩ => ⟨S40, .f32⟩
  | .hbm, ⟨80, _⟩ => ⟨S40, .f32⟩
  | .hbm, ⟨81, _⟩ => ⟨S_, .f32⟩
  | .hbm, ⟨82, _⟩ => ⟨S_, .f32⟩
  | .hbm, ⟨83, _⟩ => ⟨S40, .f32⟩
  | .hbm, ⟨84, _⟩ => ⟨S40, .f32⟩
  | .hbm, ⟨85, _⟩ => ⟨S40, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S40, .f32⟩
  | .hbm, ⟨92, _⟩ => ⟨S40, .f32⟩
  | .hbm, ⟨93, _⟩ => ⟨S40, .f32⟩
  | .hbm, ⟨94, _⟩ => ⟨S40, .f32⟩
  | .hbm, ⟨95, _⟩ => ⟨S_, .f32⟩
  | .hbm, ⟨96, _⟩ => ⟨S_, .f32⟩
  | .hbm, ⟨97, _⟩ => ⟨S_, .f32⟩
  | _, _ => ⟨S384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_10 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_cst_12 : Ref sig .tc := ⟨.hbm, 71, rfl⟩
abbrev main_v47 : Ref sig .tc := ⟨.hbm, 72, rfl⟩
abbrev main_v48 : Ref sig .tc := ⟨.hbm, 73, rfl⟩
abbrev main_cst_13 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_14 : Ref sig .tc := ⟨.hbm, 78, rfl⟩
abbrev main_v52 : Ref sig .tc := ⟨.hbm, 79, rfl⟩
abbrev main_v53 : Ref sig .tc := ⟨.hbm, 80, rfl⟩
abbrev main_cst_15 : Ref sig .tc := ⟨.hbm, 81, rfl⟩
abbrev main_call2_v0 : Ref sig .tc := ⟨.hbm, 82, rfl⟩
abbrev main_call2_v1 : Ref sig .tc := ⟨.hbm, 83, rfl⟩
abbrev main_v54 : Ref sig .tc := ⟨.hbm, 84, rfl⟩
abbrev main_v55 : Ref sig .tc := ⟨.hbm, 85, rfl⟩
abbrev main_cst_16 : Ref sig .tc := ⟨.hbm, 86, rfl⟩
abbrev main_v56 : Ref sig .tc := ⟨.hbm, 87, rfl⟩
abbrev main_cst_17 : Ref sig .tc := ⟨.hbm, 88, rfl⟩
abbrev main_v57 : Ref sig .tc := ⟨.hbm, 89, rfl⟩
abbrev main_cst_18 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_19 : Ref sig .tc := ⟨.hbm, 95, rfl⟩
abbrev main_v62 : Ref sig .tc := ⟨.hbm, 96, rfl⟩
abbrev main_v63 : Ref sig .tc := ⟨.hbm, 97, rfl⟩

abbrev nD : Nat := 1
abbrev τ : Topo := Topo.v7x

variable {F : FTy → Type} [FloatOps F]

class Facts₀ : Prop where
  reducesTo_S384x512_S384_d1 : S384x512.ReducesTo [1] S384
  h_S_ : 0 < S_.numel
  bcast_S384_S384x1_0 : S384.BroadcastsInDim S384x1 (![0] : Fin 1 → Fin S384x1.rank)
  bcast_S_S384x1 : S_.BroadcastsInDim S384x1 (![] : Fin 0 → Fin S384x1.rank)
  bcast_S384x1_S384x512_0_1 : S384x1.BroadcastsInDim S384x512 (![0, 1] : Fin 2 → Fin S384x512.rank)
  transposes_S384x512_S512x384_1_0 : S384x512.Transposes [1, 0] S512x384
  bcast_S384x384_S384x1x384_0_2 : S384x384.BroadcastsInDim S384x1x384 (![0, 2] : Fin 2 → Fin S384x1x384.rank)
  bcast_S384x384_S384x384x1_0_1 : S384x384.BroadcastsInDim S384x384x1 (![0, 1] : Fin 2 → Fin S384x384x1.rank)
  bcast_S384x1x384_S384x384x384_0_1_2 : S384x1x384.BroadcastsInDim S384x384x384 (![0, 1, 2] : Fin 3 → Fin S384x384x384.rank)
  bcast_S384x384x1_S384x384x384_0_1_2 : S384x384x1.BroadcastsInDim S384x384x384 (![0, 1, 2] : Fin 3 → Fin S384x384x384.rank)
  bcast_S_S384x384x384 : S_.BroadcastsInDim S384x384x384 (![] : Fin 0 → Fin S384x384x384.rank)
  reducesTo_S384x384x384_S384x384_d2 : S384x384x384.ReducesTo [2] S384x384
  bcast_S_S384x384 : S_.BroadcastsInDim S384x384 (![] : Fin 0 → Fin S384x384.rank)
  transposes_S384x40_S40x384_1_0 : S384x40.Transposes [1, 0] S40x384
  reducesTo_S40x384_S40_d1 : S40x384.ReducesTo [1] S40
  bcast_S_S40x384x384 : S_.BroadcastsInDim S40x384x384 (![] : Fin 0 → Fin S40x384x384.rank)
  bcast_S40x384_S40x1x384_0_2 : S40x384.BroadcastsInDim S40x1x384 (![0, 2] : Fin 2 → Fin S40x1x384.rank)
  bcast_S_S40x1x384 : S_.BroadcastsInDim S40x1x384 (![] : Fin 0 → Fin S40x1x384.rank)
  bcast_S40x1x384_S40x384x384_0_1_2 : S40x1x384.BroadcastsInDim S40x384x384 (![0, 1, 2] : Fin 3 → Fin S40x384x384.rank)
  bcast_S40x384_S40x384x1_0_1 : S40x384.BroadcastsInDim S40x384x1 (![0, 1] : Fin 2 → Fin S40x384x1.rank)
  bcast_S40x384x1_S40x384x384_0_1_2 : S40x384x1.BroadcastsInDim S40x384x384 (![0, 1, 2] : Fin 3 → Fin S40x384x384.rank)
  bcast_S384x384_S1x384x384_1_2 : S384x384.BroadcastsInDim S1x384x384 (![1, 2] : Fin 2 → Fin S1x384x384.rank)
  bcast_S1x384x384_S40x384x384_0_1_2 : S1x384x384.BroadcastsInDim S40x384x384 (![0, 1, 2] : Fin 3 → Fin S40x384x384.rank)
  reducesTo_S40x384x384_S40_d1_2 : S40x384x384.ReducesTo [1, 2] S40
  bcast_S_S40 : S_.BroadcastsInDim S40 (![] : Fin 0 → Fin S40.rank)
  reducesTo_S40_S_d0 : S40.ReducesTo [0] S_
  dot_S384x512_S512x384_S384x384_1_0_0_1_n_n_wf : DotDims.WF S384x512 S512x384 S384x384 [1] [0] [0] [1] [] []
  dot_S40x384_S384x384x384_S40x384x384_1_2_0_01_n_n_wf : DotDims.WF S40x384 S384x384x384 S40x384x384 [1] [2] [0] [0, 1] [] []

variable [Facts₀]

def dot_S384x512_S512x384_S384x384_1_0_0_1_n_n : DotDims S384x512 S512x384 S384x384 where
  lhsContracting := [1]
  rhsContracting := [0]
  lhsNonContracting := [0]
  rhsNonContracting := [1]
  lhsBatch := []
  rhsBatch := []
  wf := dot_S384x512_S512x384_S384x384_1_0_0_1_n_n_wf
def dot_S40x384_S384x384x384_S40x384x384_1_2_0_01_n_n : DotDims S40x384 S384x384x384 S40x384x384 where
  lhsContracting := [1]
  rhsContracting := [2]
  lhsNonContracting := [0]
  rhsNonContracting := [0, 1]
  lhsBatch := []
  rhsBatch := []
  wf := dot_S40x384_S384x384x384_S40x384x384_1_2_0_01_n_n_wf

class Facts : Prop extends Facts₀ where

variable [Facts]
-- ==== Proof.KBRegion0.lean ====
/-
  The first kernel's half of the frame: one grid point; the body loads the whole embedding matrix from its staging
  buffer and stores the affinity matrix, one pure function of what it loaded, over the whole output buffer. So after
  the body the input's buffer holds the block it was handed and the output's holds that function of it; the kernel
  has nothing of its own, so the invariant is the scoped buffers it does not stage and the generator register,
  untouched; nothing is owed.
-/
import proofs.«128315_j16277926052524_1_alg».proof.Proof.Gen.Kernel.Launch
import proofs.«128315_j16277926052524_1_alg».proof.Proof.Gen.Kernel.Skeleton
import proofs.«128315_j16277926052524_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at the point, for any proof data whose array is the entry contents and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The two whole-buffer rectangles the body reads and writes through. -/
abbrev rIn0 : Rect S384x512 := Rect.unit (s := S384x512) ![0, 0] S384x512.size inb_S384x512_S384x512_0_0
abbrev rOut0 : Rect S384x384 := Rect.unit (s := S384x384) ![0, 0] S384x384.size inb_S384x384_S384x384_0_0

/-- The output's staging buffer after the body, from the input block: its one store. -/
def out0_1 (x0 : Vec F S384x512 .f32) : Vec F S384x384 .f32 :=
  View.canon [⟨rOut0, k0_pay1 (View.ld x0 rIn0)⟩]

/-- The one store covers the buffer. -/
theorem cover0_1 (p0 : Vec F S384x384 .f32) (y : S384x384.Idx) :
    ∃ pc ∈ ([⟨rOut0, p0⟩] : List (View.Piece (Elt F) S384x384 .f32)), y ∈ pc.1.set :=
  View.cover_of_tiled [⟨rOut0, p0⟩] S384x384.size (by rfl) y

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg1 : Memref sig .tc .vmem S384x512 .f32) (harg1 : arg1.IsWhole) (arg2 : Memref sig .tc .vmem S384x384 .f32) (harg2 : arg2.IsWhole)
    (x0 : Vec F S384x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__sim_kernel i arg1 harg1 arg2 harg2) K := by
  simp only [cc0__sim_kernel_eq_skeleton]; unfold cc0__sim_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at the one point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBRegion1Data.lean ====
/-
  The second kernel's proof data: what each of its four windows holds after the body at each of the 24 grid points.
  The grid is 2 x 12, row-major: point t works on tile t of sixteen query rows, on behalf of core t / 12. The three
  inputs are left as fetched: the tile's sixteen affinity rows, the whole label matrix (fetched once), the tile's
  sixteen label rows. The output block and the scratch accumulator both end every point at the accumulator's new
  value: the tile's contribution added to the previous value, the previous value being the zero fill at the first
  tile of a core (t % 12 = 0) and what the point before left otherwise. The accumulator survives between points in
  the scratch buffer, so the invariant between points names its contents.
  The two windows on the label matrix each hold half of its full share.
-/
import proofs.«128315_j16277926052524_1_alg».proof.Proof.Gen.Kernel.Launch
import proofs.«128315_j16277926052524_1_alg».proof.Proof.Gen.Kernel.Skeleton
import proofs.«128315_j16277926052524_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One tile's step of the accumulator: the previous value plus the tile's contribution, from the tile's affinity
    rows `x0`, the label matrix `x1` and the tile's label rows `x2`. -/
def stepAcc (acc : Vec F S1x1x40 .f32) (x0 : Vec F S16x384 .f32) (x1 : Vec F S384x40 .f32) (x2 : Vec F S16x40 .f32) : Vec F S1x1x40 .f32 :=
  k1_pay1 (k1_pay3 x2) (k1_pay5 x0) (k1_pay6 x1) (k1_pay7 x0 x1) (Scalar.ofBits .f32 0x3F000000#32) acc

/-- The accumulator after the body at point `n`: started from the zero fill at the first tile of each core. -/
def accAt (c : Dev nD) : (n : ℕ) → n < cfg1.N → Vec F S1x1x40 .f32
  | 0, hn => stepAcc (k1_pay2 (F := F)) (iblk1 V c 0 ⟨0, hn⟩) (iblk1 V c 1 ⟨0, hn⟩) (iblk1 V c 2 ⟨0, hn⟩)
  | n + 1, hn =>
    stepAcc (if (n + 1) % 12 = 0 then k1_pay2 (F := F) else accAt c n (Nat.lt_of_succ_lt hn))
      (iblk1 V c 0 ⟨n + 1, hn⟩) (iblk1 V c 1 ⟨n + 1, hn⟩) (iblk1 V c 2 ⟨n + 1, hn⟩)

theorem accAt_zero (c : Dev nD) (hn : 0 < cfg1.N) :
    accAt V c 0 hn = stepAcc (k1_pay2 (F := F)) (iblk1 V c 0 ⟨0, hn⟩) (iblk1 V c 1 ⟨0, hn⟩) (iblk1 V c 2 ⟨0, hn⟩) := rfl

theorem accAt_succ (c : Dev nD) (n : ℕ) (hn : n + 1 < cfg1.N) :
    accAt V c (n + 1) hn = stepAcc (if (n + 1) % 12 = 0 then k1_pay2 (F := F) else accAt V c n (Nat.lt_of_succ_lt hn))
      (iblk1 V c 0 ⟨n + 1, hn⟩) (iblk1 V c 1 ⟨n + 1, hn⟩) (iblk1 V c 2 ⟨n + 1, hn⟩) := rfl

/-- The scratch accumulator as a memref. -/
abbrev scM1 : Memref sig .tc .vmem S1x1x40 .f32 := Memref.whole cc1_scratch0

/-- The invariant before position `n`: before the first point every scoped buffer that is no staging buffer of this
    kernel at anything; afterwards the first kernel's two staging buffers at anything and the accumulator at what the
    point before left in it; the generator register at some state throughout. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ owns (c : Thread nD τ) scM1 fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ owns (c : Thread nD τ) scM1 fullShare (accAt V c n hn)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ owns (c : Thread nD τ) scM1 fullShare (accAt V c (n - 1) (by omega))) ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => accAt V c t.val t.isLt
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = accAt V c t.val t.isLt := by dsimp only [dat1]

end Cert.Kernel.Hand

end
-- ==== Proof.KBRunFold.lean ====
/-
  The run of the whole program, first half: the contents of the TensorCore's buffers at each boundary of @main, as a
  fold from the launch memory — the first kernel replaces the affinity array by what its one write-back leaves, the
  labels are converted to floats, the second kernel replaces the per-core totals by what its two write-backs leave,
  and the host operations that follow compute the loss from them —; the proof data of both kernels, each at the
  contents its region is entered with; and the first kernel's region as a segment of the run: its two arrays are
  split out of the core's buffers on entry and put back, the output at its new contents, on exit.
-/
import proofs.«128315_j16277926052524_1_alg».proof.Proof.KBRegion0
import proofs.«128315_j16277926052524_1_alg».proof.Proof.KBRegion1Data
import proofs.«128315_j16277926052524_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Core `c`'s buffers at launch: the first region's entry. -/
abbrev W0 : Dev nD → Valuation τ sig (Elt F) := fun c b => m ((c : Dev nD), b)
abbrev E0 : (c : Dev nD) → (b : Ref sig .tc) → Buf (Elt F) ((c : Thread nD τ).loc b) := fun c b => W0 m c b
/-- After the first region: the affinity array at what its one write-back leaves, every other buffer as it was. -/
def W1 (c : Dev nD) : Valuation τ sig (Elt F) :=
  Function.update (W0 m c) (Proc.devRef .tc main_v0) ((dat0 (E0 m) c).arrAt 1 cfg0.N)
/-- After the labels' conversion to floats: the second region's entry. -/
abbrev W2 : Dev nD → Valuation τ sig (Elt F) := fun c => StableHlo.after hostOps1 (W1 m c)
abbrev E2 : (c : Dev nD) → (b : Ref sig .tc) → Buf (Elt F) ((c : Thread nD τ).loc b) := fun c b => W2 m c b
/-- After the second region: the per-core totals at what its write-backs leave, every other buffer as it was. -/
def W3 (c : Dev nD) : Valuation τ sig (Elt F) :=
  Function.update (W2 m c) (Proc.devRef .tc main_v2) ((dat1 (E2 m) c).arrAt 3 cfg1.N)
/-- After the host operations that follow. -/
abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)

theorem W1_v0 (c : Dev nD) : W1 m c (Proc.devRef .tc main_v0) = (dat0 (E0 m) c).arrAt 1 cfg0.N := by
  unfold W1; exact Function.update_self ..
theorem W1_of_ne (c : Dev nD) (b : Ref sig .tc) (hb : b ≠ main_v0) : W1 m c (Proc.devRef .tc b) = W0 m c (Proc.devRef .tc b) := by
  unfold W1; exact Function.update_of_ne (StableHlo.devRef_ne_of_ne hb) ..
theorem W3_v2 (c : Dev nD) : W3 m c (Proc.devRef .tc main_v2) = (dat1 (E2 m) c).arrAt 3 cfg1.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (E0 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region as a segment -/

theorem hF0 (c : Dev nD) (w : Fin cfg0.W) : (dat0 (E0 m) c).arrAt w cfg0.N = (fun b : Ref sig .tc => W1 m c b) (Pipeline.arrRef spec0 w) := by
  match w with
  | ⟨0, _⟩ => exact ((dat0 (E0 m) c).arrAt_in 0 rfl _).trans ((A_eq0 (E0 m) c 0).trans (W1_of_ne m c main_arg0 (by decide)).symm)
  | ⟨1, _⟩ => exact (W1_v0 m c).symm
theorem hrest0 (c : Dev nD) : ∀ b, b ∉ Finset.univ.image (Pipeline.arrRef spec0) → (fun b : Ref sig .tc => W1 m c b) b = E0 m c b :=
  fun b hb => W1_of_ne m c b fun e => hb (Finset.mem_image.mpr ⟨1, Finset.mem_univ _, e.symm⟩)

set_option backward.isDefEq.respectTransparency.types false in
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E0 m c) (fun b : Ref sig .tc => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KBRun.lean ====
/-
  The run of the whole program, second half. The second kernel's region as a segment: its four windows stand on three
  arrays, two of them reading the label matrix, so on entry that array's full share is split in two halves, one per
  window, and on exit the halves are joined again; the three inputs end as they were entered and the per-core totals
  at what the two write-backs leave. Then @main as its six segments in order — region, conversion, region, and the
  three stretches of host operations that compute the loss — and the launch: every weakly fair execution terminates,
  nothing faults, and the final memory holds every buffer at the last boundary's contents.
  What the second region's record takes of its kernel (the body obligation at every grid point, and the invariant's
  two ends) is a hypothesis here, proved apart.
-/
import proofs.«128315_j16277926052524_1_alg».proof.Proof.KBRunFold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the second region's record takes of its kernel: the body obligation and the invariant's two ends. -/
structure Region1Facts : Prop where
  hbody : ∀ c : Dev nD, BodyObligation (dat1 (F := F) (E2 m) c) (defs₀ (F := F)) Variants.none () Set.univ
  hin : ∀ c : Dev nD, (Pipeline.ΦA spec1 c : sProp 𝕄) ⊢ (dat1 (E2 m) c).Φ 0
  hout : ∀ c : Dev nD, (dat1 (E2 m) c).Φ (Fin.last cfg1.N) ⊢ (Pipeline.ΦA spec1 c : sProp 𝕄)

/-- The three distinct buffers behind the second kernel's four windows. -/
theorem arrImage1 : Finset.univ.image (Pipeline.arrRef spec1) = ([main_v0, main_v1, main_v2] : List (Ref sig .tc)).toFinset := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1) ∗ (((c : Thread nD τ).loc main_v2) ↦{fullShare} V main_v2)) := by
  unfold Pipeline.arrBufs
  exact Idealize.SL.BI.bigSep_eq_bigSepL_of_eq [main_v0, main_v1, main_v2] arrImage1 (by decide) _

theorem arrays1_eq (c : Dev nD) (V : (c : Dev nD) → (b : Ref sig .tc) → Buf (Elt F) ((c : Thread nD τ).loc b))
    (Fa : (w : Fin cfg1.W) → Buf (Elt F) ((cfg1.win w).arr.view.loc (c : Thread nD τ))) :
    ((dat1 V c).arrays Fa : sProp 𝕄)
      = iprop((((c : Thread nD τ).loc main_v0) ↦{fullShare} Fa 0) ∗ (((c : Thread nD τ).loc main_v1) ↦{fullShare.left} Fa 1)
          ∗ (((c : Thread nD τ).loc main_v1) ↦{fullShare.right} Fa 2) ∗ (((c : Thread nD τ).loc main_v2) ↦{fullShare} Fa 3)) := by
  unfold Dat.arrays
  rw [bigSep_W1]
  rw [(arr_whole1 0).set_eq_univ, (arr_whole1 1).set_eq_univ, (arr_whole1 3).set_eq_univ]
  rfl

/-- The second region's arrays at its exit: the three inputs as entered, the output at what its write-backs leave. -/
theorem hF1 (c : Dev nD) (w : Fin cfg1.W) : (dat1 (E2 m) c).arrAt w cfg1.N = (fun b : Ref sig .tc => W3 m c b) (Pipeline.arrRef spec1 w) := by
  match w with
  | ⟨0, _⟩ => exact ((dat1 (E2 m) c).arrAt_in 0 rfl _).trans ((A_eq1 (E2 m) c 0).trans (W3_of_ne m c main_v0 (by decide)).symm)
  | ⟨1, _⟩ => exact ((dat1 (E2 m) c).arrAt_in 1 rfl _).trans ((A_eq1 (E2 m) c 1).trans (W3_of_ne m c main_v1 (by decide)).symm)
  | ⟨2, _⟩ => exact ((dat1 (E2 m) c).arrAt_in 2 rfl _).trans ((A_eq1 (E2 m) c 2).trans (W3_of_ne m c main_v1 (by decide)).symm)
  | ⟨3, _⟩ => exact (W3_v2 m c).symm

/-- ENTRY of the second region, the arrays' part: the core's unscoped buffers are the region's four windows' arrays,
    the label matrix split in two halves of its share between the two windows that read it, and the rest. -/
theorem arrays1_of_unscopedBufs (c : Dev nD) :
    (unscopedBufs c (E2 m c) : sProp 𝕄)
      ⊢ iprop((dat1 (E2 m) c).arrays ((dat1 (E2 m) c).arrAt · 0) ∗ Pipeline.unscopedRest (Ix := Unit) (Name := ℕ) (U := UR sig nD τ) (Lvl := ℕ) spec1 c (E2 m c)) := by
  rw [show (unscopedBufs c (E2 m c) : sProp 𝕄)
        = iprop(Pipeline.arrBufs (Ix := Unit) (Name := ℕ) (U := UR sig nD τ) (Lvl := ℕ) spec1 c (E2 m c) ∗ Pipeline.unscopedRest (Ix := Unit) (Name := ℕ) (U := UR sig nD τ) (Lvl := ℕ) spec1 c (E2 m c))
      from Pipeline.unscopedBufs_split₀ (Pipeline.pin (pcfgs (F := F)) adm') 1 winFacts₀1.arr_unscoped c (E2 m c),
    arrBufs1_eq, arrays1_eq]
  iintro ⟨⟨H0, H1, H2⟩, Hrest⟩
  ihave H1' := (pointsTo_share (PosShare.mem_left_op_right fullShare)).1 $$ H1
  icases H1' with ⟨H1l, H1r⟩
  isplitr [Hrest]
  · isplitl [H0]; · iexact H0
    isplitl [H1l]; · iexact H1l
    isplitl [H1r]; · iexact H1r
    iexact H2
  iexact Hrest

theorem hrest1 (c : Dev nD) : ∀ b, b ∉ Finset.univ.image (Pipeline.arrRef spec1) → (fun b : Ref sig .tc => W3 m c b) b = E2 m c b :=
  fun b hb => W3_of_ne m c b fun e => hb (Finset.mem_image.mpr ⟨3, Finset.mem_univ _, e.symm⟩)

/-- EXIT of the second region, the arrays' part: the four windows' arrays at their final contents — the two halves of
    the label matrix joined again — and the rest are the core's unscoped buffers at the next boundary's contents. -/
theorem unscopedBufs_of_arrays1 (c : Dev nD) :
    iprop((dat1 (E2 m) c).arrays ((dat1 (E2 m) c).arrAt · cfg1.N) ∗ Pipeline.unscopedRest (Ix := Unit) (Name := ℕ) (U := UR sig nD τ) (Lvl := ℕ) spec1 c (E2 m c))
      ⊢ (unscopedBufs c (fun b : Ref sig .tc => W3 m c b) : sProp 𝕄) := by
  rw [show (unscopedBufs c (fun b : Ref sig .tc => W3 m c b) : sProp 𝕄)
        = iprop(Pipeline.arrBufs (Ix := Unit) (Name := ℕ) (U := UR sig nD τ) (Lvl := ℕ) spec1 c (fun b : Ref sig .tc => W3 m c b) ∗ Pipeline.unscopedRest (Ix := Unit) (Name := ℕ) (U := UR sig nD τ) (Lvl := ℕ) spec1 c (fun b : Ref sig .tc => W3 m c b))
      from Pipeline.unscopedBufs_split₀ (Pipeline.pin (pcfgs (F := F)) adm') 1 winFacts₀1.arr_unscoped c (fun b : Ref sig .tc => W3 m c b),
    arrBufs1_eq, arrays1_eq, hF1 m c 0, hF1 m c 1, hF1 m c 2, hF1 m c 3]
  have hr : (Pipeline.unscopedRest (Ix := Unit) (Name := ℕ) (U := UR sig nD τ) (Lvl := ℕ) spec1 c (E2 m c) : sProp 𝕄)
      = Pipeline.unscopedRest (Ix := Unit) (Name := ℕ) (U := UR sig nD τ) (Lvl := ℕ) spec1 c (fun b : Ref sig .tc => W3 m c b) := by
    unfold Pipeline.unscopedRest
    exact bigSep_congr fun b hb => by rw [hrest1 m c b (Finset.mem_sdiff.mp hb).2]
  rw [hr]
  iintro ⟨⟨H0, H1l, H1r, H3⟩, Hrest⟩
  isplitr [Hrest]
  · isplitl [H0]; · iexact H0
    isplitl [H1l H1r]
    · iapply (pointsTo_share (PosShare.mem_left_op_right fullShare)).2
      isplitl [H1l] <;> iassumption
    iexact H3
  iexact Hrest

set_option backward.isDefEq.respectTransparency.types false in
/-- The second region as a segment: entered from every unscoped buffer at the contents after the conversion, left
    with the totals at their new contents. -/
def reg1 (h1 : Region1Facts (F := F) m) : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (h1.hbody c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := arrays1_of_unscopedBufs m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (h1.hin c)
    unfold Pipeline.ΦA
    iintro ⟨Hp, -, Hr⟩
    isplitl [Hr]; · iexact Hr
    iexact Hp
  hout c := by
    rw [Pipeline.ownSems0_none]
    refine (h1.hout c).trans ?_
    unfold Pipeline.ΦA
    iintro ⟨Hr, Hp⟩
    isplitl [Hp]; · iexact Hp
    isplitr; · iempintro
    iexact Hr
  hexit c := by
    have hjoin := unscopedBufs_of_arrays1 m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's six segments in order: the two regions, and a host segment per stretch from its boundary's contents. -/
abbrev mainSegs (h1 : Region1Facts (F := F) m) (c : Dev nD) : List (Pipeline.Seg (pcfgs (F := F)) adm' (pdats m) () defs₀ 𝒱₀ L lv) :=
  [ .region (reg0 m),
    .host (hseg hostOps1 hostOps1_sub hostOps1_fresh (W1 m)),
    .region (reg1 m h1),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)) ]

/-- The last thread state regrouped: the buffers and the generator register on one side, the core owing nothing on the other. -/
theorem lastState (c : Dev nD) :
    iprop(StableHlo.held (c : Thread nD τ) (Pipeline.ucRefs τ sig) (W6 m c) ∗ R c)
      ⊢ (iprop((StableHlo.held (c : Thread nD τ) (Pipeline.ucRefs τ sig) (W6 m c) ∗ ∃ r, prngReg c r) ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in
/-- THE RUN. At the compiled mesh, from any memory with zero counters, every weakly fair execution of @main on the
    TensorCores terminates, nothing faulting, and the final memory holds every unscoped buffer at the last boundary's
    contents: the fold of the two regions and the host operations from the launch memory. -/
theorem run (h1 : Region1Facts (F := F) m) :
    θ_run defs (onTc (τ := τ) (main (F := F))) ⟨m, fun _ => 0, ρ⟩ (fun r => ∀ c : Dev nD, ∀ b ∈ Pipeline.ucRefs τ sig,
      r.2.mem (((c : Thread nD τ)).1, b) = W6 m c b) :=
  Pipeline.θ_run_regions_kit_dev (pcfgs (F := F)) adm' (pdats m) () cellOf_inj emb₁ defs₀ 𝒱₀ L lv m ρ main
    (mainSegs m h1)
    (fun c Q => by
      rewrite [main_chain c, Pipeline.Seg.run_eq_chain,
        show (mainSegs m h1 c).map Pipeline.Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (fun c => by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W6 m c) ∗ ∃ r, prngReg c r))
    (hch := fun c => ⟨.rfl, .rfl, .rfl, .rfl, .rfl, .rfl, lastState m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Hand

end
-- ==== Proof.KBRegion1BodyCond.lean ====
/-
  The second kernel's conditional in closed form, decided over its 24 grid points, and the reading of a whole
  memref through the whole-buffer rectangle: such a load returns the contents.
-/
import proofs.«128315_j16277926052524_1_alg».proof.Proof.KBRegion1Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's conditional in closed form: the second grid coordinate is zero. -/
abbrev cond1 (i : grid1.Coords) : Prop := (Scalar.cmpi .ne (Scalar.extui (Scalar.cmpi .eq (BitVec.ofNat 32 (i 1).val) 0#32)) 0#32) = 1#1

/-- It holds exactly at the first tile of each core. -/
theorem hcond1 : ∀ t : Fin cfg1.N, cond1 (grid1.coords t) ↔ t.val % 12 = 0 :=
  (by decide +kernel : ∀ t : Fin grid1.N, cond1 (grid1.coords t) ↔ t.val % 12 = 0)

theorem zeros2 : (![0, 0] : Fin 2 → ℕ) = fun _ => 0 := by funext a; fin_cases a <;> rfl
theorem zeros3 : (![0, 0, 0] : Fin 3 → ℕ) = fun _ => 0 := by funext a; fin_cases a <;> rfl

/-- A whole-buffer load of a whole memref's contents reads them. -/
theorem readAt_unit_zero {S : Shape} {e : EltTy} (m : Memref sig .tc .vmem S e) (hm : m.IsWhole) {off : Fin S.rank → ℕ}
    (h : off = fun _ => 0) (inb : ∀ a, off a + S.size a ≤ S.size a) (x : S.Idx → Elt F e) :
    View.readAt (Elt F) m.view (Rect.unit off S.size inb).toLoadRect (hm.unread x) = x := by
  rw [View.readAt_eq_ld, hm.read_unread]; exact View.ld_unit_zero h inb x

end Cert.Kernel.Hand

end
-- ==== Proof.KBRegion1BodyRunB.lean ====
/-
  The second kernel's body away from a core's first tile, as a Hoare triple.
  On whole memrefs holding a tile's affinity rows x0, the label matrix x1, the tile's label rows x2 and the
  accumulator's value xs, the body ends with both the output block and the scratch accumulator at
  stepAcc xs x0 x1 x2 and the inputs untouched. The output block's previous contents are read but never used,
  so any will do. Nothing is assumed of the float instance.
-/
import proofs.«128315_j16277926052524_1_alg».proof.Proof.KBRegion1BodyCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Away from a core's first tile: the accumulator enters at xs and leaves, like the output block, at stepAcc xs x0 x1 x2. -/
theorem kernelRun1_B (c : Dev nD) (i : grid1.Coords) (arg2 : Memref sig .tc .vmem S16x384 .f32) (harg2 : arg2.IsWhole) (arg3 : Memref sig .tc .vmem S384x40 .f32) (harg3 : arg3.IsWhole) (arg4 : Memref sig .tc .vmem S16x40 .f32) (harg4 : arg4.IsWhole) (arg5 : Memref sig .tc .vmem S1x1x40 .f32) (harg5 : arg5.IsWhole) (arg6 : Memref sig .tc .vmem S1x1x40 .f32) (harg6 : arg6.IsWhole)
    (hc : ¬cond1 i) (x0 : Vec F S16x384 .f32) (x1 : Vec F S384x40 .f32) (x2 : Vec F S16x40 .f32) (xs : Vec F S1x1x40 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (stepAcc xs x0 x1 x2) ∗ owns (c : Thread nD τ) arg6 fullShare (stepAcc xs x0 x1 x2)) -∗ K ⟨⟩))
      ⊢ wp frame (wpE (defs₀ (F := F)) Variants.none c none) E (cc1__s_kernel i arg2 harg2 arg3 harg3 arg4 harg4 arg5 harg5 arg6 harg6) K := by
  simp only [cc1__s_kernel_eq_skeleton]; unfold cc1__s_kernel_skel
  simp only [k1_part1_eq_skeleton]; unfold k1_part1_skel
  unfold owns
  iintro ⟨⟨%f0, %hf0, H0⟩, ⟨%f1, %hf1, H1⟩, ⟨%f2, %hf2, H2⟩, ⟨%d5, %f5, -, H5⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc)
  sl_step
  -- the accumulator's one store, with every load read back
  have hpay : kernelRun1_B.sl.HS_1 c arg2 harg2 arg3 harg3 arg4 harg4 arg6 harg6 x0 x1 x2 xs
      = [⟨Rect.unit ![0, 0, 0] S1x1x40.size inb_S1x1x40_S1x1x40_0_0_0, stepAcc xs x0 x1 x2⟩] := by
    unfold kernelRun1_B.sl.HS_1 kernelRun1_B.sl.cst_15 stepAcc
    dsimp only
    rw [readAt_unit_zero arg2 harg2 zeros2, readAt_unit_zero arg3 harg3 zeros2, readAt_unit_zero arg4 harg4 zeros2,
      readAt_unit_zero arg6 harg6 zeros3]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    rw [View.read_writes_eq_canon _ _ _ (fun y => ⟨_, List.mem_singleton_self _, View.mem_set_unit_zero zeros3 inb_S1x1x40_S1x1x40_0_0_0 y⟩),
      View.canon_unit_zero zeros3]
    unfold kernelRun1_B.sl.v55
    rw [hpay]
    exact View.readCov_unit_zero _ zeros3 _ _
  iexists _; isplitr
  swap; · iexact HS
  ipureintro
  rw [hpay, View.read_writes_eq_canon _ _ _ (fun y => ⟨_, List.mem_singleton_self _, View.mem_set_unit_zero zeros3 inb_S1x1x40_S1x1x40_0_0_0 y⟩)]
  exact View.canon_unit_zero zeros3 _ _

end Cert.Kernel.Hand

end
-- ==== Proof.KBRegion1BodyRunA.lean ====
/-
  The second kernel's body at a core's first tile, as a Hoare triple.
  On whole memrefs holding the tile's affinity rows x0, the label matrix x1 and the tile's label rows x2, the
  body first overwrites the scratch accumulator with the zero fill, whatever it held, and ends with both the
  output block and the accumulator at stepAcc of the zero fill, the inputs untouched. The output block's
  previous contents are read but never used, so any will do. Nothing is assumed of the float instance.
-/
import proofs.«128315_j16277926052524_1_alg».proof.Proof.KBRegion1BodyRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a core's first tile: the accumulator is first overwritten with the zero fill, whatever it held, and leaves,
    like the output block, at stepAcc of the zero fill. -/
theorem kernelRun1_A (c : Dev nD) (i : grid1.Coords) (arg2 : Memref sig .tc .vmem S16x384 .f32) (harg2 : arg2.IsWhole) (arg3 : Memref sig .tc .vmem S384x40 .f32) (harg3 : arg3.IsWhole) (arg4 : Memref sig .tc .vmem S16x40 .f32) (harg4 : arg4.IsWhole) (arg5 : Memref sig .tc .vmem S1x1x40 .f32) (harg5 : arg5.IsWhole) (arg6 : Memref sig .tc .vmem S1x1x40 .f32) (harg6 : arg6.IsWhole)
    (hc : cond1 i) (x0 : Vec F S16x384 .f32) (x1 : Vec F S384x40 .f32) (x2 : Vec F S16x40 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (stepAcc (k1_pay2 (F := F)) x0 x1 x2) ∗ owns (c : Thread nD τ) arg6 fullShare (stepAcc (k1_pay2 (F := F)) x0 x1 x2)) -∗ K ⟨⟩))
      ⊢ wp frame (wpE (defs₀ (F := F)) Variants.none c none) E (cc1__s_kernel i arg2 harg2 arg3 harg3 arg4 harg4 arg5 harg5 arg6 harg6) K := by
  simp only [cc1__s_kernel_eq_skeleton]; unfold cc1__s_kernel_skel
  simp only [k1_part1_eq_skeleton]; unfold k1_part1_skel
  unfold owns
  iintro ⟨⟨%f0, %hf0, H0⟩, ⟨%f1, %hf1, H1⟩, ⟨%f2, %hf2, H2⟩, ⟨%d5, %f5, -, H5⟩, ⟨%ds, %fs, -, HS⟩, Hk⟩
  obtain rfl := harg2.eq_unread hf0; obtain rfl := harg3.eq_unread hf1; obtain rfl := harg4.eq_unread hf2
  sl_exec (disch := first | exact hc)
  sl_step
  -- the accumulator read back after the zero fill is the zero fill
  have hv50 : kernelRun1_A.sl.v50 (F := F) c arg6 = k1_pay2 := by
    unfold kernelRun1_A.sl.v50 kernelRun1_A.sl.HS_1
    exact View.readCov_unit_zero _ zeros3 _ _
  -- the accumulator's second store, with every load read back, over the zero fill
  have hpay : kernelRun1_A.sl.HS_2 c arg2 harg2 arg3 harg3 arg4 harg4 arg6 x0 x1 x2
      = ⟨Rect.unit ![0, 0, 0] S1x1x40.size inb_S1x1x40_S1x1x40_0_0_0, stepAcc (k1_pay2 (F := F)) x0 x1 x2⟩ :: kernelRun1_A.sl.HS_1 := by
    unfold kernelRun1_A.sl.HS_2 kernelRun1_A.sl.cst_15 stepAcc
    dsimp only
    rw [readAt_unit_zero arg2 harg2 zeros2, readAt_unit_zero arg3 harg3 zeros2, readAt_unit_zero arg4 harg4 zeros2, hv50]
  have hcov : ∀ y : S1x1x40.Idx, ∃ p ∈ ((⟨Rect.unit ![0, 0, 0] S1x1x40.size inb_S1x1x40_S1x1x40_0_0_0, stepAcc (k1_pay2 (F := F)) x0 x1 x2⟩ :: kernelRun1_A.sl.HS_1 : List (View.Piece (Elt F) S1x1x40 .f32))), y ∈ p.1.set :=
    fun y => ⟨_, List.mem_cons.mpr (Or.inl rfl), View.mem_set_unit_zero zeros3 inb_S1x1x40_S1x1x40_0_0_0 y⟩
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    rw [View.read_writes_eq_canon _ _ _ (fun y => ⟨_, List.mem_singleton_self _, View.mem_set_unit_zero zeros3 inb_S1x1x40_S1x1x40_0_0_0 y⟩),
      View.canon_unit_zero zeros3]
    unfold kernelRun1_A.sl.v55
    rw [hpay, View.readCov_eq_canon_ld _ _ _ hcov, View.canon_cons_unit_zero zeros3]
    exact View.ld_unit_zero zeros3 _ _
  iexists _; isplitr
  swap; · iexact HS
  ipureintro
  rw [hpay, View.read_writes_eq_canon _ _ _ hcov]
  exact View.canon_cons_unit_zero zeros3 _ _ _

end Cert.Kernel.Hand

end
-- ==== Proof.KBRegion1Aux.lean ====
/-
  The second kernel's frame, the parts that do not depend on what the body computes. The invariant the launch hands
  the region is the first kernel's two staging buffers and the scratch accumulator, each whole at some contents, with
  the generator register at some state; it is the invariant before the first point, and after the last point the
  invariant gives it back by forgetting the accumulator's named contents. Each of the three input windows' current
  staging buffer holds, at every point, the window's block read off its array: the affinity rows and the label rows
  are fetched at every point; the label matrix is fetched once, its block index never moves, and the body leaves it
  in place. No window is idle at any point.
-/
import proofs.«128315_j16277926052524_1_alg».proof.Proof.KBRegion1Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- What the launch hands the region, with the scratch accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ d, owns (c : Thread nD τ) scM1 fullShare d)) ∗ (∃ r, prngReg c r)) := by
  unfold Pipeline.ΦA; rw [scopedRest1_eq]; simp only [scM1, owns_whole]; try rfl

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- After any point the invariant gives back what the launch handed over: the accumulator's named contents are
    forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht, PhiA1_eq]
  iintro ⟨⟨H0, H1, HS⟩, Hg⟩
  isplitl [H0 H1 HS]
  · isplitl [H0]; · iexact H0
    isplitl [H1]; · iexact H1
    iexists _; iexact HS
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 24 := N_1; omega)

/-- No window is idle at any point. -/
theorem noIdle1 : ∀ (w : Fin cfg1.W) (i : grid1.Coords), cfg1.idle w i = false := fun _ _ => rfl

/-- The affinity window's current staging buffer holds the tile's rows at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The label matrix's window holds the whole matrix at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The label rows' window holds the tile's rows at every point. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

end Cert.Kernel.Hand

end
-- ==== Proof.KBRegion1Body.lean ====
/-
  The second kernel's body obligation. At every grid point the three input windows' staging buffers hold the
  point's blocks, whatever the output window's buffer holds is overwritten, and the scratch accumulator holds
  what the point before left (or, at a core's first tile, anything: the body overwrites it with the zero fill).
  By cases on whether the point is a core's first tile, the body's triple for that case applies, and both the
  output block and the accumulator end at the accumulator's value after the point.
-/
import proofs.«128315_j16277926052524_1_alg».proof.Proof.KBRegion1BodyRunA
import proofs.«128315_j16277926052524_1_alg».proof.Proof.KBRegion1Aux

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after a core's first tile starts from the zero fill. -/
theorem accAt_init (c : Dev nD) (t : Fin cfg1.N) (h0 : t.val % 12 = 0) :
    accAt V c t.val t.isLt = stepAcc (k1_pay2 (F := F)) (iblk1 V c 0 t) (iblk1 V c 1 t) (iblk1 V c 2 t) := by
  obtain ⟨n, hn⟩ := t
  cases n with
  | zero => exact accAt_zero V c hn
  | succ n => rw [accAt_succ, if_pos h0]

/-- After any other tile it continues from what the point before left. -/
theorem accAt_carry (c : Dev nD) (t : Fin cfg1.N) (h0 : ¬t.val % 12 = 0) :
    accAt V c t.val t.isLt = stepAcc (accAt V c (t.val - 1) (Nat.lt_of_le_of_lt (Nat.sub_le _ _) t.isLt))
      (iblk1 V c 0 t) (iblk1 V c 1 t) (iblk1 V c 2 t) := by
  obtain ⟨n, hn⟩ := t
  cases n with
  | zero => exact absurd (Nat.zero_mod _) h0
  | succ n => rw [accAt_succ, if_neg h0]; rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns (no window is idle at any point). -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, after1_0, after1_1, after1_2, after1_3]
  rw [show (dat1 V c).owesAt () t.succ = (dat1 V c).owesAt () t.castSucc from rfl]
  rw [show (dat1 V c).Φ t.succ = PhiS V c (t.val + 1) t.isLt from rfl, PhiS_succ]
  by_cases h0 : t.val % 12 = 0
  · rw [accAt_init V c t h0]
    by_cases hz : t.val = 0
    · rw [PhiS_castSucc V c t, PhiS_zero V c _ _ hz, PhiA1_eq]
      iintro ⟨⟨⟨Ha, Hb, HS⟩, Hg⟩, Ho, ⟨%d0, H0⟩, ⟨%d1, H1⟩, ⟨%d2, H2⟩, ⟨%d3, H3⟩⟩
      iapply (kernelRun1_A c (grid1.coords t) _ _ _ _ _ _ _ _ _ _ ((hcond1 t).mpr h0) (iblk1 V c 0 t) (iblk1 V c 1 t) (iblk1 V c 2 t) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Ha Hb HS Hg]
      · isplitl [Ha Hb HS]
        · isplitl [Ha]; · iexact Ha
          isplitl [Hb]; · iexact Hb
          iexact HS
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨Ha, Hb, HS⟩, Hg⟩, Ho, ⟨%d0, H0⟩, ⟨%d1, H1⟩, ⟨%d2, H2⟩, ⟨%d3, H3⟩⟩
      iapply (kernelRun1_A c (grid1.coords t) _ _ _ _ _ _ _ _ _ _ ((hcond1 t).mpr h0) (iblk1 V c 0 t) (iblk1 V c 1 t) (iblk1 V c 2 t) Set.univ _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [Ha Hb HS Hg]
      · isplitl [Ha Hb HS]
        · isplitl [Ha]; · iexact Ha
          isplitl [Hb]; · iexact Hb
          iexact HS
        iexact Hg
      isplitl [Ho]; · iexact Ho
      isplitl [H0]; · iexact H0
      isplitl [H1]; · iexact H1
      isplitl [H2]; · iexact H2
      iexact H3
  · have hz : t.val ≠ 0 := fun h => h0 (by rw [h])
    rw [accAt_carry V c t h0]
    rw [PhiS_castSucc V c t, PhiS_pos V c _ _ hz]
    iintro ⟨⟨⟨Ha, Hb, HS⟩, Hg⟩, Ho, ⟨%d0, H0⟩, ⟨%d1, H1⟩, ⟨%d2, H2⟩, ⟨%d3, H3⟩⟩
    iapply (kernelRun1_B c (grid1.coords t) _ _ _ _ _ _ _ _ _ _ (fun h => h0 ((hcond1 t).mp h)) (iblk1 V c 0 t) (iblk1 V c 1 t) (iblk1 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [Ha Hb HS Hg]
    · isplitl [Ha Hb HS]
      · isplitl [Ha]; · iexact Ha
        isplitl [Hb]; · iexact Hb
        iexact HS
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBFinalArgs.lean ====
/-
  The two argument arrays at the end of the run: no host operation writes either of them and neither kernel region
  changes them, so each holds at the end what it held at launch.
-/
import proofs.«128315_j16277926052524_1_alg».proof.Proof.KBRunFold

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- A buffer that no later host operation writes and the second region does not change is, at the end, what it was
    when the second region was entered. -/
theorem W6_of (c : Dev nD) (r : Ref sig .tc) (h2 : r ∉ hostOps2_W) (h21 : r ∉ hostOps2_1_W) (h22 : r ∉ hostOps2_2_W)
    (hne : r ≠ main_v2) : W6 m c (Proc.devRef .tc r) = W2 m c (Proc.devRef .tc r) :=
  (StableHlo.after_of_writes_sub hostOps2_2 _ hostOps2_2_writes h22).trans <|
    (StableHlo.after_of_writes_sub hostOps2_1 _ hostOps2_1_writes h21).trans <|
      (StableHlo.after_of_writes_sub hostOps2 _ hostOps2_writes h2).trans (W3_of_ne m c r hne)

/-- A buffer the labels' conversion does not write and the first region does not change is, when the second region
    is entered, what it was at launch. -/
theorem W2_of (c : Dev nD) (r : Ref sig .tc) (h1 : r ∉ hostOps1_W) (hne : r ≠ main_v0) :
    W2 m c (Proc.devRef .tc r) = W0 m c (Proc.devRef .tc r) :=
  (StableHlo.after_of_writes_sub hostOps1 _ hostOps1_writes h1).trans (W1_of_ne m c r hne)

/-- The embeddings end as launched. -/
theorem W6_main_arg0 (c : Dev nD) : W6 m c main_arg0 = m ((c : Thread nD τ).loc main_arg0) :=
  (W6_of m c main_arg0 (by decide) (by decide) (by decide) (by decide)).trans
    ((W2_of m c main_arg0 (by decide) (by decide)).trans rfl)

/-- The labels end as launched. -/
theorem W6_main_arg1 (c : Dev nD) : W6 m c main_arg1 = m ((c : Thread nD τ).loc main_arg1) :=
  (W6_of m c main_arg1 (by decide) (by decide) (by decide) (by decide)).trans
    ((W2_of m c main_arg1 (by decide) (by decide)).trans rfl)

end Cert.Kernel.Hand

end
-- ==== Proof.KBFrame.lean ====
/-
  The frame of the program: from any memory with zero counters every weakly fair execution of @main terminates,
  nothing faults, and both argument arrays end as they were launched. It is the run with the second kernel's body
  obligation supplied, its post read at the two argument buffers, which no segment of @main writes: the fold of the
  boundaries' contents walks back at them to the launch memory.
-/
import proofs.«128315_j16277926052524_1_alg».proof.Proof.KBRun
import proofs.«128315_j16277926052524_1_alg».proof.Proof.KBRegion1Body
import proofs.«128315_j16277926052524_1_alg».proof.Proof.KBRegion1Aux
import proofs.«128315_j16277926052524_1_alg».proof.Proof.KBFinalArgs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the second region's record takes of its kernel, proved. -/
theorem region1Facts : Region1Facts (F := F) m :=
  ⟨fun c => body_obligation1 (E2 m) c, fun c => hin1 (E2 m) c, fun c => hout1 (E2 m) c⟩

/-- The run with nothing left to assume. -/
theorem run_main : θ_run defs (onTc (τ := τ) (main (F := F))) ⟨m, fun _ => 0, ρ⟩ (fun r => ∀ c : Dev nD, ∀ b ∈ Pipeline.ucRefs τ sig,
      r.2.mem (((c : Thread nD τ)).1, b) = W6 m c b) :=
  run m ρ (region1Facts m)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W6_main_arg0 m c),
     (h c _ (mem_uc main_arg1 (by decide))).trans (W6_main_arg1 m c)⟩) (run_main m ρ)

end Cert.Kernel.Hand

end
-- ==== Proof.KIRegion0.lean ====
/-
  The first kernel's half of the frame: one grid point; the body loads the whole embedding matrix from its staging
  buffer and stores the affinity matrix, one pure function of what it loaded, over the whole output buffer. So after
  the body the input's buffer holds the block it was handed and the output's holds that function of it; the kernel
  has nothing of its own, so the invariant is the scoped buffers it does not stage and the generator register,
  untouched; nothing is owed.
-/
import proofs.«128315_j16277926052524_1_alg».proof.Proof.Gen.KernelIdeal.Launch
import proofs.«128315_j16277926052524_1_alg».proof.Proof.Gen.KernelIdeal.Skeleton
import proofs.«128315_j16277926052524_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at the point, for any proof data whose array is the entry contents and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The two whole-buffer rectangles the body reads and writes through. -/
abbrev rIn0 : Rect S384x512 := Rect.unit (s := S384x512) ![0, 0] S384x512.size inb_S384x512_S384x512_0_0
abbrev rOut0 : Rect S384x384 := Rect.unit (s := S384x384) ![0, 0] S384x384.size inb_S384x384_S384x384_0_0

/-- The output's staging buffer after the body, from the input block: its one store. -/
def out0_1 (x0 : Vec F S384x512 .f32) : Vec F S384x384 .f32 :=
  View.canon [⟨rOut0, k0_pay1 (View.ld x0 rIn0)⟩]

/-- The one store covers the buffer. -/
theorem cover0_1 (p0 : Vec F S384x384 .f32) (y : S384x384.Idx) :
    ∃ pc ∈ ([⟨rOut0, p0⟩] : List (View.Piece (Elt F) S384x384 .f32)), y ∈ pc.1.set :=
  View.cover_of_tiled [⟨rOut0, p0⟩] S384x384.size (by rfl) y

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg1 : Memref sig .tc .vmem S384x512 .f32) (harg1 : arg1.IsWhole) (arg2 : Memref sig .tc .vmem S384x384 .f32) (harg2 : arg2.IsWhole)
    (x0 : Vec F S384x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__sim_kernel i arg1 harg1 arg2 harg2) K := by
  simp only [cc0__sim_kernel_eq_skeleton]; unfold cc0__sim_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at the one point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1Data.lean ====
/-
  The second kernel's proof data: what each of its four windows holds after the body at each of the 24 grid points.
  The grid is 2 x 12, row-major: point t works on tile t of sixteen query rows, on behalf of core t / 12. The three
  inputs are left as fetched: the tile's sixteen affinity rows, the whole label matrix (fetched once), the tile's
  sixteen label rows. The output block and the scratch accumulator both end every point at the accumulator's new
  value: the tile's contribution added to the previous value, the previous value being the zero fill at the first
  tile of a core (t % 12 = 0) and what the point before left otherwise. The accumulator survives between points in
  the scratch buffer, so the invariant between points names its contents.
  The two windows on the label matrix each hold half of its full share.
-/
import proofs.«128315_j16277926052524_1_alg».proof.Proof.Gen.KernelIdeal.Launch
import proofs.«128315_j16277926052524_1_alg».proof.Proof.Gen.KernelIdeal.Skeleton
import proofs.«128315_j16277926052524_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One tile's step of the accumulator: the previous value plus the tile's contribution, from the tile's affinity
    rows `x0`, the label matrix `x1` and the tile's label rows `x2`. -/
def stepAcc (acc : Vec F S1x1x40 .f32) (x0 : Vec F S16x384 .f32) (x1 : Vec F S384x40 .f32) (x2 : Vec F S16x40 .f32) : Vec F S1x1x40 .f32 :=
  k1_pay1 (k1_pay3 x2) (k1_pay5 x0) (k1_pay6 x1) (k1_pay7 x0 x1) (Scalar.ofBits .f32 0x3F000000#32) acc

/-- The accumulator after the body at point `n`: started from the zero fill at the first tile of each core. -/
def accAt (c : Dev nD) : (n : ℕ) → n < cfg1.N → Vec F S1x1x40 .f32
  | 0, hn => stepAcc (k1_pay2 (F := F)) (iblk1 V c 0 ⟨0, hn⟩) (iblk1 V c 1 ⟨0, hn⟩) (iblk1 V c 2 ⟨0, hn⟩)
  | n + 1, hn =>
    stepAcc (if (n + 1) % 12 = 0 then k1_pay2 (F := F) else accAt c n (Nat.lt_of_succ_lt hn))
      (iblk1 V c 0 ⟨n + 1, hn⟩) (iblk1 V c 1 ⟨n + 1, hn⟩) (iblk1 V c 2 ⟨n + 1, hn⟩)

theorem accAt_zero (c : Dev nD) (hn : 0 < cfg1.N) :
    accAt V c 0 hn = stepAcc (k1_pay2 (F := F)) (iblk1 V c 0 ⟨0, hn⟩) (iblk1 V c 1 ⟨0, hn⟩) (iblk1 V c 2 ⟨0, hn⟩) := rfl

theorem accAt_succ (c : Dev nD) (n : ℕ) (hn : n + 1 < cfg1.N) :
    accAt V c (n + 1) hn = stepAcc (if (n + 1) % 12 = 0 then k1_pay2 (F := F) else accAt V c n (Nat.lt_of_succ_lt hn))
      (iblk1 V c 0 ⟨n + 1, hn⟩) (iblk1 V c 1 ⟨n + 1, hn⟩) (iblk1 V c 2 ⟨n + 1, hn⟩) := rfl

/-- The scratch accumulator as a memref. -/
abbrev scM1 : Memref sig .tc .vmem S1x1x40 .f32 := Memref.whole cc1_scratch0

/-- The invariant before position `n`: before the first point every scoped buffer that is no staging buffer of this
    kernel at anything; afterwards the first kernel's two staging buffers at anything and the accumulator at what the
    point before left in it; the generator register at some state throughout. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ owns (c : Thread nD τ) scM1 fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ owns (c : Thread nD τ) scM1 fullShare (accAt V c n hn)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ owns (c : Thread nD τ) scM1 fullShare (accAt V c (n - 1) (by omega))) ∗ (∃ r, prngReg c r)) := by
  cases n with
  | zero => exact absurd rfl hz
  | succ n => rfl

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => accAt V c t.val t.isLt
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = accAt V c t.val t.isLt := by dsimp only [dat1]

end Cert.KernelIdeal.Hand

end
-- ==== Proof.KIRunFold.lean ====
/-
  The run of the whole program, first half: the contents of the TensorCore's buffers at each boundary of @main, as a
  fold from the launch memory — the first kernel replaces the affinity array by what its one write-back leaves, the
  labels are converted to floats, the second kernel replaces the per-core totals by what its two write-backs leave,
  and the host operations that follow compute the loss from them —; the proof data of both kernels, each at the
  contents its region is entered with; and the first kernel's region as a segment of the run: its two arrays are
  split out of the core's buffers on entry and put back, the output at its new contents, on exit.
-/
import proofs.«128315_j16277926052524_1_alg».proof.Proof.KIRegion0
import proofs.«128315_j16277926052524_1_alg».proof.Proof.KIRegion1Data
import proofs.«128315_j16277926052524_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Core `c`'s buffers at launch: the first region's entry. -/
abbrev W0 : Dev nD → Valuation τ sig (Elt F) := fun c b => m ((c : Dev nD), b)
abbrev E0 : (c : Dev nD) → (b : Ref sig .tc) → Buf (Elt F) ((c : Thread nD τ).loc b) := fun c b => W0 m c b
/-- After the first region: the affinity array at what its one write-back leaves, every other buffer as it was. -/
def W1 (c : Dev nD) : Valuation τ sig (Elt F) :=
  Function.update (W0 m c) (Proc.devRef .tc main_v0) ((dat0 (E0 m) c).arrAt 1 cfg0.N)
/-- After the labels' conversion to floats: the second region's entry. -/
abbrev W2 : Dev nD → Valuation τ sig (Elt F) := fun c => StableHlo.after hostOps1 (W1 m c)
abbrev E2 : (c : Dev nD) → (b : Ref sig .tc) → Buf (Elt F) ((c : Thread nD τ).loc b) := fun c b => W2 m c b
/-- After the second region: the per-core totals at what its write-backs leave, every other buffer as it was. -/
def W3 (c : Dev nD) : Valuation τ sig (Elt F) :=
  Function.update (W2 m c) (Proc.devRef .tc main_v2) ((dat1 (E2 m) c).arrAt 3 cfg1.N)
/-- After the host operations that follow. -/
abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)

theorem W1_v0 (c : Dev nD) : W1 m c (Proc.devRef .tc main_v0) = (dat0 (E0 m) c).arrAt 1 cfg0.N := by
  unfold W1; exact Function.update_self ..
theorem W1_of_ne (c : Dev nD) (b : Ref sig .tc) (hb : b ≠ main_v0) : W1 m c (Proc.devRef .tc b) = W0 m c (Proc.devRef .tc b) := by
  unfold W1; exact Function.update_of_ne (StableHlo.devRef_ne_of_ne hb) ..
theorem W3_v2 (c : Dev nD) : W3 m c (Proc.devRef .tc main_v2) = (dat1 (E2 m) c).arrAt 3 cfg1.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (E0 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region as a segment -/

theorem hF0 (c : Dev nD) (w : Fin cfg0.W) : (dat0 (E0 m) c).arrAt w cfg0.N = (fun b : Ref sig .tc => W1 m c b) (Pipeline.arrRef spec0 w) := by
  match w with
  | ⟨0, _⟩ => exact ((dat0 (E0 m) c).arrAt_in 0 rfl _).trans ((A_eq0 (E0 m) c 0).trans (W1_of_ne m c main_arg0 (by decide)).symm)
  | ⟨1, _⟩ => exact (W1_v0 m c).symm
theorem hrest0 (c : Dev nD) : ∀ b, b ∉ Finset.univ.image (Pipeline.arrRef spec0) → (fun b : Ref sig .tc => W1 m c b) b = E0 m c b :=
  fun b hb => W1_of_ne m c b fun e => hb (Finset.mem_image.mpr ⟨1, Finset.mem_univ _, e.symm⟩)

set_option backward.isDefEq.respectTransparency.types false in
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E0 m c) (fun b : Ref sig .tc => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRun.lean ====
/-
  The run of the whole program, second half. The second kernel's region as a segment: its four windows stand on three
  arrays, two of them reading the label matrix, so on entry that array's full share is split in two halves, one per
  window, and on exit the halves are joined again; the three inputs end as they were entered and the per-core totals
  at what the two write-backs leave. Then @main as its six segments in order — region, conversion, region, and the
  three stretches of host operations that compute the loss — and the launch: every weakly fair execution terminates,
  nothing faults, and the final memory holds every buffer at the last boundary's contents.
  What the second region's record takes of its kernel (the body obligation at every grid point, and the invariant's
  two ends) is a hypothesis here, proved apart.
-/
import proofs.«128315_j16277926052524_1_alg».proof.Proof.KIRunFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the second region's record takes of its kernel: the body obligation and the invariant's two ends. -/
structure Region1Facts : Prop where
  hbody : ∀ c : Dev nD, BodyObligation (dat1 (F := F) (E2 m) c) (defs₀ (F := F)) Variants.none () Set.univ
  hin : ∀ c : Dev nD, (Pipeline.ΦA spec1 c : sProp 𝕄) ⊢ (dat1 (E2 m) c).Φ 0
  hout : ∀ c : Dev nD, (dat1 (E2 m) c).Φ (Fin.last cfg1.N) ⊢ (Pipeline.ΦA spec1 c : sProp 𝕄)

/-- The three distinct buffers behind the second kernel's four windows. -/
theorem arrImage1 : Finset.univ.image (Pipeline.arrRef spec1) = ([main_v0, main_v1, main_v2] : List (Ref sig .tc)).toFinset := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1) ∗ (((c : Thread nD τ).loc main_v2) ↦{fullShare} V main_v2)) := by
  unfold Pipeline.arrBufs
  exact Idealize.SL.BI.bigSep_eq_bigSepL_of_eq [main_v0, main_v1, main_v2] arrImage1 (by decide) _

theorem arrays1_eq (c : Dev nD) (V : (c : Dev nD) → (b : Ref sig .tc) → Buf (Elt F) ((c : Thread nD τ).loc b))
    (Fa : (w : Fin cfg1.W) → Buf (Elt F) ((cfg1.win w).arr.view.loc (c : Thread nD τ))) :
    ((dat1 V c).arrays Fa : sProp 𝕄)
      = iprop((((c : Thread nD τ).loc main_v0) ↦{fullShare} Fa 0) ∗ (((c : Thread nD τ).loc main_v1) ↦{fullShare.left} Fa 1)
          ∗ (((c : Thread nD τ).loc main_v1) ↦{fullShare.right} Fa 2) ∗ (((c : Thread nD τ).loc main_v2) ↦{fullShare} Fa 3)) := by
  unfold Dat.arrays
  rw [bigSep_W1]
  rw [(arr_whole1 0).set_eq_univ, (arr_whole1 1).set_eq_univ, (arr_whole1 3).set_eq_univ]
  rfl

/-- The second region's arrays at its exit: the three inputs as entered, the output at what its write-backs leave. -/
theorem hF1 (c : Dev nD) (w : Fin cfg1.W) : (dat1 (E2 m) c).arrAt w cfg1.N = (fun b : Ref sig .tc => W3 m c b) (Pipeline.arrRef spec1 w) := by
  match w with
  | ⟨0, _⟩ => exact ((dat1 (E2 m) c).arrAt_in 0 rfl _).trans ((A_eq1 (E2 m) c 0).trans (W3_of_ne m c main_v0 (by decide)).symm)
  | ⟨1, _⟩ => exact ((dat1 (E2 m) c).arrAt_in 1 rfl _).trans ((A_eq1 (E2 m) c 1).trans (W3_of_ne m c main_v1 (by decide)).symm)
  | ⟨2, _⟩ => exact ((dat1 (E2 m) c).arrAt_in 2 rfl _).trans ((A_eq1 (E2 m) c 2).trans (W3_of_ne m c main_v1 (by decide)).symm)
  | ⟨3, _⟩ => exact (W3_v2 m c).symm

/-- ENTRY of the second region, the arrays' part: the core's unscoped buffers are the region's four windows' arrays,
    the label matrix split in two halves of its share between the two windows that read it, and the rest. -/
theorem arrays1_of_unscopedBufs (c : Dev nD) :
    (unscopedBufs c (E2 m c) : sProp 𝕄)
      ⊢ iprop((dat1 (E2 m) c).arrays ((dat1 (E2 m) c).arrAt · 0) ∗ Pipeline.unscopedRest (Ix := Unit) (Name := ℕ) (U := UR sig nD τ) (Lvl := ℕ) spec1 c (E2 m c)) := by
  rw [show (unscopedBufs c (E2 m c) : sProp 𝕄)
        = iprop(Pipeline.arrBufs (Ix := Unit) (Name := ℕ) (U := UR sig nD τ) (Lvl := ℕ) spec1 c (E2 m c) ∗ Pipeline.unscopedRest (Ix := Unit) (Name := ℕ) (U := UR sig nD τ) (Lvl := ℕ) spec1 c (E2 m c))
      from Pipeline.unscopedBufs_split₀ (Pipeline.pin (pcfgs (F := F)) adm') 1 winFacts₀1.arr_unscoped c (E2 m c),
    arrBufs1_eq, arrays1_eq]
  iintro ⟨⟨H0, H1, H2⟩, Hrest⟩
  ihave H1' := (pointsTo_share (PosShare.mem_left_op_right fullShare)).1 $$ H1
  icases H1' with ⟨H1l, H1r⟩
  isplitr [Hrest]
  · isplitl [H0]; · iexact H0
    isplitl [H1l]; · iexact H1l
    isplitl [H1r]; · iexact H1r
    iexact H2
  iexact Hrest

theorem hrest1 (c : Dev nD) : ∀ b, b ∉ Finset.univ.image (Pipeline.arrRef spec1) → (fun b : Ref sig .tc => W3 m c b) b = E2 m c b :=
  fun b hb => W3_of_ne m c b fun e => hb (Finset.mem_image.mpr ⟨3, Finset.mem_univ _, e.symm⟩)

/-- EXIT of the second region, the arrays' part: the four windows' arrays at their final contents — the two halves of
    the label matrix joined again — and the rest are the core's unscoped buffers at the next boundary's contents. -/
theorem unscopedBufs_of_arrays1 (c : Dev nD) :
    iprop((dat1 (E2 m) c).arrays ((dat1 (E2 m) c).arrAt · cfg1.N) ∗ Pipeline.unscopedRest (Ix := Unit) (Name := ℕ) (U := UR sig nD τ) (Lvl := ℕ) spec1 c (E2 m c))
      ⊢ (unscopedBufs c (fun b : Ref sig .tc => W3 m c b) : sProp 𝕄) := by
  rw [show (unscopedBufs c (fun b : Ref sig .tc => W3 m c b) : sProp 𝕄)
        = iprop(Pipeline.arrBufs (Ix := Unit) (Name := ℕ) (U := UR sig nD τ) (Lvl := ℕ) spec1 c (fun b : Ref sig .tc => W3 m c b) ∗ Pipeline.unscopedRest (Ix := Unit) (Name := ℕ) (U := UR sig nD τ) (Lvl := ℕ) spec1 c (fun b : Ref sig .tc => W3 m c b))
      from Pipeline.unscopedBufs_split₀ (Pipeline.pin (pcfgs (F := F)) adm') 1 winFacts₀1.arr_unscoped c (fun b : Ref sig .tc => W3 m c b),
    arrBufs1_eq, arrays1_eq, hF1 m c 0, hF1 m c 1, hF1 m c 2, hF1 m c 3]
  have hr : (Pipeline.unscopedRest (Ix := Unit) (Name := ℕ) (U := UR sig nD τ) (Lvl := ℕ) spec1 c (E2 m c) : sProp 𝕄)
      = Pipeline.unscopedRest (Ix := Unit) (Name := ℕ) (U := UR sig nD τ) (Lvl := ℕ) spec1 c (fun b : Ref sig .tc => W3 m c b) := by
    unfold Pipeline.unscopedRest
    exact bigSep_congr fun b hb => by rw [hrest1 m c b (Finset.mem_sdiff.mp hb).2]
  rw [hr]
  iintro ⟨⟨H0, H1l, H1r, H3⟩, Hrest⟩
  isplitr [Hrest]
  · isplitl [H0]; · iexact H0
    isplitl [H1l H1r]
    · iapply (pointsTo_share (PosShare.mem_left_op_right fullShare)).2
      isplitl [H1l] <;> iassumption
    iexact H3
  iexact Hrest

set_option backward.isDefEq.respectTransparency.types false in
/-- The second region as a segment: entered from every unscoped buffer at the contents after the conversion, left
    with the totals at their new contents. -/
def reg1 (h1 : Region1Facts (F := F) m) : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (h1.hbody c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := arrays1_of_unscopedBufs m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (h1.hin c)
    unfold Pipeline.ΦA
    iintro ⟨Hp, -, Hr⟩
    isplitl [Hr]; · iexact Hr
    iexact Hp
  hout c := by
    rw [Pipeline.ownSems0_none]
    refine (h1.hout c).trans ?_
    unfold Pipeline.ΦA
    iintro ⟨Hr, Hp⟩
    isplitl [Hp]; · iexact Hp
    isplitr; · iempintro
    iexact Hr
  hexit c := by
    have hjoin := unscopedBufs_of_arrays1 m c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's six segments in order: the two regions, and a host segment per stretch from its boundary's contents. -/
abbrev mainSegs (h1 : Region1Facts (F := F) m) (c : Dev nD) : List (Pipeline.Seg (pcfgs (F := F)) adm' (pdats m) () defs₀ 𝒱₀ L lv) :=
  [ .region (reg0 m),
    .host (hseg hostOps1 hostOps1_sub hostOps1_fresh (W1 m)),
    .region (reg1 m h1),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)) ]

/-- The last thread state regrouped: the buffers and the generator register on one side, the core owing nothing on the other. -/
theorem lastState (c : Dev nD) :
    iprop(StableHlo.held (c : Thread nD τ) (Pipeline.ucRefs τ sig) (W6 m c) ∗ R c)
      ⊢ (iprop((StableHlo.held (c : Thread nD τ) (Pipeline.ucRefs τ sig) (W6 m c) ∗ ∃ r, prngReg c r) ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in
/-- THE RUN. At the compiled mesh, from any memory with zero counters, every weakly fair execution of @main on the
    TensorCores terminates, nothing faulting, and the final memory holds every unscoped buffer at the last boundary's
    contents: the fold of the two regions and the host operations from the launch memory. -/
theorem run (h1 : Region1Facts (F := F) m) :
    θ_run defs (onTc (τ := τ) (main (F := F))) ⟨m, fun _ => 0, ρ⟩ (fun r => ∀ c : Dev nD, ∀ b ∈ Pipeline.ucRefs τ sig,
      r.2.mem (((c : Thread nD τ)).1, b) = W6 m c b) :=
  Pipeline.θ_run_regions_kit_dev (pcfgs (F := F)) adm' (pdats m) () cellOf_inj emb₁ defs₀ 𝒱₀ L lv m ρ main
    (mainSegs m h1)
    (fun c Q => by
      rewrite [main_chain c, Pipeline.Seg.run_eq_chain,
        show (mainSegs m h1 c).map Pipeline.Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (fun c => by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W6 m c) ∗ ∃ r, prngReg c r))
    (hch := fun c => ⟨.rfl, .rfl, .rfl, .rfl, .rfl, .rfl, lastState m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Hand

end
-- ==== Proof.KIRegion1BodyCond.lean ====
/-
  The second kernel's conditional in closed form, decided over its 24 grid points, and the reading of a whole
  memref through the whole-buffer rectangle: such a load returns the contents.
-/
import proofs.«128315_j16277926052524_1_alg».proof.Proof.KIRegion1Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's conditional in closed form: the second grid coordinate is zero. -/
abbrev cond1 (i : grid1.Coords) : Prop := (Scalar.cmpi .ne (Scalar.extui (Scalar.cmpi .eq (BitVec.ofNat 32 (i 1).val) 0#32)) 0#32) = 1#1

/-- It holds exactly at the first tile of each core. -/
theorem hcond1 : ∀ t : Fin cfg1.N, cond1 (grid1.coords t) ↔ t.val % 12 = 0 :=
  (by decide +kernel : ∀ t : Fin grid1.N, cond1 (grid1.coords t) ↔ t.val % 12 = 0)

theorem zeros2 : (![0, 0] : Fin 2 → ℕ) = fun _ => 0 := by funext a; fin_cases a <;> rfl
theorem zeros3 : (![0, 0, 0] : Fin 3 → ℕ) = fun _ => 0 := by funext a; fin_cases a <;> rfl

/-- A whole-buffer load of a whole memref's contents reads them. -/
theorem readAt_unit_zero {S : Shape} {e : EltTy} (m : Memref sig .tc .vmem S e) (hm : m.IsWhole) {off : Fin S.rank → ℕ}
    (h : off = fun _ => 0) (inb : ∀ a, off a + S.size a ≤ S.size a) (x : S.Idx → Elt F e) :
    View.readAt (Elt F) m.view (Rect.unit off S.size inb).toLoadRect (hm.unread x) = x := by
  rw [View.readAt_eq_ld, hm.read_unread]; exact View.ld_unit_zero h inb x

end Cert.KernelIdeal.Hand

end
-- ==== Proof.KIRegion1BodyRunB.lean ====
/-
  The second kernel's body away from a core's first tile, as a Hoare triple.
  On whole memrefs holding a tile's affinity rows x0, the label matrix x1, the tile's label rows x2 and the
  accumulator's value xs, the body ends with both the output block and the scratch accumulator at
  stepAcc xs x0 x1 x2 and the inputs untouched. The output block's previous contents are read but never used,
  so any will do. Nothing is assumed of the float instance.
-/
import proofs.«128315_j16277926052524_1_alg».proof.Proof.KIRegion1BodyCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Away from a core's first tile: the accumulator enters at xs and leaves, like the output block, at stepAcc xs x0 x1 x2. -/
theorem kernelRun1_B (c : Dev nD) (i : grid1.Coords) (arg2 : Memref sig .tc .vmem S16x384 .f32) (harg2 : arg2.IsWhole) (arg3 : Memref sig .tc .vmem S384x40 .f32) (harg3 : arg3.IsWhole) (arg4 : Memref sig .tc .vmem S16x40 .f32) (harg4 : arg4.IsWhole) (arg5 : Memref sig .tc .vmem S1x1x40 .f32) (harg5 : arg5.IsWhole) (arg6 : Memref sig .tc .vmem S1x1x40 .f32) (harg6 : arg6.IsWhole)
    (hc : ¬cond1 i) (x0 : Vec F S16x384 .f32) (x1 : Vec F S384x40 .f32) (x2 : Vec F S16x40 .f32) (xs : Vec F S1x1x40 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (stepAcc xs x0 x1 x2) ∗ owns (c : Thread nD τ) arg6 fullShare (stepAcc xs x0 x1 x2)) -∗ K ⟨⟩))
      ⊢ wp frame (wpE (defs₀ (F := F)) Variants.none c none) E (cc1__s_kernel i arg2 harg2 arg3 harg3 arg4 harg4 arg5 harg5 arg6 harg6) K := by
  simp only [cc1__s_kernel_eq_skeleton]; unfold cc1__s_kernel_skel
  simp only [k1_part1_eq_skeleton]; unfold k1_part1_skel
  unfold owns
  iintro ⟨⟨%f0, %hf0, H0⟩, ⟨%f1, %hf1, H1⟩, ⟨%f2, %hf2, H2⟩, ⟨%d5, %f5, -, H5⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc)
  sl_step
  -- the accumulator's one store, with every load read back
  have hpay : kernelRun1_B.sl.HS_1 c arg2 harg2 arg3 harg3 arg4 harg4 arg6 harg6 x0 x1 x2 xs
      = [⟨Rect.unit ![0, 0, 0] S1x1x40.size inb_S1x1x40_S1x1x40_0_0_0, stepAcc xs x0 x1 x2⟩] := by
    unfold kernelRun1_B.sl.HS_1 kernelRun1_B.sl.cst_15 stepAcc
    dsimp only
    rw [readAt_unit_zero arg2 harg2 zeros2, readAt_unit_zero arg3 harg3 zeros2, readAt_unit_zero arg4 harg4 zeros2,
      readAt_unit_zero arg6 harg6 zeros3]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    rw [View.read_writes_eq_canon _ _ _ (fun y => ⟨_, List.mem_singleton_self _, View.mem_set_unit_zero zeros3 inb_S1x1x40_S1x1x40_0_0_0 y⟩),
      View.canon_unit_zero zeros3]
    unfold kernelRun1_B.sl.v55
    rw [hpay]
    exact View.readCov_unit_zero _ zeros3 _ _
  iexists _; isplitr
  swap; · iexact HS
  ipureintro
  rw [hpay, View.read_writes_eq_canon _ _ _ (fun y => ⟨_, List.mem_singleton_self _, View.mem_set_unit_zero zeros3 inb_S1x1x40_S1x1x40_0_0_0 y⟩)]
  exact View.canon_unit_zero zeros3 _ _

end Cert.KernelIdeal.Hand

end
-- ==== Proof.KIRegion1BodyRunA.lean ====
/-
  The second kernel's body at a core's first tile, as a Hoare triple.
  On whole memrefs holding the tile's affinity rows x0, the label matrix x1 and the tile's label rows x2, the
  body first overwrites the scratch accumulator with the zero fill, whatever it held, and ends with both the
  output block and the accumulator at stepAcc of the zero fill, the inputs untouched. The output block's
  previous contents are read but never used, so any will do. Nothing is assumed of the float instance.
-/
import proofs.«128315_j16277926052524_1_alg».proof.Proof.KIRegion1BodyRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a core's first tile: the accumulator is first overwritten with the zero fill, whatever it held, and leaves,
    like the output block, at stepAcc of the zero fill. -/
theorem kernelRun1_A (c : Dev nD) (i : grid1.Coords) (arg2 : Memref sig .tc .vmem S16x384 .f32) (harg2 : arg2.IsWhole) (arg3 : Memref sig .tc .vmem S384x40 .f32) (harg3 : arg3.IsWhole) (arg4 : Memref sig .tc .vmem S16x40 .f32) (harg4 : arg4.IsWhole) (arg5 : Memref sig .tc .vmem S1x1x40 .f32) (harg5 : arg5.IsWhole) (arg6 : Memref sig .tc .vmem S1x1x40 .f32) (harg6 : arg6.IsWhole)
    (hc : cond1 i) (x0 : Vec F S16x384 .f32) (x1 : Vec F S384x40 .f32) (x2 : Vec F S16x40 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (stepAcc (k1_pay2 (F := F)) x0 x1 x2) ∗ owns (c : Thread nD τ) arg6 fullShare (stepAcc (k1_pay2 (F := F)) x0 x1 x2)) -∗ K ⟨⟩))
      ⊢ wp frame (wpE (defs₀ (F := F)) Variants.none c none) E (cc1__s_kernel i arg2 harg2 arg3 harg3 arg4 harg4 arg5 harg5 arg6 harg6) K := by
  simp only [cc1__s_kernel_eq_skeleton]; unfold cc1__s_kernel_skel
  simp only [k1_part1_eq_skeleton]; unfold k1_part1_skel
  unfold owns
  iintro ⟨⟨%f0, %hf0, H0⟩, ⟨%f1, %hf1, H1⟩, ⟨%f2, %hf2, H2⟩, ⟨%d5, %f5, -, H5⟩, ⟨%ds, %fs, -, HS⟩, Hk⟩
  obtain rfl := harg2.eq_unread hf0; obtain rfl := harg3.eq_unread hf1; obtain rfl := harg4.eq_unread hf2
  sl_exec (disch := first | exact hc)
  sl_step
  -- the accumulator read back after the zero fill is the zero fill
  have hv50 : kernelRun1_A.sl.v50 (F := F) c arg6 = k1_pay2 := by
    unfold kernelRun1_A.sl.v50 kernelRun1_A.sl.HS_1
    exact View.readCov_unit_zero _ zeros3 _ _
  -- the accumulator's second store, with every load read back, over the zero fill
  have hpay : kernelRun1_A.sl.HS_2 c arg2 harg2 arg3 harg3 arg4 harg4 arg6 x0 x1 x2
      = ⟨Rect.unit ![0, 0, 0] S1x1x40.size inb_S1x1x40_S1x1x40_0_0_0, stepAcc (k1_pay2 (F := F)) x0 x1 x2⟩ :: kernelRun1_A.sl.HS_1 := by
    unfold kernelRun1_A.sl.HS_2 kernelRun1_A.sl.cst_15 stepAcc
    dsimp only
    rw [readAt_unit_zero arg2 harg2 zeros2, readAt_unit_zero arg3 harg3 zeros2, readAt_unit_zero arg4 harg4 zeros2, hv50]
  have hcov : ∀ y : S1x1x40.Idx, ∃ p ∈ ((⟨Rect.unit ![0, 0, 0] S1x1x40.size inb_S1x1x40_S1x1x40_0_0_0, stepAcc (k1_pay2 (F := F)) x0 x1 x2⟩ :: kernelRun1_A.sl.HS_1 : List (View.Piece (Elt F) S1x1x40 .f32))), y ∈ p.1.set :=
    fun y => ⟨_, List.mem_cons.mpr (Or.inl rfl), View.mem_set_unit_zero zeros3 inb_S1x1x40_S1x1x40_0_0_0 y⟩
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    rw [View.read_writes_eq_canon _ _ _ (fun y => ⟨_, List.mem_singleton_self _, View.mem_set_unit_zero zeros3 inb_S1x1x40_S1x1x40_0_0_0 y⟩),
      View.canon_unit_zero zeros3]
    unfold kernelRun1_A.sl.v55
    rw [hpay, View.readCov_eq_canon_ld _ _ _ hcov, View.canon_cons_unit_zero zeros3]
    exact View.ld_unit_zero zeros3 _ _
  iexists _; isplitr
  swap; · iexact HS
  ipureintro
  rw [hpay, View.read_writes_eq_canon _ _ _ hcov]
  exact View.canon_cons_unit_zero zeros3 _ _ _

end Cert.KernelIdeal.Hand

end
-- ==== Proof.KIRegion1Aux.lean ====
/-
  The second kernel's frame, the parts that do not depend on what the body computes. The invariant the launch hands
  the region is the first kernel's two staging buffers and the scratch accumulator, each whole at some contents, with
  the generator register at some state; it is the invariant before the first point, and after the last point the
  invariant gives it back by forgetting the accumulator's named contents. Each of the three input windows' current
  staging buffer holds, at every point, the window's block read off its array: the affinity rows and the label rows
  are fetched at every point; the label matrix is fetched once, its block index never moves, and the body leaves it
  in place. No window is idle at any point.
-/
import proofs.«128315_j16277926052524_1_alg».proof.Proof.KIRegion1Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- What the launch hands the region, with the scratch accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ d, owns (c : Thread nD τ) scM1 fullShare d)) ∗ (∃ r, prngReg c r)) := by
  unfold Pipeline.ΦA; rw [scopedRest1_eq]; simp only [scM1, owns_whole]; try rfl

/-- What the launch hands the region is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- After any point the invariant gives back what the launch handed over: the accumulator's named contents are
    forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht, PhiA1_eq]
  iintro ⟨⟨H0, H1, HS⟩, Hg⟩
  isplitl [H0 H1 HS]
  · isplitl [H0]; · iexact H0
    isplitl [H1]; · iexact H1
    iexists _; iexact HS
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 24 := N_1; omega)

/-- No window is idle at any point. -/
theorem noIdle1 : ∀ (w : Fin cfg1.W) (i : grid1.Coords), cfg1.idle w i = false := fun _ _ => rfl

/-- The affinity window's current staging buffer holds the tile's rows at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The label matrix's window holds the whole matrix at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The label rows' window holds the tile's rows at every point. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

end Cert.KernelIdeal.Hand

end
-- ==== Proof.KIRegion1Body.lean ====
/-
  The second kernel's body obligation. At every grid point the three input windows' staging buffers hold the
  point's blocks, whatever the output window's buffer holds is overwritten, and the scratch accumulator holds
  what the point before left (or, at a core's first tile, anything: the body overwrites it with the zero fill).
  By cases on whether the point is a core's first tile, the body's triple for that case applies, and both the
  output block and the accumulator end at the accumulator's value after the point.
-/
import proofs.«128315_j16277926052524_1_alg».proof.Proof.KIRegion1BodyRunA
import proofs.«128315_j16277926052524_1_alg».proof.Proof.KIRegion1Aux

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after a core's first tile starts from the zero fill. -/
theorem accAt_init (c : Dev nD) (t : Fin cfg1.N) (h0 : t.val % 12 = 0) :
    accAt V c t.val t.isLt = stepAcc (k1_pay2 (F := F)) (iblk1 V c 0 t) (iblk1 V c 1 t) (iblk1 V c 2 t) := by
  obtain ⟨n, hn⟩ := t
  cases n with
  | zero => exact accAt_zero V c hn
  | succ n => rw [accAt_succ, if_pos h0]

/-- After any other tile it continues from what the point before left. -/
theorem accAt_carry (c : Dev nD) (t : Fin cfg1.N) (h0 : ¬t.val % 12 = 0) :
    accAt V c t.val t.isLt = stepAcc (accAt V c (t.val - 1) (Nat.lt_of_le_of_lt (Nat.sub_le _ _) t.isLt))
      (iblk1 V c 0 t) (iblk1 V c 1 t) (iblk1 V c 2 t) := by
  obtain ⟨n, hn⟩ := t
  cases n with
  | zero => exact absurd (Nat.zero_mod _) h0
  | succ n => rw [accAt_succ, if_neg h0]; rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns (no window is idle at any point). -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, after1_0, after1_1, after1_2, after1_3]
  rw [show (dat1 V c).owesAt () t.succ = (dat1 V c).owesAt () t.castSucc from rfl]
  rw [show (dat1 V c).Φ t.succ = PhiS V c (t.val + 1) t.isLt from rfl, PhiS_succ]
  by_cases h0 : t.val % 12 = 0
  · rw [accAt_init V c t h0]
    by_cases hz : t.val = 0
    · rw [PhiS_castSucc V c t, PhiS_zero V c _ _ hz, PhiA1_eq]
      iintro ⟨⟨⟨Ha, Hb, HS⟩, Hg⟩, Ho, ⟨%d0, H0⟩, ⟨%d1, H1⟩, ⟨%d2, H2⟩, ⟨%d3, H3⟩⟩
      iapply (kernelRun1_A c (grid1.coords t) _ _ _ _ _ _ _ _ _ _ ((hcond1 t).mpr h0) (iblk1 V c 0 t) (iblk1 V c 1 t) (iblk1 V c 2 t) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Ha Hb HS Hg]
      · isplitl [Ha Hb HS]
        · isplitl [Ha]; · iexact Ha
          isplitl [Hb]; · iexact Hb
          iexact HS
        iexact Hg
      isplitl [Ho]; · iexact Ho
      isplitl [H0]; · iexact H0
      isplitl [H1]; · iexact H1
      isplitl [H2]; · iexact H2
      iexact H3
    · rw [PhiS_castSucc V c t, PhiS_pos V c _ _ hz]
      iintro ⟨⟨⟨Ha, Hb, HS⟩, Hg⟩, Ho, ⟨%d0, H0⟩, ⟨%d1, H1⟩, ⟨%d2, H2⟩, ⟨%d3, H3⟩⟩
      iapply (kernelRun1_A c (grid1.coords t) _ _ _ _ _ _ _ _ _ _ ((hcond1 t).mpr h0) (iblk1 V c 0 t) (iblk1 V c 1 t) (iblk1 V c 2 t) Set.univ _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [Ha Hb HS Hg]
      · isplitl [Ha Hb HS]
        · isplitl [Ha]; · iexact Ha
          isplitl [Hb]; · iexact Hb
          iexact HS
        iexact Hg
      isplitl [Ho]; · iexact Ho
      isplitl [H0]; · iexact H0
      isplitl [H1]; · iexact H1
      isplitl [H2]; · iexact H2
      iexact H3
  · have hz : t.val ≠ 0 := fun h => h0 (by rw [h])
    rw [accAt_carry V c t h0]
    rw [PhiS_castSucc V c t, PhiS_pos V c _ _ hz]
    iintro ⟨⟨⟨Ha, Hb, HS⟩, Hg⟩, Ho, ⟨%d0, H0⟩, ⟨%d1, H1⟩, ⟨%d2, H2⟩, ⟨%d3, H3⟩⟩
    iapply (kernelRun1_B c (grid1.coords t) _ _ _ _ _ _ _ _ _ _ (fun h => h0 ((hcond1 t).mp h)) (iblk1 V c 0 t) (iblk1 V c 1 t) (iblk1 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [Ha Hb HS Hg]
    · isplitl [Ha Hb HS]
      · isplitl [Ha]; · iexact Ha
        isplitl [Hb]; · iexact Hb
        iexact HS
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIFinalArgs.lean ====
/-
  The two argument arrays at the end of the run: no host operation writes either of them and neither kernel region
  changes them, so each holds at the end what it held at launch.
-/
import proofs.«128315_j16277926052524_1_alg».proof.Proof.KIRunFold

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- A buffer that no later host operation writes and the second region does not change is, at the end, what it was
    when the second region was entered. -/
theorem W6_of (c : Dev nD) (r : Ref sig .tc) (h2 : r ∉ hostOps2_W) (h21 : r ∉ hostOps2_1_W) (h22 : r ∉ hostOps2_2_W)
    (hne : r ≠ main_v2) : W6 m c (Proc.devRef .tc r) = W2 m c (Proc.devRef .tc r) :=
  (StableHlo.after_of_writes_sub hostOps2_2 _ hostOps2_2_writes h22).trans <|
    (StableHlo.after_of_writes_sub hostOps2_1 _ hostOps2_1_writes h21).trans <|
      (StableHlo.after_of_writes_sub hostOps2 _ hostOps2_writes h2).trans (W3_of_ne m c r hne)

/-- A buffer the labels' conversion does not write and the first region does not change is, when the second region
    is entered, what it was at launch. -/
theorem W2_of (c : Dev nD) (r : Ref sig .tc) (h1 : r ∉ hostOps1_W) (hne : r ≠ main_v0) :
    W2 m c (Proc.devRef .tc r) = W0 m c (Proc.devRef .tc r) :=
  (StableHlo.after_of_writes_sub hostOps1 _ hostOps1_writes h1).trans (W1_of_ne m c r hne)

/-- The embeddings end as launched. -/
theorem W6_main_arg0 (c : Dev nD) : W6 m c main_arg0 = m ((c : Thread nD τ).loc main_arg0) :=
  (W6_of m c main_arg0 (by decide) (by decide) (by decide) (by decide)).trans
    ((W2_of m c main_arg0 (by decide) (by decide)).trans rfl)

/-- The labels end as launched. -/
theorem W6_main_arg1 (c : Dev nD) : W6 m c main_arg1 = m ((c : Thread nD τ).loc main_arg1) :=
  (W6_of m c main_arg1 (by decide) (by decide) (by decide) (by decide)).trans
    ((W2_of m c main_arg1 (by decide) (by decide)).trans rfl)

end Cert.KernelIdeal.Hand

end
-- ==== Proof.KIFrame.lean ====
/-
  The frame of the program: from any memory with zero counters every weakly fair execution of @main terminates,
  nothing faults, and both argument arrays end as they were launched. It is the run with the second kernel's body
  obligation supplied, its post read at the two argument buffers, which no segment of @main writes: the fold of the
  boundaries' contents walks back at them to the launch memory.
-/
import proofs.«128315_j16277926052524_1_alg».proof.Proof.KIRun
import proofs.«128315_j16277926052524_1_alg».proof.Proof.KIRegion1Body
import proofs.«128315_j16277926052524_1_alg».proof.Proof.KIRegion1Aux
import proofs.«128315_j16277926052524_1_alg».proof.Proof.KIFinalArgs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the second region's record takes of its kernel, proved. -/
theorem region1Facts : Region1Facts (F := F) m :=
  ⟨fun c => body_obligation1 (E2 m) c, fun c => hin1 (E2 m) c, fun c => hout1 (E2 m) c⟩

/-- The run with nothing left to assume. -/
theorem run_main : θ_run defs (onTc (τ := τ) (main (F := F))) ⟨m, fun _ => 0, ρ⟩ (fun r => ∀ c : Dev nD, ∀ b ∈ Pipeline.ucRefs τ sig,
      r.2.mem (((c : Thread nD τ)).1, b) = W6 m c b) :=
  run m ρ (region1Facts m)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W6_main_arg0 m c),
     (h c _ (mem_uc main_arg1 (by decide))).trans (W6_main_arg1 m c)⟩) (run_main m ρ)

end Cert.KernelIdeal.Hand

end
-- ==== Proof.RankTail.lean ====
/-
  The last stage both programs share: from the per-label totals `s` and the per-label counts of positives `cnt`
  to the scalar loss. A label is valid when it has more than one positive; its average precision is
  `s / max cnt 1 / 384`, zero when not valid; the loss is the sum over valid labels of `1 - ap` divided by the number
  of valid labels floored at one. It is stated once, over the printed host operations, and never opened: the two
  programs agree as soon as their totals and counts do.
-/
import Idealize.ShloMosaic.PureOps
import Idealize.ShloMosaic.PureOps.Ideal

noncomputable section

namespace Cert.RankLoss

open Idealize.ShloMosaic

abbrev V40 : Shape := ⟨1, ![40]⟩
abbrev V0 : Shape := ⟨0, ![]⟩

/-- The loss from the totals and the counts, as the host operations compute it. The three shape facts are
    propositions, so any proofs of them give the same function. -/
def lossOf (hb : V0.BroadcastsInDim V40 (![] : Fin 0 → Fin V40.rank)) (hr : V40.ReducesTo [0] V0) (h0 : 0 < V0.numel)
    (s cnt : FVec Ideal V40 .f32) : FVec Ideal V0 .f32 :=
  let one40 : FVec Ideal V40 .f32 := broadcastInDim V40 ![] hb (constant (F := Ideal) V0 .f32 0x3F800000#32)
  let valid : Vec Ideal V40 .i1 := cmpf .ogt cnt one40
  let ap : FVec Ideal V40 .f32 :=
    select valid
      (Host.divf (Host.divf s (maximumf cnt one40)) (broadcastInDim V40 ![] hb (constant (F := Ideal) V0 .f32 0x43C00000#32)))
      (broadcastInDim V40 ![] hb (id (constant (F := Ideal) V0 .f32 0x00000000#32)))
  let nValid : FVec Ideal V0 .f32 :=
    maximumf (Host.reduceAdd (uitofp .f32 valid) (constant (F := Ideal) V0 .f32 0x00000000#32) hr h0) (constant (F := Ideal) V0 .f32 0x3F800000#32)
  Host.divf (Host.reduceAdd (mulf (subf one40 ap) (uitofp .f32 valid)) (constant (F := Ideal) V0 .f32 0x00000000#32) hr h0) nValid

end Cert.RankLoss

end
-- ==== Proof.RankArrays.lean ====
/-
  The two argument arrays read by coordinates: the embeddings as extended reals, the integer labels as the reals
  their words denote when read signed (so every label entry is a real number, whatever the word).
-/
import Idealize.ShloMosaic.PureOps
import Idealize.ShloMosaic.PureOps.Ideal
import Idealize.ShloMosaic.Lib.ValueIdx

noncomputable section

namespace Cert.RankLoss

open Idealize.ShloMosaic

abbrev A384x512 : Shape := ⟨2, ![384, 512]⟩
abbrev A384x40 : Shape := ⟨2, ![384, 40]⟩

/-- The embeddings by row and column. -/
def xOf (a : (⟨A384x512, .f32⟩ : BufTy).Contents (Elt Ideal)) : Fin 384 → Fin 512 → EReal :=
  fun q d => a (ValueIdx.ix2 q d)

/-- The labels as reals, by row and label. -/
def labelOf (a : (⟨A384x40, .i32⟩ : BufTy).Contents (Elt Ideal)) : Fin 384 → Fin 40 → ℝ :=
  fun q l => (((a (ValueIdx.ix2 q l)).toInt : ℤ) : ℝ)

/-- The labels as extended reals: what converting the integers to floats gives at every entry. -/
def posOf (a : (⟨A384x40, .i32⟩ : BufTy).Contents (Elt Ideal)) : Fin 384 → Fin 40 → EReal :=
  fun q l => ((labelOf a q l : ℝ) : EReal)

theorem sitofp_apply (a : (⟨A384x40, .i32⟩ : BufTy).Contents (Elt Ideal)) (q : Fin 384) (l : Fin 40) :
    (sitofp (F := Ideal) .f32 a : (⟨A384x40, .f32⟩ : BufTy).Contents (Elt Ideal)) (ValueIdx.ix2 q l) = posOf a q l := rfl

end Cert.RankLoss

end
-- ==== Proof.KITail.lean ====
/-
  The kernel program's host operations read as values. The labels' conversion to floats is one operation. After the
  second region, the totals per label are the sum of the two cores' rows of the region's output, the counts per label
  are the column sums of the converted labels, and every later operation is the shared last stage applied to these
  two vectors.
-/
import proofs.«128315_j16277926052524_1_alg».proof.Proof.Gen.KernelIdeal.Launch
import proofs.«128315_j16277926052524_1_alg».proof.Proof.RankTail
import proofs.«128315_j16277926052524_1_alg».proof.Proof.RankArrays
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Hand

open Cert.KernelIdeal Cert.KernelIdeal.Gen Cert.RankLoss Idealize.ShloMosaic Idealize.ShloMosaic.TcCoe Idealize.SL.Sem
open Idealize.ShloMosaic.ValueIdx

/-- The labels converted to floats. -/
theorem convert_value (W : Valuation τ sig (Elt Ideal)) :
    StableHlo.after (hostOps1 (F := Ideal)) W main_v1 = (sitofp (F := Ideal) .f32 (W main_arg1) : (⟨S384x40, .f32⟩ : BufTy).Contents (Elt Ideal)) := by
  show StableHlo.after (hostOps1 (F := Ideal)) W (Proc.devRef .tc main_v1) = _
  after_results

/-- The sum over the two cores of a [2, 1, 40] array from a zero word, reshaped to [40], at label `l`. -/
theorem totals_stage (X : FVec Ideal S2x1x40 .f32) (l : Fin 40) :
    shapeCast S40 (Host.reduceAdd X (constant (F := Ideal) S_ .f32 0x00000000#32) reducesTo_S2x1x40_S1x40_d0 h_S_)
        shapeCasts_S1x40_S40 (ix1 l)
      = ∑ k : Fin 2, X (ix3 k (0 : Fin 1) l) := by
  rw [shapeCast_1a_a_apply, hostReduceAdd_apply,
    Ideal.hostReduceAdd_single _ (by decide : S2x1x40.Reduces [0] S1x40), constant_apply, Ideal.ofBits_zero_f32, zero_add]
  refine Finset.sum_congr rfl fun k _ => congrArg X (funext fun a => ?_)
  fin_cases a <;> rfl

/-- The column sums of a [384, 40] array from a zero word, at label `l`. -/
theorem counts_stage (X : FVec Ideal S384x40 .f32) (l : Fin 40) :
    Host.reduceAdd X (constant (F := Ideal) S_ .f32 0x00000000#32) reducesTo_S384x40_S40_d0 h_S_ (ix1 l)
      = ∑ q : Fin 384, X (ix2 q l) := by
  rw [hostReduceAdd_apply, Ideal.hostReduceAdd_single _ (by decide : S384x40.Reduces [0] S40), constant_apply,
    Ideal.ofBits_zero_f32, zero_add]
  refine Finset.sum_congr rfl fun q _ => congrArg X (funext fun a => ?_)
  fin_cases a <;> rfl

set_option maxHeartbeats 4000000 in
/-- The host operations after the second region compute the shared last stage from the totals and the counts. -/
theorem tail_value (hb : V0.BroadcastsInDim V40 (![] : Fin 0 → Fin V40.rank)) (hr : V40.ReducesTo [0] V0) (h0 : 0 < V0.numel) (W : Valuation τ sig (Elt Ideal)) :
    StableHlo.after (hostOps2_2 (F := Ideal)) (StableHlo.after (hostOps2_1 (F := Ideal)) (StableHlo.after (hostOps2 (F := Ideal)) W)) main_v22
      = lossOf hb hr h0 (fun i => ∑ k : Fin 2, (W main_v2) (ValueIdx.ix3 k (0 : Fin 1) (i 0))) (fun i => ∑ q : Fin 384, (W main_v1) (ValueIdx.ix2 q (i 0))) := by
  have h4 : (fun i => ∑ k : Fin 2, (W main_v2) (ValueIdx.ix3 k (0 : Fin 1) (i 0)) : FVec Ideal V40 .f32)
      = fun i => shapeCast S40 (Host.reduceAdd (W (Proc.devRef .tc main_v2)) (constant (F := Ideal) S_ .f32 0x00000000#32)
          reducesTo_S2x1x40_S1x40_d0 h_S_) shapeCasts_S1x40_S40 i := by
    funext i
    rw [eq_ix1 i]
    exact (totals_stage _ (i 0)).symm
  have h5 : (fun i => ∑ q : Fin 384, (W main_v1) (ValueIdx.ix2 q (i 0)) : FVec Ideal V40 .f32)
      = Host.reduceAdd (W (Proc.devRef .tc main_v1)) (constant (F := Ideal) S_ .f32 0x00000000#32) reducesTo_S384x40_S40_d0 h_S_ := by
    funext i
    rw [eq_ix1 i]
    exact (counts_stage _ (i 0)).symm
  rw [h4, h5]
  show StableHlo.after (hostOps2_2 (F := Ideal)) _ (Proc.devRef .tc main_v22) = _
  after_results_simp
  rfl

end Cert.KernelIdeal.Hand

end
-- ==== Proof.RankSpec.lean ====
/-
  The smooth average-precision ranking loss, written once as plain functions on the extended reals, in the two
  arrangements the two programs compute.

  From unit rows `u q = x q / max (sqrt (sum_d x q d ^ 2)) eps` the affinity is `sim q k = sum_d u q d * u k d`.
  For a query row `s = sim q` the smoothed indicator that item `k` ranks above item `j` is
  `sgRow s j k = 1 / (1 + exp (clamp (-(s k - s j) / T)))` with the clamp to [-50, 50]; whatever `s` is, the clamp
  makes the exponent a real number, so `sgRow` is a real in (0, 1).
  The rank of `j` among all items is `1/2 + sum_k sgRow s j k` (the kernel's arrangement) or
  `(1 + sum_k sgRow s j k) - 1/2` (the reference's), its rank among the positives of label `l` is
  `(1 + sum_k sgRow s j k * pos k l) - 1/2 * pos j l`, and the ratio of the two is summed over the positive pairs
  `(q, j)` of each label: the kernel one query row at a time, sixteen rows to a tile, twelve tiles accumulated per
  core and the two cores added; the reference as one double sum of `pos q l * pos j l * ratio`.
-/
import Idealize.ShloMosaic.PureOps.Ideal
import Mathlib.Algebra.BigOperators.Fin

noncomputable section

namespace Cert.RankLoss

open Idealize.ShloMosaic

/-- The float literals both programs share, as the extended reals their words denote. -/
def epsW : EReal := Ideal.ofBits .f32 0x2B8CBCCC#32
def tempW : EReal := Ideal.ofBits .f32 0x3C23D70A#32
def loW : EReal := Ideal.ofBits .f32 0xC2480000#32
def hiW : EReal := Ideal.ofBits .f32 0x42480000#32
def oneW : EReal := Ideal.ofBits .f32 0x3F800000#32
def halfW : EReal := Ideal.ofBits .f32 0x3F000000#32

/-! ## The affinity matrix -/

section Sim
variable (x : Fin 384 → Fin 512 → EReal)

/-- The length of row `q`, floored at the epsilon. -/
def rowNorm (q : Fin 384) : EReal := max (Ideal.sqrt (∑ d, x q d * x q d)) epsW
/-- Row `q` scaled to unit length. -/
def unitRow (q : Fin 384) (d : Fin 512) : EReal := Ideal.div (x q d) (rowNorm x q)
/-- The cosine affinity of rows `q` and `k`. -/
def simOf (q k : Fin 384) : EReal := ∑ d, unitRow x q d * unitRow x k d
end Sim

/-! ## One query row -/

section Row
variable (s : Fin 384 → EReal) (pos : Fin 384 → Fin 40 → EReal)

/-- The temperature sigmoid of `s k - s j` with the exponent clamped to [-50, 50]. -/
def sgRow (j k : Fin 384) : EReal :=
  Ideal.div oneW (oneW + Ideal.exp (min hiW (max loW (Ideal.div (-(s k - s j)) tempW))))
/-- The rank of `j` among all items: the kernel's arrangement, -/
def rankAllK (j : Fin 384) : EReal := halfW + ∑ k, sgRow s j k
/-- and the reference's. -/
def rankAllR (j : Fin 384) : EReal := (oneW + ∑ k, sgRow s j k) - halfW
/-- The rank of `j` among the positives of label `l`. -/
def rankPos (j : Fin 384) (l : Fin 40) : EReal := (oneW + ∑ k, sgRow s j k * pos k l) - halfW * pos j l
def ratioK (j : Fin 384) (l : Fin 40) : EReal := Ideal.div (rankPos s pos j l) (rankAllK s j)
def ratioR (j : Fin 384) (l : Fin 40) : EReal := Ideal.div (rankPos s pos j l) (rankAllR s j)
/-- What one query row, whose own labels are `pq`, adds to label `l`'s total in the kernel. -/
def rowTermK (pq : Fin 40 → EReal) (l : Fin 40) : EReal := (∑ j, ratioK s pos j l * pos j l) * pq l
end Row

/-! ## The totals per label -/

section Totals
variable (sim : Fin 384 → Fin 384 → EReal) (pos : Fin 384 → Fin 40 → EReal)

/-- Row `r` of tile `b` (sixteen rows to a tile). -/
def rowOf (b : Fin 24) (r : Fin 16) : Fin 384 := ⟨16 * b.val + r.val, by omega⟩
/-- Tile `b`'s total for label `l`. -/
def tile (b : Fin 24) (l : Fin 40) : EReal :=
  ∑ r : Fin 16, rowTermK (sim (rowOf b r)) pos (pos (rowOf b r)) l
/-- Tile number `n` when there is one, zero past the last. -/
def tileN (n : ℕ) (l : Fin 40) : EReal := if h : n < 24 then tile sim pos ⟨n, h⟩ l else 0
/-- Core `c`'s accumulator after `n` of its twelve tiles, started at zero. -/
def accK (c : Fin 2) : ℕ → Fin 40 → EReal
  | 0, _ => 0
  | n + 1, l => accK c n l + tileN sim pos (12 * c.val + n) l
/-- The kernel's total for label `l`: the two cores' accumulators added. -/
def sKer (l : Fin 40) : EReal := ∑ c : Fin 2, accK sim pos c 12 l
/-- The reference's total for label `l`: the double sum over pairs. -/
def sRef (l : Fin 40) : EReal := ∑ q, ∑ j, (pos q l * pos j l) * ratioR (sim q) pos j l
/-- The number of positives of label `l`. -/
def cnt (l : Fin 40) : EReal := ∑ q, pos q l
end Totals

end Cert.RankLoss

end
-- ==== Proof.KIFinalCore.lean ====
/-
  The kernel program's result as a function of its two argument arrays, from what the two kernel regions leave.

  After the run the result buffer holds the shared last stage applied to two vectors: the totals per label, the sum of
  the two cores' rows of the second region's output, and the counts per label, the column sums of the converted
  labels. Given that the first region leaves the affinity of the embeddings in its output and that the second region
  leaves each core's accumulator after its twelve tiles, computed from the affinity array and the converted labels it
  was entered with, the totals are the kernel's arrangement of the ranking sum and the counts are the numbers of
  positives, both as functions of the launch contents of the two arguments.
-/
import proofs.«128315_j16277926052524_1_alg».proof.Proof.KIRunFold
import proofs.«128315_j16277926052524_1_alg».proof.Proof.KIFinalArgs
import proofs.«128315_j16277926052524_1_alg».proof.Proof.KITail
import proofs.«128315_j16277926052524_1_alg».proof.Proof.RankSpec
import proofs.«128315_j16277926052524_1_alg».proof.Proof.RankArrays
import proofs.«128315_j16277926052524_1_alg».proof.Proof.RankTail
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RankLoss

variable (m : (ℓ : Loc nD τ sig) → Buf (Elt Ideal) ℓ)

/-- The converted labels when the second region is entered, by row and label: the launch labels as extended reals. -/
theorem labels_entry (c : Dev nD) (q : Fin 384) (l : Fin 40) :
    (W2 (F := Ideal) m c main_v1) (ValueIdx.ix2 q l) = posOf (m ((c : Thread nD τ).loc main_arg1)) q l := by
  have e : W2 (F := Ideal) m c main_v1
      = (sitofp (F := Ideal) .f32 (W1 m c main_arg1) : (⟨S384x40, .f32⟩ : BufTy).Contents (Elt Ideal)) :=
    convert_value (W1 m c)
  have e1 : W1 (F := Ideal) m c main_arg1 = m ((c : Thread nD τ).loc main_arg1) :=
    (W1_of_ne m c main_arg1 (by decide)).trans rfl
  rw [e, e1]
  rfl

/-- The converted labels are not changed by the second region. -/
theorem labels_exit (c : Dev nD) (q : Fin 384) (l : Fin 40) :
    (W3 (F := Ideal) m c main_v1) (ValueIdx.ix2 q l) = posOf (m ((c : Thread nD τ).loc main_arg1)) q l := by
  have e : W3 (F := Ideal) m c main_v1 = W2 m c main_v1 := W3_of_ne m c main_v1 (by decide)
  rw [e]
  exact labels_entry m c q l

/-- The affinity array when the second region is entered is what the first region left. -/
theorem affinity_entry (c : Dev nD) :
    W2 (F := Ideal) m c main_v0 = (dat0 (E0 m) c).arrAt 1 cfg0.N :=
  (StableHlo.after_of_writes_sub hostOps1 _ hostOps1_writes (by decide : main_v0 ∉ hostOps1_W)).trans (W1_v0 m c)

section FromRegions

variable
  (hsim : ∀ (V : (c : Dev nD) → (b : Ref sig .tc) → Buf (Elt Ideal) ((c : Thread nD τ).loc b)) (c : Dev nD) (q k : Fin 384),
    (dat0 (F := Ideal) V c).arrAt 1 cfg0.N (ValueIdx.ix2 q k) = simOf (fun q d => (V c main_arg0) (ValueIdx.ix2 q d)) q k)
  (htot : ∀ (V : (c : Dev nD) → (b : Ref sig .tc) → Buf (Elt Ideal) ((c : Thread nD τ).loc b)) (c : Dev nD) (k : Fin 2) (l : Fin 40),
    (dat1 (F := Ideal) V c).arrAt 3 cfg1.N (ValueIdx.ix3 k (0 : Fin 1) l)
      = accK (fun q k' => (V c main_v0) (ValueIdx.ix2 q k')) (fun q l => (V c main_v1) (ValueIdx.ix2 q l)) k 12 l)

include hsim in
/-- The affinity array when the second region is entered, by row and column: the affinity of the launch embeddings. -/
theorem affinity_entry_apply (c : Dev nD) (q k : Fin 384) :
    (W2 (F := Ideal) m c main_v0) (ValueIdx.ix2 q k) = simOf (xOf (m ((c : Thread nD τ).loc main_arg0))) q k := by
  rw [affinity_entry m c]
  exact hsim (E0 m) c q k

include hsim htot in
/-- The second region's output, core by core and label by label: the core's accumulator after its twelve tiles. -/
theorem totals_exit (c : Dev nD) (k : Fin 2) (l : Fin 40) :
    (W3 (F := Ideal) m c main_v2) (ValueIdx.ix3 k (0 : Fin 1) l)
      = accK (simOf (xOf (m ((c : Thread nD τ).loc main_arg0)))) (posOf (m ((c : Thread nD τ).loc main_arg1))) k 12 l := by
  have e : W3 (F := Ideal) m c main_v2 = (dat1 (E2 m) c).arrAt 3 cfg1.N := W3_v2 m c
  rw [e, htot (E2 m) c k l]
  have es : (fun q k' => (E2 m c main_v0) (ValueIdx.ix2 q k')) = simOf (xOf (m ((c : Thread nD τ).loc main_arg0))) :=
    funext fun q => funext fun k' => affinity_entry_apply m hsim c q k'
  have ep : (fun q l => (E2 m c main_v1) (ValueIdx.ix2 q l)) = posOf (m ((c : Thread nD τ).loc main_arg1)) :=
    funext fun q => funext fun l => labels_entry m c q l
  rw [es, ep]

include hsim htot in
/-- The program's result from the launch contents of its two arguments. -/
theorem final_value_of (hb : Cert.RankLoss.V0.BroadcastsInDim Cert.RankLoss.V40 (![] : Fin 0 → Fin Cert.RankLoss.V40.rank))
    (hr : Cert.RankLoss.V40.ReducesTo [0] Cert.RankLoss.V0) (h0 : 0 < Cert.RankLoss.V0.numel) (c : Dev nD) :
    W6 (F := Ideal) m c main_v22
      = lossOf hb hr h0
          (fun i => sKer (simOf (xOf (m ((c : Thread nD τ).loc main_arg0)))) (posOf (m ((c : Thread nD τ).loc main_arg1))) (i 0))
          (fun i => cnt (posOf (m ((c : Thread nD τ).loc main_arg1))) (i 0)) := by
  refine (tail_value hb hr h0 (W3 m c)).trans ?_
  refine congrArg₂ (lossOf hb hr h0) (funext fun i => ?_) (funext fun i => ?_)
  · unfold sKer
    exact Finset.sum_congr rfl fun k _ => totals_exit m hsim htot c k (i 0)
  · unfold cnt
    exact Finset.sum_congr rfl fun q _ => labels_exit m c q (i 0)

end FromRegions

end Cert.KernelIdeal.Hand

end
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.BodySim.lean ====
/-
  The affinity kernel's stored value read at an index.

  The body squares the embeddings, sums every row, lays the sums out as a column, takes the square root, floors it at
  the epsilon, copies the column along the rows, divides, and multiplies the unit rows with themselves contracting the
  second axis of both factors into a zero accumulator. Read at `(q, k)` this is the sum over the `d` of
  `u q d * u k d`, with `u q d` the entry `(q, d)` divided by the floored length of row `q`.
-/
import proofs.«128315_j16277926052524_1_alg».proof.Proof.Gen.KernelIdeal.Skeleton
import proofs.«128315_j16277926052524_1_alg».proof.Proof.RankSpec
import proofs.«128315_j16277926052524_1_alg».proof.Proof.LibRowsTimesRows
import proofs.«128315_j16277926052524_1_alg».proof.Proof.LibColumnForms
import proofs.«128315_j16277926052524_1_alg».proof.Proof.LibRowForms
import Idealize.ShloMosaic.Lib.ValueIdx
import Idealize.ShloMosaic.Lib.Pipeline.Value
import Idealize.ShloMosaic.Lib.ValueLayout
import Idealize.ShloMosaic.PureOps.Ideal.Laws

noncomputable section

namespace Cert.RankLoss.Body

open Cert.KernelIdeal Cert.KernelIdeal.Gen Cert.RankLoss Idealize.ShloMosaic

/-- The floored row lengths as the body lays them out: a column copied along the rows. -/
theorem norm_apply (v0 : Vec Ideal S384x512 .f32) (q : Fin 384) (d : Fin 512) :
    broadcastTo S384x512
        (maximumf
          (sqrt (shapeCast S384x1
            (multiReduction (F := Ideal) .add [1] S384 (mulf v0 v0) 0x00000000#32 reduces_S384x512_S384 (.inl rfl) rfl)
            shapeCasts_S384_S384x1))
          (broadcast S384x1 (Scalar.ofBits (F := Ideal) .f32 0x2B8CBCCC#32)))
        broadcasts_S384x1_S384x512 (ValueIdx.ix2 q d)
      = rowNorm (fun q d => v0 (ValueIdx.ix2 q d)) q := by
  refine (Cert.ColumnForms.broadcastTo_a1_ab_apply _ broadcasts_S384x1_S384x512 q d).trans ?_
  show max (Ideal.sqrt (shapeCast S384x1 _ shapeCasts_S384_S384x1 (ValueIdx.ix2 q (0 : Fin 1)))) _ = _
  rw [Cert.ColumnForms.shapeCast_a_a1_apply, Cert.RowForms.multiReduction_add_rows]
  rfl

/-- The unit rows: every entry over its row's floored length. -/
theorem unit_apply (v0 : Vec Ideal S384x512 .f32) (q : Fin 384) (d : Fin 512) :
    divf v0 (broadcastTo S384x512
        (maximumf
          (sqrt (shapeCast S384x1
            (multiReduction (F := Ideal) .add [1] S384 (mulf v0 v0) 0x00000000#32 reduces_S384x512_S384 (.inl rfl) rfl)
            shapeCasts_S384_S384x1))
          (broadcast S384x1 (Scalar.ofBits (F := Ideal) .f32 0x2B8CBCCC#32)))
        broadcasts_S384x1_S384x512) (ValueIdx.ix2 q d)
      = unitRow (fun q d => v0 (ValueIdx.ix2 q d)) q d := by
  rw [ValueIdx.divf_apply, norm_apply]
  rfl

/-- The affinity kernel's stored value at `(q, k)` is the cosine affinity of rows `q` and `k`. -/
theorem sim_payload (v0 : Vec Ideal S384x512 .f32) (q k : Fin 384) :
    k0_pay1 (F := Ideal) v0 (ValueIdx.ix2 q k) = simOf (fun q d => v0 (ValueIdx.ix2 q d)) q k := by
  unfold k0_pay1
  refine (Cert.RowsTimesRows.rowsMatmul_zero_apply (R := 384) (n := 512) (k := 384) _ _ _ _ q k).trans ?_
  unfold simOf
  exact Finset.sum_congr rfl fun c _ => congrArg₂ (· * ·) (unit_apply v0 q c) (unit_apply v0 k c)

end Cert.RankLoss.Body

end
-- ==== Proof.KIValue0.lean ====
/-
  What the first kernel region leaves in its output array: the cosine affinity of every pair of rows of the region's
  input array. The region has one grid point, whose input block is the whole input array and whose output block is
  the whole output array.
-/
import proofs.«128315_j16277926052524_1_alg».proof.Proof.KIRegion0
import proofs.«128315_j16277926052524_1_alg».proof.Proof.BodySim
import Idealize.ShloMosaic.Lib.Pipeline.Value

noncomputable section

namespace Cert.KernelIdeal.Hand

open Cert.KernelIdeal Cert.KernelIdeal.Gen Cert.RankLoss Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The affinity matrix of an array of rows, index by index. -/
def simArr (a0 : S384x512.Idx → EReal) : S384x384.Idx → EReal :=
  fun i => simOf (fun q d => a0 (ValueIdx.ix2 q d)) (i 0) (i 1)

/-- The printed index maps at every point of the grid: both windows sit at block (0, 0). -/
theorem block_origin0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The body's stored value of a block that agrees with an array, at a block index that names an array index with the
    same coordinates, is the array's affinity matrix there. -/
theorem sim_block (x0 : Vec Ideal S384x512 .f32) (a0 : S384x512.Idx → EReal) (hx : ∀ y, x0 y = a0 y)
    (y i : S384x384.Idx) (hi : ∀ a, (i a).val = (y a).val) :
    k0_pay1 (F := Ideal) x0 y = simArr a0 i := by
  obtain rfl : x0 = a0 := funext hx
  obtain rfl : i = y := funext fun a => Fin.ext (hi a)
  calc k0_pay1 (F := Ideal) x0 i = k0_pay1 (F := Ideal) x0 (ValueIdx.ix2 (i 0) (i 1)) := congrArg (k0_pay1 (F := Ideal) x0) (ValueIdx.eq_ix2 i)
    _ = simOf (fun q d => x0 (ValueIdx.ix2 q d)) (i 0) (i 1) := Cert.RankLoss.Body.sim_payload x0 (i 0) (i 1)
    _ = simArr x0 i := rfl

/-- What the one point writes back is its block of the affinity matrix of the input array as the region finds it. -/
theorem flushed0_1_eq (c : Dev nD) (t : Fin cfg0.N) :
    (dat0 (F := Ideal) V c).flushed 1 t = ((cfg0.win 1).blk t).view.read (Elt Ideal) (simArr (V c main_arg0)) := by
  show (cfg0.win 1).cut (grid0.coords t) ((dat0 V c).after 1 t) = _
  rw [after0_1]
  unfold out0_1
  rw [View.canon_unit_zero zero_offsets2]
  simp only [View.ld_unit_zero (S := S384x512) zero_offsets2]
  obtain ⟨e0, e1, e2, e3⟩ := block_origin0 t
  funext j
  show k0_pay1 (F := Ideal) (iblk0 V c 0 t) j = simArr (V c main_arg0) (((cfg0.win 1).blk t).view.emb j)
  refine sim_block (iblk0 V c 0 t) (V c main_arg0) (fun y => ?_) j _ (fun a => ?_)
  · show V c main_arg0 (((cfg0.win 0).blk t).view.emb y) = V c main_arg0 y
    refine congrArg _ (funext fun a => Fin.ext ?_)
    match a with
    | ⟨0, _⟩ => show win0_0.index t (0 : Fin 2) * 384 + 1 * (y 0).val = (y 0).val; omega
    | ⟨1, _⟩ => show win0_0.index t (1 : Fin 2) * 512 + 1 * (y 1).val = (y 1).val; omega
  · match a with
    | ⟨0, _⟩ => show win0_1.index t (0 : Fin 2) * 384 + 1 * (j 0).val = (j 0).val; omega
    | ⟨1, _⟩ => show win0_1.index t (1 : Fin 2) * 384 + 1 * (j 1).val = (j 1).val; omega

/-- An index of the array is in point `t`'s block iff each coordinate is in the block's range on its axis. -/
theorem mem_blk0_1 (t : Fin cfg0.N) (i : S384x384.Idx) :
    i ∈ ((cfg0.win 1).blk t).view.set ↔ ∀ a : Fin 2, win0_1.index t a * S384x384.size a ≤ (i a).val ∧ (i a).val < win0_1.index t a * S384x384.size a + S384x384.size a := by
  show i ∈ ((View.whole main_v0).slice (win0_1.rect t)).set ↔ _
  rw [View.set_slice_whole, Rect.mem_set_unit]
  exact Iff.rfl

/-- The one point's block is the whole array. -/
theorem cover0_1_all (i : S384x384.Idx) :
    ∃ t : Fin cfg0.N, (cfg0.win 1).flush t = true ∧ i ∈ ((cfg0.win 1).blk t).view.set := by
  refine ⟨t0_0, flush0_1 _, ?_⟩
  rw [mem_blk0_1]
  obtain ⟨-, -, e2, e3⟩ := block_origin0 t0_0
  intro a
  match a with
  | ⟨0, _⟩ =>
    show win0_1.index t0_0 (0 : Fin 2) * 384 ≤ (i 0).val ∧ (i 0).val < win0_1.index t0_0 (0 : Fin 2) * 384 + 384
    have h0 : (i 0).val < 384 := (i 0).isLt; omega
  | ⟨1, _⟩ =>
    show win0_1.index t0_0 (1 : Fin 2) * 384 ≤ (i 1).val ∧ (i 1).val < win0_1.index t0_0 (1 : Fin 2) * 384 + 384
    have h1 : (i 1).val < 384 := (i 1).isLt; omega

/-- The region's output array ends holding the affinity matrix of its input array. -/
theorem sim_array (c : Dev nD) : (dat0 (F := Ideal) V c).arrAt 1 cfg0.N = simArr (V c main_arg0) :=
  (dat0 V c).arrAt_eq_of_cover 1 (simArr (V c main_arg0)) (fun t _ => flushed0_1_eq V c t) cover0_1_all

theorem sim_value (c : Dev nD) (q k : Fin 384) :
    (dat0 (F := Ideal) V c).arrAt 1 cfg0.N (ValueIdx.ix2 q k) = simOf (fun q d => (V c main_arg0) (ValueIdx.ix2 q d)) q k := by
  rw [sim_array]
  rfl

end Cert.KernelIdeal.Hand

end
-- ==== Proof.BodyForms.lean ====
/-
  Layouts and lane sums of rank-3 arrays read at an index by coordinates.

  A matrix `[a, b]` viewed as `[a, 1, b]` or as `[a, b, 1]` holds the same entries in the same row-major order, the
  unit coordinate contributing nothing to the position. An array with a unit axis copied along that axis reads, at any
  index, the operand with `0` on the unit axis. A sum of `[a, b, c]` along its last axis is, at `(i, j)`, the sum over
  `k` of the entries `(i, j, k)`; along its middle axis, at `(i, l)`, the sum over `j` of the entries `(i, j, l)`.
-/
import Idealize.ShloMosaic.PureOps.Ideal.Laws
import Idealize.ShloMosaic.Lib.Pipeline.Value
import Idealize.ShloMosaic.Lib.ValueIdx

noncomputable section

namespace Cert.RankLoss.Body

open Idealize.ShloMosaic Idealize.ShloMosaic.ValueIdx

section Layout
variable {α : Type}

/-- `[a, b] → [a, 1, b]`: entry `(i, u, j)` is the matrix's `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- `[a, b] → [a, b, 1]`: entry `(i, j, u)` is the matrix's `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, 1, c]` copied along its unit axis to `[a, b, c]`: at `(i, j, l)` it is the entry `(i, 0, l)`. -/
theorem across_apply {a b c : ℕ} (X : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ X h (ix3 i j l) = X (ix3 i (0 : Fin 1) l) :=
  broadcastTo_apply X h _ _ fun x => match x with
    | ⟨0, _⟩ => by
      show i.val = if a = 1 then 0 else i.val
      split
      · have := i.isLt; omega
      · rfl
    | ⟨1, _⟩ => rfl
    | ⟨2, _⟩ => by
      show l.val = if c = 1 then 0 else l.val
      split
      · have := l.isLt; omega
      · rfl

/-- `[a, b, 1]` copied along its unit axis to `[a, b, c]`: at `(i, j, l)` it is the entry `(i, j, 0)`. -/
theorem along_apply {a b c : ℕ} (X : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ X h (ix3 i j l) = X (ix3 i j (0 : Fin 1)) :=
  broadcastTo_apply X h _ _ fun x => match x with
    | ⟨0, _⟩ => by
      show i.val = if a = 1 then 0 else i.val
      split
      · have := i.isLt; omega
      · rfl
    | ⟨1, _⟩ => by
      show j.val = if b = 1 then 0 else j.val
      split
      · have := j.isLt; omega
      · rfl
    | ⟨2, _⟩ => rfl

/-- `[1, b, c]` copied along its unit axis to `[a, b, c]`: at `(i, j, l)` it is the entry `(0, j, l)`. -/
theorem stack_apply {a b c : ℕ} (X : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ X h (ix3 i j l) = X (ix3 (0 : Fin 1) j l) :=
  broadcastTo_apply X h _ _ fun x => match x with
    | ⟨0, _⟩ => rfl
    | ⟨1, _⟩ => by
      show j.val = if b = 1 then 0 else j.val
      split
      · have := j.isLt; omega
      · rfl
    | ⟨2, _⟩ => by
      show l.val = if c = 1 then 0 else l.val
      split
      · have := l.isLt; omega
      · rfl

end Layout

/-- The index of `[a, b, c]` that reduces to `(i, j)` along the last axis and has `k` there is `(i, j, k)`. -/
theorem lift_last {a b c : ℕ} (h : (⟨3, ![a, b, c]⟩ : Shape).Reduces [2] ⟨2, ![a, b]⟩) (i : Fin a) (j : Fin b)
    (k : Fin ((⟨3, ![a, b, c]⟩ : Shape).size 2)) : h.lift (ix2 i j) k = ix3 i j (⟨k.val, k.isLt⟩ : Fin c) := by
  funext d; apply Fin.ext
  match d with
  | ⟨0, _⟩ => rfl
  | ⟨1, _⟩ => rfl
  | ⟨2, _⟩ => rfl

/-- A float sum along the last axis, from the zero word, at `(i, j)`: the sum over `k` of the entries `(i, j, k)`. -/
theorem multiReduction_add_last {a b c : ℕ} (src : FVec Ideal ⟨3, ![a, b, c]⟩ .f32)
    (h : (⟨3, ![a, b, c]⟩ : Shape).Reduces [2] ⟨2, ![a, b]⟩) (i : Fin a) (j : Fin b) :
    multiReduction .add [2] ⟨2, ![a, b]⟩ src 0x00000000#32 h (.inl rfl) rfl (ix2 i j) = ∑ k : Fin c, src (ix3 i j k) :=
  (Ideal.multiReduction_add_single src 0x00000000#32 h (.inl rfl) rfl (ix2 i j)).trans
    (Finset.sum_congr rfl fun k _ => congrArg src (lift_last h i j k))

/-- The index of `[a, b, c]` that reduces to `(i, l)` along the middle axis and has `j` there is `(i, j, l)`. -/
theorem lift_mid {a b c : ℕ} (h : (⟨3, ![a, b, c]⟩ : Shape).Reduces [1] ⟨2, ![a, c]⟩) (i : Fin a) (l : Fin c)
    (j : Fin ((⟨3, ![a, b, c]⟩ : Shape).size 1)) : h.lift (ix2 i l) j = ix3 i (⟨j.val, j.isLt⟩ : Fin b) l := by
  funext d; apply Fin.ext
  match d with
  | ⟨0, _⟩ => rfl
  | ⟨1, _⟩ => rfl
  | ⟨2, _⟩ => rfl

/-- A float sum along the middle axis, from the zero word, at `(i, l)`: the sum over `j` of the entries `(i, j, l)`. -/
theorem multiReduction_add_mid {a b c : ℕ} (src : FVec Ideal ⟨3, ![a, b, c]⟩ .f32)
    (h : (⟨3, ![a, b, c]⟩ : Shape).Reduces [1] ⟨2, ![a, c]⟩) (i : Fin a) (l : Fin c) :
    multiReduction .add [1] ⟨2, ![a, c]⟩ src 0x00000000#32 h (.inl rfl) rfl (ix2 i l) = ∑ j : Fin b, src (ix3 i j l) :=
  (Ideal.multiReduction_add_single src 0x00000000#32 h (.inl rfl) rfl (ix2 i l)).trans
    (Finset.sum_congr rfl fun j _ => congrArg src (lift_mid h i l j))

end Cert.RankLoss.Body

end
-- ==== Proof.LibBatchedProduct.lean ====
/-
  A stack of matrix products read at an index, over the extended reals.

  For the dimension numbers of a product of a stack of `G` matrices `m × k` by a stack of `G` matrices `k × n` (the
  leading axis of both operands the batch axis, the left operand contracted on its last axis, the right one on its
  middle axis), a product accumulated into the zero array is, at `(g, a, b)`, the sum over `c : Fin k` of
  `A (g, a, c) * B (g, c, b)`: the zero accumulator contributes `0 + _`, and the contraction index, a one-axis
  multi-index, is re-indexed by its one coordinate. The statement quantifies over the well-formedness proof only, so
  it applies to any record with these six lists.
-/
import Idealize.ShloMosaic.PureOps.Ideal
import Idealize.ShloMosaic.PureOps.Ideal.Laws
import Idealize.ShloMosaic.Lib.ValueIdx

noncomputable section

namespace Cert.StackProduct

open Idealize.ShloMosaic Idealize.ShloMosaic.ValueIdx

/-- The dimension numbers of a stack of `G` products `m × k` by `k × n`, for any proof that they are well formed. -/
abbrev stackDims (G m k n : Nat)
    (wf : DotDims.WF (⟨3, ![G, m, k]⟩ : Shape) ⟨3, ![G, k, n]⟩ ⟨3, ![G, m, n]⟩ [2] [1] [1] [2] [0] [0]) :
    DotDims (⟨3, ![G, m, k]⟩ : Shape) ⟨3, ![G, k, n]⟩ ⟨3, ![G, m, n]⟩ :=
  { lhsContracting := [2], rhsContracting := [1], lhsNonContracting := [1], rhsNonContracting := [2],
    lhsBatch := [0], rhsBatch := [0], wf := wf }

theorem stackDims_contr_rank {G m k n : Nat} (wf) : (stackDims G m k n wf).contr.rank = 1 := rfl

theorem stackDims_contr_size {G m k n : Nat} (wf) :
    (stackDims G m k n wf).contr.size ⟨0, by rw [stackDims_contr_rank]; exact Nat.one_pos⟩ = k := rfl

/-- The contraction index of such a product is one coordinate in `Fin k`. -/
abbrev stackContr {G m k n : Nat} (wf) : (stackDims G m k n wf).contr.Idx ≃ Fin k :=
  contrEquiv1 (stackDims G m k n wf) k (stackDims_contr_rank wf) (stackDims_contr_size wf)

/-- The left operand's index at output `(g, a, b)` and contraction coordinate `c` is `(g, a, c)`. -/
theorem stackDims_lhsIdx {G m k n : Nat} (wf) (g : Fin G) (a : Fin m) (b : Fin n) (c : Fin k) :
    (stackDims G m k n wf).lhsIdx (ix3 g a b) ((stackContr wf).symm c) = ix3 g a c := by
  funext x
  apply Fin.ext
  match x with
  | ⟨0, h0⟩ =>
    unfold DotDims.lhsIdx
    rw [dif_pos (show (⟨0, h0⟩ : Fin (⟨3, ![G, m, k]⟩ : Shape).rank) ∈ (stackDims G m k n wf).lhsBatch from
      List.mem_singleton.mpr rfl)]
    rfl
  | ⟨1, h1⟩ =>
    unfold DotDims.lhsIdx
    rw [dif_neg (show ¬(⟨1, h1⟩ : Fin (⟨3, ![G, m, k]⟩ : Shape).rank) ∈ (stackDims G m k n wf).lhsBatch from
      fun h => Nat.one_ne_zero (congrArg Fin.val (List.mem_singleton.mp h))),
      dif_pos (show (⟨1, h1⟩ : Fin (⟨3, ![G, m, k]⟩ : Shape).rank) ∈ (stackDims G m k n wf).lhsNonContracting from
        List.mem_singleton.mpr rfl)]
    rfl
  | ⟨2, h2⟩ =>
    exact ((stackDims G m k n wf).lhsIdx_val_of_single (cl := ⟨2, h2⟩) rfl _ _).trans
      (contrEquiv1_symm_val (stackDims G m k n wf) k (stackDims_contr_rank wf) (stackDims_contr_size wf) c)

/-- The right operand's index there is `(g, c, b)`. -/
theorem stackDims_rhsIdx {G m k n : Nat} (wf) (g : Fin G) (a : Fin m) (b : Fin n) (c : Fin k) :
    (stackDims G m k n wf).rhsIdx (ix3 g a b) ((stackContr wf).symm c) = ix3 g c b := by
  funext x
  apply Fin.ext
  match x with
  | ⟨0, h0⟩ =>
    unfold DotDims.rhsIdx
    rw [dif_pos (show (⟨0, h0⟩ : Fin (⟨3, ![G, k, n]⟩ : Shape).rank) ∈ (stackDims G m k n wf).rhsBatch from
      List.mem_singleton.mpr rfl)]
    rfl
  | ⟨1, h1⟩ =>
    exact ((stackDims G m k n wf).rhsIdx_val_of_single (cr := ⟨1, h1⟩) rfl _ _).trans
      (contrEquiv1_symm_val (stackDims G m k n wf) k (stackDims_contr_rank wf) (stackDims_contr_size wf) c)
  | ⟨2, h2⟩ =>
    unfold DotDims.rhsIdx
    rw [dif_neg (show ¬(⟨2, h2⟩ : Fin (⟨3, ![G, k, n]⟩ : Shape).rank) ∈ (stackDims G m k n wf).rhsBatch from
      fun h => (Nat.succ_ne_zero 1) (congrArg Fin.val (List.mem_singleton.mp h))),
      dif_pos (show (⟨2, h2⟩ : Fin (⟨3, ![G, k, n]⟩ : Shape).rank) ∈ (stackDims G m k n wf).rhsNonContracting from
        List.mem_singleton.mpr rfl)]
    rfl

/-- A stack of products accumulated into the zero array, at `(g, a, b)`: the sum over the shared axis. -/
theorem stackMatmul_zero_apply {G m k n : Nat} {φ₁ φ₂ : FTy} (wf) (prec : Option ContractPrecision)
    (A : FVec Ideal (⟨3, ![G, m, k]⟩ : Shape) φ₁) (B : FVec Ideal (⟨3, ![G, k, n]⟩ : Shape) φ₂)
    (g : Fin G) (a : Fin m) (b : Fin n) :
    FloatOps.matmul (stackDims G m k n wf) prec A B (constant (F := Ideal) (⟨3, ![G, m, n]⟩ : Shape) .f32 0x00000000#32) (ix3 g a b)
      = ∑ c : Fin k, A (ix3 g a c) * B (ix3 g c b) := by
  rw [Ideal.matmul_constant_zero_apply, ← Equiv.sum_comp (stackContr wf).symm]
  refine Finset.sum_congr rfl fun c _ => ?_
  rw [stackDims_lhsIdx, stackDims_rhsIdx]

end Cert.StackProduct

end
-- ==== Proof.BodySg.lean ====
/-
  The ranking kernel's intermediate values read at an index.

  For the sixteen query rows of a tile the body forms, for every pair of items `(j, k)`, the difference of the row's
  affinities `s k - s j` (the row laid out once along the last axis and once along the middle one), negates it by
  subtracting it from zero, divides by the temperature, clamps, and takes `1 / (1 + exp _)`: the smoothed indicator.
  Summing it along `k` and adding one half gives the rank among all items; multiplying it, as a stack of sixteen
  matrix products, with the label matrix copied sixteen times and adding one gives the rank among the positives
  before the item's own half is taken off. A change of float format is the identity on the extended reals.
-/
import proofs.«128315_j16277926052524_1_alg».proof.Proof.Gen.KernelIdeal.Skeleton
import proofs.«128315_j16277926052524_1_alg».proof.Proof.RankSpec
import proofs.«128315_j16277926052524_1_alg».proof.Proof.BodyForms
import proofs.«128315_j16277926052524_1_alg».proof.Proof.LibBatchedProduct
import Idealize.ShloMosaic.Lib.ValueIdx
import Idealize.ShloMosaic.Lib.Pipeline.Value
import Idealize.ShloMosaic.Lib.ValueLayout
import Idealize.ShloMosaic.PureOps.Ideal.Laws

noncomputable section

namespace Cert.RankLoss.Body

open Cert.KernelIdeal Cert.KernelIdeal.Gen Cert.RankLoss Idealize.ShloMosaic

/-- The difference array: at `(r, j, k)` the row's entry `k` minus its entry `j`. -/
theorem diff_apply (v3 : Vec Ideal S16x384 .f32) (r : Fin 16) (j k : Fin 384) :
    subf (F := Ideal) (φ := .f32)
        (broadcastTo S16x384x384 (shapeCast S16x1x384 (shapeCast S16x384 v3 shapeCasts_S16x384_S16x384)
          shapeCasts_S16x384_S16x1x384) broadcasts_S16x1x384_S16x384x384)
        (broadcastTo S16x384x384 (shapeCast S16x384x1 (shapeCast S16x384 v3 shapeCasts_S16x384_S16x384)
          shapeCasts_S16x384_S16x384x1) broadcasts_S16x384x1_S16x384x384)
        (ValueIdx.ix3 r j k)
      = v3 (ValueIdx.ix2 r k) - v3 (ValueIdx.ix2 r j) := by
  rw [ValueIdx.subf_apply, across_apply, along_apply, shapeCast_ab_a1b_apply, shapeCast_ab_ab1_apply, shapeCast_self]

/-- The pointwise tail of the indicator over an arbitrary difference array `d`: zero minus `d` is `-d`, and the rest
    is entry by entry. -/
theorem sg_forms (d : FVec Ideal S16x384x384 .f32) (i : S16x384x384.Idx) :
    divf (F := Ideal) (broadcast S16x384x384 (Scalar.ofBits (F := Ideal) .f32 0x3F800000#32))
        (addf (broadcast S16x384x384 (Scalar.ofBits (F := Ideal) .f32 0x3F800000#32))
          (exp (minimumf (broadcast S16x384x384 (Scalar.ofBits (F := Ideal) .f32 0x42480000#32))
            (maximumf (broadcast S16x384x384 (Scalar.ofBits (F := Ideal) .f32 0xC2480000#32))
              (divf (subf (broadcast S16x384x384 (Scalar.ofBits (F := Ideal) .f32 0x00000000#32)) d)
                (broadcast S16x384x384 (Scalar.ofBits (F := Ideal) .f32 0x3C23D70A#32))))))) i
      = Ideal.div oneW (oneW + Ideal.exp (min hiW (max loW (Ideal.div (-(d i)) tempW)))) := by
  show Ideal.div oneW (oneW + Ideal.exp (min hiW (max loW (Ideal.div (Ideal.ofBits .f32 0x00000000#32 - d i) tempW)))) = _
  rw [Ideal.ofBits_zero_f32, zero_sub]

/-- The smoothed indicator array at `(r, j, k)`: the indicator of row `r` for the pair `(j, k)`. -/
theorem sg_payload (v3 : Vec Ideal S16x384 .f32) (r : Fin 16) (j k : Fin 384) :
    k1_pay4 (F := Ideal) v3 (ValueIdx.ix3 r j k) = sgRow (fun k => v3 (ValueIdx.ix2 r k)) j k := by
  unfold k1_pay4
  refine (sg_forms _ (ValueIdx.ix3 r j k)).trans ?_
  rw [diff_apply]
  rfl

/-- The rank among all items at `(r, j)`. -/
theorem rankAll_payload (v3 : Vec Ideal S16x384 .f32) (r : Fin 16) (j : Fin 384) :
    k1_pay5 (F := Ideal) v3 (ValueIdx.ix2 r j) = rankAllK (fun k => v3 (ValueIdx.ix2 r k)) j := by
  unfold k1_pay5
  show Ideal.ofBits .f32 0x3F000000#32 + multiReduction (F := Ideal) .add [2] S16x384 (k1_pay4 v3) 0x00000000#32
    reduces_S16x384x384_S16x384 (.inl rfl) rfl (ValueIdx.ix2 r j) = _
  rw [multiReduction_add_last]
  exact congrArg (Ideal.ofBits .f32 0x3F000000#32 + ·) (Finset.sum_congr rfl fun k _ => sg_payload v3 r j k)

/-- The label matrix copied to every row of the tile: at `(r, j, l)` the label entry `(j, l)`. -/
theorem labels_payload (v5 : Vec Ideal S384x40 .f32) (r : Fin 16) (j : Fin 384) (l : Fin 40) :
    k1_pay6 (F := Ideal) v5 (ValueIdx.ix3 r j l) = v5 (ValueIdx.ix2 j l) := by
  unfold k1_pay6
  rw [stack_apply, shapeCast_self, ValueIdx.shapeCast_ab_1ab_apply, shapeCast_self]

/-- One plus the indicator-weighted count of positives at `(r, j, l)`. -/
theorem rankRaw_payload (v3 : Vec Ideal S16x384 .f32) (v5 : Vec Ideal S384x40 .f32) (r : Fin 16) (j : Fin 384) (l : Fin 40) :
    k1_pay7 (F := Ideal) v3 v5 (ValueIdx.ix3 r j l)
      = oneW + ∑ k, sgRow (fun k => v3 (ValueIdx.ix2 r k)) j k * v5 (ValueIdx.ix2 k l) := by
  unfold k1_pay7
  show Ideal.ofBits .f32 0x3F800000#32 + FloatOps.matmul _ _ _ _ _ (ValueIdx.ix3 r j l) = _
  refine congrArg (Ideal.ofBits .f32 0x3F800000#32 + ·) ?_
  refine (Cert.StackProduct.stackMatmul_zero_apply (G := 16) (m := 384) (k := 384) (n := 40) _ none _ _ r j l).trans ?_
  exact Finset.sum_congr rfl fun k _ => congrArg₂ (· * ·) (sg_payload v3 r j k) (labels_payload v5 r k l)

end Cert.RankLoss.Body

end
-- ==== Proof.LibAxisSums.lean ====
/-
  Sums of an array along its outer axes, read at an index.

  Reducing a matrix `[a, b]` along its first axis gives a vector `[b]` whose entry `j` is the sum of column `j`:
  the `a` entries `(k, j)`. Reducing a rank-3 array `[a, b, c]` along its first and last axes together gives a
  vector `[b]` whose entry `i` is the sum of the slab with middle coordinate `i`: the `a · c` entries `(p, i, q)`,
  added to the initial value. Every index is written by its coordinates.
-/
import Idealize.ShloMosaic.PureOps.Ideal.Laws
import Idealize.ShloMosaic.Lib.ValueIdx

namespace Cert.AxisSums

open Idealize.ShloMosaic Idealize.ShloMosaic.ValueIdx

/-- The index of the matrix that reduces to `j` along the first axis and has `k` there is `(k, j)`. -/
theorem lift_cols {a b : ℕ} (h : (⟨2, ![a, b]⟩ : Shape).Reduces [0] ⟨1, ![b]⟩) (j : Fin b)
    (k : Fin ((⟨2, ![a, b]⟩ : Shape).size 0)) : h.lift (ix1 j) k = ix2 (⟨k.val, k.isLt⟩ : Fin a) j := by
  funext d; apply Fin.ext
  match d with
  | ⟨0, _⟩ => rfl
  | ⟨1, _⟩ => rfl

/-- A float sum down the columns of a matrix, from the zero word, at `j`: the sum of column `j`. -/
theorem multiReduction_add_cols {a b : ℕ} (src : FVec Ideal ⟨2, ![a, b]⟩ .f32)
    (h : (⟨2, ![a, b]⟩ : Shape).Reduces [0] ⟨1, ![b]⟩) (j : Fin b) :
    multiReduction .add [0] ⟨1, ![b]⟩ src 0x00000000#32 h (.inl rfl) rfl (ix1 j) = ∑ k : Fin a, src (ix2 k j) :=
  (Ideal.multiReduction_add_single src 0x00000000#32 h (.inl rfl) rfl (ix1 j)).trans
    (Finset.sum_congr rfl fun k _ => congrArg src (lift_cols h j k))

/-- The indices of a rank-3 array are the triples of its coordinates. -/
def idxEquiv3 {a b c : ℕ} : (⟨3, ![a, b, c]⟩ : Shape).Idx ≃ Fin a × Fin b × Fin c where
  toFun j := (j 0, j 1, j 2)
  invFun p := ix3 p.1 p.2.1 p.2.2
  left_inv j := (eq_ix3 j).symm
  right_inv _ := rfl

/-- A sum over all indices of a rank-3 array, coordinate by coordinate. -/
theorem sum_idx3 {M : Type*} [AddCommMonoid M] {a b c : ℕ} (f : (⟨3, ![a, b, c]⟩ : Shape).Idx → M) :
    ∑ j, f j = ∑ p : Fin a, ∑ i : Fin b, ∑ q : Fin c, f (ix3 p i q) := by
  rw [← Equiv.sum_comp (idxEquiv3 (a := a) (b := b) (c := c)).symm f, Fintype.sum_prod_type]
  exact Finset.sum_congr rfl fun p _ => Fintype.sum_prod_type _

/-- An index of `[a, b, c]` reduces, along the first and last axes, to its middle coordinate. -/
theorem drop_outer {a b c : ℕ} (h : (⟨3, ![a, b, c]⟩ : Shape).ReducesTo [0, 2] ⟨1, ![b]⟩)
    (p : Fin a) (i : Fin b) (q : Fin c) : h.drop (ix3 p i q) = ix1 i := by
  funext d; apply Fin.ext
  match d with
  | ⟨0, _⟩ => rfl

/-- The host's sum of `[a, b, c]` along its first and last axes, at `i`: the initial value plus the sum of the
    slab `(·, i, ·)`. -/
theorem hostReduceAdd_outer {a b c : ℕ} (h : (⟨3, ![a, b, c]⟩ : Shape).ReducesTo [0, 2] ⟨1, ![b]⟩)
    (x : (⟨3, ![a, b, c]⟩ : Shape).Idx → EReal) (init : EReal) (i : Fin b) :
    Ideal.hostReduceAdd h x init (ix1 i) = init + ∑ p : Fin a, ∑ q : Fin c, x (ix3 p i q) := by
  unfold Ideal.hostReduceAdd
  congr 1
  rw [Finset.sum_filter, sum_idx3]
  refine Finset.sum_congr rfl fun p _ => ?_
  rw [Finset.sum_comm]
  refine Finset.sum_congr rfl fun q _ => ?_
  have hd : ∀ i' : Fin b, (h.drop (ix3 p i' q) = ix1 i) ↔ i' = i := fun i' => by
    rw [drop_outer h p i' q]
    constructor
    · intro e; exact congrFun e 0
    · rintro rfl; rfl
  simp only [hd, Finset.sum_ite_eq', Finset.mem_univ, if_true]

end Cert.AxisSums
-- ==== Proof.BodyStep.lean ====
/-
  The ranking kernel's two stored values read at an index.

  At the first tile of a core the accumulator is set to zero. At every tile the body takes, for each of the tile's
  sixteen query rows and each label `l`, the ratio of the rank among the positives (the item's own half taken off) to
  the rank among all items, multiplies it with the item's label, sums over the items, multiplies with the query row's
  own label, sums over the sixteen rows, and adds the result to the accumulator.
-/
import proofs.«128315_j16277926052524_1_alg».proof.Proof.Gen.KernelIdeal.Skeleton
import proofs.«128315_j16277926052524_1_alg».proof.Proof.RankSpec
import proofs.«128315_j16277926052524_1_alg».proof.Proof.BodyForms
import proofs.«128315_j16277926052524_1_alg».proof.Proof.BodySg
import proofs.«128315_j16277926052524_1_alg».proof.Proof.LibAxisSums
import Idealize.ShloMosaic.Lib.ValueIdx
import Idealize.ShloMosaic.Lib.Pipeline.Value
import Idealize.ShloMosaic.Lib.ValueLayout
import Idealize.ShloMosaic.PureOps.Ideal.Laws

noncomputable section

namespace Cert.RankLoss.Body

open Cert.KernelIdeal Cert.KernelIdeal.Gen Cert.RankLoss Idealize.ShloMosaic

/-- The accumulator's first value: zero at every label. -/
theorem zero_payload (l : Fin 40) : k1_pay2 (F := Ideal) (ValueIdx.ix3 (0 : Fin 1) (0 : Fin 1) l) = 0 := by
  unfold k1_pay2
  rw [shapeCast_self]
  exact Ideal.ofBits_zero_f32

/-- One tile's step over arbitrary arrays: the accumulator plus, summed over the tile's rows, the row's own label times
    the sum over the items of `(raw - c * label) / all * label`. -/
theorem step_forms (v8 : FVec Ideal S16x40 .f32) (v29 : FVec Ideal S16x384 .f32) (v32 v37 : FVec Ideal S16x384x40 .f32)
    (c : Ideal .f32) (acc : Vec Ideal S1x1x40 .f32) (l : Fin 40) :
    k1_pay1 (F := Ideal) v8 v29 v32 v37 c acc (ValueIdx.ix3 (0 : Fin 1) (0 : Fin 1) l)
      = acc (ValueIdx.ix3 (0 : Fin 1) (0 : Fin 1) l)
        + ∑ r : Fin 16, (∑ j : Fin 384,
            Ideal.div (v37 (ValueIdx.ix3 r j l) - c * v32 (ValueIdx.ix3 r j l)) (v29 (ValueIdx.ix2 r j))
              * v32 (ValueIdx.ix3 r j l)) * v8 (ValueIdx.ix2 r l) := by
  unfold k1_pay1
  rw [shapeCast_self, ValueIdx.addf_apply]
  refine congrArg (acc (ValueIdx.ix3 (0 : Fin 1) (0 : Fin 1) l) + ·) ?_
  rw [ValueIdx.shapeCast_ab_1ab_apply, ValueIdx.shapeCast_a_1a_apply, Cert.AxisSums.multiReduction_add_cols]
  refine Finset.sum_congr rfl fun r _ => ?_
  rw [ValueIdx.mulf_apply, multiReduction_add_mid]
  refine congrArg (· * v8 (ValueIdx.ix2 r l)) (Finset.sum_congr rfl fun j _ => ?_)
  rw [ValueIdx.mulf_apply, ValueIdx.divf_apply, along_apply, shapeCast_ab_ab1_apply]
  rfl

/-- One tile's step of the ranking kernel: the accumulator plus the tile's sixteen row terms. -/
theorem step_payload (acc : Vec Ideal S1x1x40 .f32) (v3 : Vec Ideal S16x384 .f32) (v5 : Vec Ideal S384x40 .f32)
    (v7 : Vec Ideal S16x40 .f32) (l : Fin 40) :
    k1_pay1 (F := Ideal) (k1_pay3 v7) (k1_pay5 v3) (k1_pay6 v5) (k1_pay7 v3 v5) (Scalar.ofBits .f32 0x3F000000#32) acc
        (ValueIdx.ix3 (0 : Fin 1) (0 : Fin 1) l)
      = acc (ValueIdx.ix3 (0 : Fin 1) (0 : Fin 1) l)
        + ∑ r : Fin 16, rowTermK (fun k => v3 (ValueIdx.ix2 r k)) (fun j l => v5 (ValueIdx.ix2 j l))
            (fun l => v7 (ValueIdx.ix2 r l)) l := by
  refine (step_forms _ _ _ _ _ acc l).trans ?_
  refine congrArg (acc (ValueIdx.ix3 (0 : Fin 1) (0 : Fin 1) l) + ·) (Finset.sum_congr rfl fun r _ => ?_)
  unfold rowTermK
  refine congrArg₂ (· * ·) (Finset.sum_congr rfl fun j _ => ?_) ?_
  · rw [rankRaw_payload, labels_payload, rankAll_payload]
    rfl
  · unfold k1_pay3
    rw [shapeCast_self]

end Cert.RankLoss.Body

end
-- ==== Proof.KIValue1.lean ====
/-
  What the second kernel region leaves in its output array. The grid is 2 x 12, row-major: point t works on tile t of
  sixteen query rows for core t / 12. At every point the accumulator takes the tile's total for every label, from zero
  at a core's first tile; the core's block of the output is written back at its last tile. So row k of the output ends
  holding core k's accumulator after its twelve tiles.
-/
import proofs.«128315_j16277926052524_1_alg».proof.Proof.KIRegion1Data
import proofs.«128315_j16277926052524_1_alg».proof.Proof.BodyStep
import proofs.«128315_j16277926052524_1_alg».proof.Proof.RankSpec
import Idealize.ShloMosaic.Lib.Pipeline.Value
import Idealize.ShloMosaic.Lib.ValueIdx

noncomputable section

namespace Cert.KernelIdeal.Hand

open Cert.KernelIdeal Cert.KernelIdeal.Gen Cert.RankLoss Idealize.ShloMosaic Idealize.ShloMosaic.TcCoe Idealize.SL.Sem
open Idealize.ShloMosaic.Pipeline (Dat)
open Idealize.ShloMosaic.ValueIdx (ix2 ix3)

variable (V : (c : Dev nD) → (b : Ref sig .tc) → Buf (Elt Ideal) ((c : Thread nD τ).loc b))

/-- The printed index maps at every point of the grid: the affinity rows' and the label rows' blocks are block `t`
    of sixteen rows, the label matrix is one block, the output's block is row `t / 12`. -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 3) = t.val / 12 ∧ win1_3.index t (1 : Fin 3) = 0 ∧ win1_3.index t (2 : Fin 3) = 0 :=
  (by decide +kernel : ∀ t : Fin grid1.N, _)

theorem points24 : cfg1.N = 24 := N_1

theorem lt24 (t : Fin cfg1.N) : t.val < 24 := by have := points24; have := t.isLt; omega

/-- The tile's affinity rows, read off the affinity matrix. -/
theorem iblk1_0_apply (c : Dev nD) (t : Fin cfg1.N) (r : Fin 16) (k' : Fin 384) :
    iblk1 (F := Ideal) V c 0 t (ix2 r k') = V c main_v0 (ix2 (rowOf ⟨t.val, lt24 t⟩ r) k') := by
  obtain ⟨e0, e1, -⟩ := block_index1 t
  show V c main_v0 (((cfg1.win 0).blk t).view.emb (ix2 r k')) = V c main_v0 _
  refine congrArg _ (funext fun a => Fin.ext ?_)
  match a with
  | ⟨0, _⟩ => show win1_0.index t (0 : Fin 2) * 16 + 1 * r.val = 16 * t.val + r.val; omega
  | ⟨1, _⟩ => show win1_0.index t (1 : Fin 2) * 384 + 1 * k'.val = k'.val; omega

/-- The whole label matrix. -/
theorem iblk1_1_apply (c : Dev nD) (t : Fin cfg1.N) (j : Fin 384) (l : Fin 40) :
    iblk1 (F := Ideal) V c 1 t (ix2 j l) = V c main_v1 (ix2 j l) := by
  obtain ⟨-, -, e2, e3, -⟩ := block_index1 t
  show V c main_v1 (((cfg1.win 1).blk t).view.emb (ix2 j l)) = V c main_v1 _
  refine congrArg _ (funext fun a => Fin.ext ?_)
  match a with
  | ⟨0, _⟩ => show win1_1.index t (0 : Fin 2) * 384 + 1 * j.val = j.val; omega
  | ⟨1, _⟩ => show win1_1.index t (1 : Fin 2) * 40 + 1 * l.val = l.val; omega

/-- The tile's label rows. -/
theorem iblk1_2_apply (c : Dev nD) (t : Fin cfg1.N) (r : Fin 16) (l : Fin 40) :
    iblk1 (F := Ideal) V c 2 t (ix2 r l) = V c main_v1 (ix2 (rowOf ⟨t.val, lt24 t⟩ r) l) := by
  obtain ⟨-, -, -, -, e4, e5, -⟩ := block_index1 t
  show V c main_v1 (((cfg1.win 2).blk t).view.emb (ix2 r l)) = V c main_v1 _
  refine congrArg _ (funext fun a => Fin.ext ?_)
  match a with
  | ⟨0, _⟩ => show win1_2.index t (0 : Fin 2) * 16 + 1 * r.val = 16 * t.val + r.val; omega
  | ⟨1, _⟩ => show win1_2.index t (1 : Fin 2) * 40 + 1 * l.val = l.val; omega

/-- One step of the accumulator over blocks that are tile `b` of an affinity matrix and of a label matrix: the
    accumulator plus the tile's total. -/
theorem step_value (acc : Vec Ideal S1x1x40 .f32) (x0 : Vec Ideal S16x384 .f32) (x1 : Vec Ideal S384x40 .f32)
    (x2 : Vec Ideal S16x40 .f32) (sim : Fin 384 → Fin 384 → EReal) (pos : Fin 384 → Fin 40 → EReal) (b : Fin 24)
    (h0 : ∀ r k', x0 (ix2 r k') = sim (rowOf b r) k') (h1 : ∀ j l, x1 (ix2 j l) = pos j l)
    (h2 : ∀ r l, x2 (ix2 r l) = pos (rowOf b r) l) (l : Fin 40) :
    stepAcc (F := Ideal) acc x0 x1 x2 (ix3 (0 : Fin 1) (0 : Fin 1) l) = acc (ix3 (0 : Fin 1) (0 : Fin 1) l) + tile sim pos b l := by
  refine (Cert.RankLoss.Body.step_payload acc x0 x1 x2 l).trans ?_
  unfold tile
  refine congrArg (acc (ix3 (0 : Fin 1) (0 : Fin 1) l) + ·) (Finset.sum_congr rfl fun r _ => ?_)
  rw [show (fun k => x0 (ix2 r k)) = sim (rowOf b r) from funext (h0 r),
    show (fun j l => x1 (ix2 j l)) = pos from funext fun j => funext (h1 j),
    show (fun l => x2 (ix2 r l)) = pos (rowOf b r) from funext (h2 r)]

/-- The step at grid point `t`, on the blocks the region finds there. -/
theorem step_at (c : Dev nD) (t : Fin cfg1.N) (acc : Vec Ideal S1x1x40 .f32) (l : Fin 40) :
    stepAcc (F := Ideal) acc (iblk1 V c 0 t) (iblk1 V c 1 t) (iblk1 V c 2 t) (ix3 (0 : Fin 1) (0 : Fin 1) l)
      = acc (ix3 (0 : Fin 1) (0 : Fin 1) l)
        + tileN (fun q k' => (V c main_v0) (ix2 q k')) (fun q l => (V c main_v1) (ix2 q l)) t.val l := by
  rw [tileN, dif_pos (lt24 t)]
  exact step_value acc _ _ _ _ _ ⟨t.val, lt24 t⟩ (iblk1_0_apply V c t) (iblk1_1_apply V c t) (iblk1_2_apply V c t) l

/-- The accumulator after tile `n` of core `k`, the point's number given as any `m = 12 k + n`. -/
theorem acc_value_at (c : Dev nD) (k : Fin 2) (l : Fin 40) :
    ∀ (n : ℕ) (_ : n < 12) (m : ℕ) (hm : m < cfg1.N), m = 12 * k.val + n →
      accAt (F := Ideal) V c m hm (ix3 (0 : Fin 1) (0 : Fin 1) l)
        = accK (fun q k' => (V c main_v0) (ix2 q k')) (fun q l => (V c main_v1) (ix2 q l)) k (n + 1) l
  | 0, _, 0, hm, e => by
    rw [accAt_zero, step_at V c ⟨0, hm⟩, Cert.RankLoss.Body.zero_payload, accK, accK, ← e]
  | 0, _, m + 1, hm, e => by
    rw [accAt_succ, if_pos (by omega), step_at V c ⟨m + 1, hm⟩, Cert.RankLoss.Body.zero_payload, accK, accK, ← e]
  | n + 1, hn, 0, hm, e => by omega
  | n + 1, hn, m + 1, hm, e => by
    rw [accAt_succ, if_neg (by omega), step_at V c ⟨m + 1, hm⟩,
      acc_value_at c k l n (by omega) m (Nat.lt_of_succ_lt hm) (by omega)]
    show _ + tileN _ _ (m + 1) l = _ + tileN _ _ (12 * k.val + (n + 1)) l
    rw [e]

theorem acc_value (c : Dev nD) (k : Fin 2) (n : ℕ) (hn : n < 12) (l : Fin 40) :
    accAt (F := Ideal) V c (12 * k.val + n) (by have := points24; have := k.isLt; omega) (ix3 (0 : Fin 1) (0 : Fin 1) l)
      = accK (fun q k' => (V c main_v0) (ix2 q k')) (fun q l => (V c main_v1) (ix2 q l)) k (n + 1) l :=
  acc_value_at V c k l n hn _ _ rfl

/-! ## The output array -/

/-- Every core's accumulator after its twelve tiles, as one array. -/
def totArr (c : Dev nD) : S2x1x40.Idx → EReal :=
  fun i => accK (fun q k' => (V c main_v0) (ix2 q k')) (fun q l => (V c main_v1) (ix2 q l)) (i 0) 12 (i 2)

/-- A [1, 1, 40] block that holds row `k` of a [2, 1, 40] array, read at a block index that names an array index in
    row `k` with the same last coordinate. -/
theorem out_block (A : Vec Ideal S1x1x40 .f32) (G : S2x1x40.Idx → EReal) (k : Fin 2)
    (hA : ∀ l : Fin 40, A (ix3 (0 : Fin 1) (0 : Fin 1) l) = G (ix3 k (0 : Fin 1) l))
    (j : S1x1x40.Idx) (i : S2x1x40.Idx) (hi0 : (i 0).val = k.val) (hi2 : (i 2).val = (j 2).val) : A j = G i := by
  have hj : j = ix3 (0 : Fin 1) (0 : Fin 1) (j 2) := by
    funext a
    match a with
    | ⟨0, _⟩ => exact Fin.ext (by have h : (j 0).val < 1 := (j 0).isLt; show (j 0).val = 0; omega)
    | ⟨1, _⟩ => exact Fin.ext (by have h : (j 1).val < 1 := (j 1).isLt; show (j 1).val = 0; omega)
    | ⟨2, _⟩ => rfl
  have hi : i = ix3 k (0 : Fin 1) (j 2) := by
    funext a
    match a with
    | ⟨0, _⟩ => exact Fin.ext hi0
    | ⟨1, _⟩ => exact Fin.ext (by have h : (i 1).val < 1 := (i 1).isLt; show (i 1).val = 0; omega)
    | ⟨2, _⟩ => exact Fin.ext hi2
  calc A j = A (ix3 (0 : Fin 1) (0 : Fin 1) (j 2)) := congrArg A hj
    _ = G (ix3 k (0 : Fin 1) (j 2)) := hA (j 2)
    _ = G i := (congrArg G hi).symm

/-- What a core's last point writes back is its block of `totArr`. -/
theorem flushed1_3_eq (c : Dev nD) (t : Fin cfg1.N) (hf : (cfg1.win 3).flush t = true) :
    (dat1 (F := Ideal) V c).flushed 3 t = ((cfg1.win 3).blk t).view.read (Elt Ideal) (totArr V c) := by
  show (cfg1.win 3).cut (grid1.coords t) ((dat1 V c).after 3 t) = _
  rw [after1_3]
  have h11 : t.val % 12 = 11 := (flush1_3 t).mp hf
  have h24 := lt24 t
  obtain ⟨-, -, -, -, -, -, e6, e7, e8⟩ := block_index1 t
  funext j
  show accAt (F := Ideal) V c t.val t.isLt j = totArr V c (((cfg1.win 3).blk t).view.emb j)
  refine out_block _ _ ⟨t.val / 12, by omega⟩ (fun l => ?_) j _ ?_ ?_
  · exact acc_value_at V c ⟨t.val / 12, by omega⟩ l 11 (by omega) t.val t.isLt (by show t.val = 12 * (t.val / 12) + 11; omega)
  · show win1_3.index t (0 : Fin 3) * 1 + 1 * (j 0).val = t.val / 12
    have h : (j 0).val < 1 := (j 0).isLt
    omega
  · show win1_3.index t (2 : Fin 3) * 40 + 1 * (j 2).val = (j 2).val
    omega

/-- An index of the array is in point `t`'s block iff each coordinate is in the block's range on its axis. -/
theorem mem_blk1_3 (t : Fin cfg1.N) (i : S2x1x40.Idx) :
    i ∈ ((cfg1.win 3).blk t).view.set ↔ ∀ a : Fin 3, win1_3.index t a * S1x1x40.size a ≤ (i a).val ∧ (i a).val < win1_3.index t a * S1x1x40.size a + S1x1x40.size a := by
  show i ∈ ((View.whole main_v2).slice (win1_3.rect t)).set ↔ _
  rw [View.set_slice_whole, Rect.mem_set_unit]
  exact Iff.rfl

/-- Row `k` of the output is written back at core `k`'s last point, `12 k + 11`. -/
theorem cover1_3_all (i : S2x1x40.Idx) :
    ∃ t : Fin cfg1.N, (cfg1.win 3).flush t = true ∧ i ∈ ((cfg1.win 3).blk t).view.set := by
  have hi0 : (i 0).val < 2 := (i 0).isLt
  have hi1 : (i 1).val < 1 := (i 1).isLt
  have hi2 : (i 2).val < 40 := (i 2).isLt
  have hN := points24
  have hN' : grid1.N = 24 := N_1
  refine ⟨⟨12 * (i 0).val + 11, by omega⟩, (flush1_3 _).mpr (by show (12 * (i 0).val + 11) % 12 = 11; omega), ?_⟩
  rw [mem_blk1_3]
  obtain ⟨-, -, -, -, -, -, e6, e7, e8⟩ := block_index1 ⟨12 * (i 0).val + 11, by omega⟩
  have e6' : win1_3.index ⟨12 * (i 0).val + 11, by omega⟩ (0 : Fin 3) = (12 * (i 0).val + 11) / 12 := e6
  intro a
  match a with
  | ⟨0, _⟩ =>
    show win1_3.index ⟨12 * (i 0).val + 11, _⟩ (0 : Fin 3) * 1 ≤ (i 0).val ∧ (i 0).val < win1_3.index ⟨12 * (i 0).val + 11, _⟩ (0 : Fin 3) * 1 + 1
    omega
  | ⟨1, _⟩ =>
    show win1_3.index ⟨12 * (i 0).val + 11, _⟩ (1 : Fin 3) * 1 ≤ (i 1).val ∧ (i 1).val < win1_3.index ⟨12 * (i 0).val + 11, _⟩ (1 : Fin 3) * 1 + 1
    omega
  | ⟨2, _⟩ =>
    show win1_3.index ⟨12 * (i 0).val + 11, _⟩ (2 : Fin 3) * 40 ≤ (i 2).val ∧ (i 2).val < win1_3.index ⟨12 * (i 0).val + 11, _⟩ (2 : Fin 3) * 40 + 40
    omega

/-- The region's output array ends holding every core's accumulator after its twelve tiles. -/
theorem totals_array (c : Dev nD) : (dat1 (F := Ideal) V c).arrAt 3 cfg1.N = totArr V c :=
  (dat1 V c).arrAt_eq_of_cover 3 (totArr V c) (fun t hf => flushed1_3_eq V c t hf) cover1_3_all

theorem totals_value (c : Dev nD) (k : Fin 2) (l : Fin 40) :
    (dat1 (F := Ideal) V c).arrAt 3 cfg1.N (ix3 k (0 : Fin 1) l)
      = accK (fun q k' => (V c main_v0) (ix2 q k')) (fun q l => (V c main_v1) (ix2 q l)) k 12 l := by
  rw [totals_array]
  rfl

end Cert.KernelIdeal.Hand

end
-- ==== Proof.KIFinal.lean ====
/-
  The kernel program's result as a function of its two argument arrays: the shared last stage applied to the
  kernel's arrangement of the ranking sum and to the numbers of positives, both of the launch contents.
-/
import proofs.«128315_j16277926052524_1_alg».proof.Proof.KIFinalCore
import proofs.«128315_j16277926052524_1_alg».proof.Proof.KIValue0
import proofs.«128315_j16277926052524_1_alg».proof.Proof.KIValue1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RankLoss

/-- The program's result from the launch contents of its two arguments. -/
theorem final_value (hb : Cert.RankLoss.V0.BroadcastsInDim Cert.RankLoss.V40 (![] : Fin 0 → Fin Cert.RankLoss.V40.rank))
    (hr : Cert.RankLoss.V40.ReducesTo [0] Cert.RankLoss.V0) (h0 : 0 < Cert.RankLoss.V0.numel)
    (m : (ℓ : Loc nD τ sig) → Buf (Elt Ideal) ℓ) (c : Dev nD) :
    W6 (F := Ideal) m c main_v22
      = lossOf hb hr h0
          (fun i => sKer (simOf (xOf (m ((c : Thread nD τ).loc main_arg0)))) (posOf (m ((c : Thread nD τ).loc main_arg1))) (i 0))
          (fun i => cnt (posOf (m ((c : Thread nD τ).loc main_arg1))) (i 0)) :=
  final_value_of m (fun V c q k => sim_value V c q k) (fun V c k l => totals_value V c k l) hb hr h0 c

end Cert.KernelIdeal.Hand

end
-- ==== Proof.KIValueRun.lean ====
/-
  The idealized kernel program's run with its result named: the final memory holds the loss computed from the
  kernel's per-label totals — the two cores' accumulators added — and the per-label counts, both as functions of the
  launch contents of the two argument arrays, which end unchanged.
-/
import proofs.«128315_j16277926052524_1_alg».proof.Proof.KIFrame
import proofs.«128315_j16277926052524_1_alg».proof.Proof.KIFinal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.RankLoss

theorem value_run (hb : Cert.RankLoss.V0.BroadcastsInDim Cert.RankLoss.V40 (![] : Fin 0 → Fin Cert.RankLoss.V40.rank)) (hr : Cert.RankLoss.V40.ReducesTo [0] Cert.RankLoss.V0) (h0 : 0 < Cert.RankLoss.V0.numel)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22)
          = lossOf hb hr h0 (fun i => sKer (simOf (xOf (m ((c.tc : Thread nD τ).loc main_arg0)))) (posOf (m ((c.tc : Thread nD τ).loc main_arg1))) (i 0))
              (fun i => cnt (posOf (m ((c.tc : Thread nD τ).loc main_arg1))) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v22 (by decide))).trans (final_value hb hr h0 m c),
     (h c _ (mem_uc main_arg0 (by decide))).trans (W6_main_arg0 m c),
     (h c _ (mem_uc main_arg1 (by decide))).trans (W6_main_arg1 m c)⟩) (run_main (F := Ideal) m ρ)

end Cert.KernelIdeal.Hand

end
-- ==== Proof.RefGen.lean ====
/- The reference's run and its read-at-an-index lemmas, gathered under one name for the modules that read them. -/
import proofs.«128315_j16277926052524_1_alg».proof.Proof.RefReadP
-- ==== Proof.RefValueLoss.lean ====
/-
  The reference's last stage is the shared loss function of its per-label totals and counts: the host operations
  from the comparison of the counts with one down to the final division are, literally, the operations the shared
  definition lists, applied to the totals and the counts.
-/
import proofs.«128315_j16277926052524_1_alg».proof.Proof.RankTail
import proofs.«128315_j16277926052524_1_alg».proof.Proof.RefGen

noncomputable section

namespace Cert.RankLoss.Ref

open Cert.ReferenceIdeal Cert.ReferenceIdeal.ReadP Cert.RankLoss Idealize.ShloMosaic

/-- The reference's result is the shared loss of its totals and its counts. The three shape facts are propositions,
    so the stated witnesses and the program's own give the same function. -/
theorem ref_loss (hb : V0.BroadcastsInDim V40 (![] : Fin 0 → Fin V40.rank)) (hr : V40.ReducesTo [0] V0) (h0 : 0 < V0.numel)
    (x0 : (⟨S384x512, .f32⟩ : BufTy).Contents (Elt Ideal)) (x1 : (⟨S384x40, .i32⟩ : BufTy).Contents (Elt Ideal)) :
    val_main_v63 (F := Ideal) x0 x1 = lossOf hb hr h0 (val_main_v46 (F := Ideal) x0 x1) (val_main_v28 (F := Ideal) x1) := by
  unfold val_main_v63 val_main_v62 val_main_v61 val_main_v60 val_main_v59 val_main_v58 val_main_v57 val_main_v56
    val_main_v55 val_main_v54 val_main_call2_v1 val_main_call2_v0 val_main_v53 val_main_v52 val_main_v51 val_main_v50
    val_main_v49 val_main_v48 val_main_v47 val_main_cst_12 val_main_cst_13 val_main_cst_14 val_main_cst_15
    val_main_cst_16 val_main_cst_17 val_main_cst_18 val_main_cst_19 lossOf
  generalize val_main_v46 (F := Ideal) x0 x1 = s
  generalize val_main_v28 (F := Ideal) x1 = c
  rfl

end Cert.RankLoss.Ref

end
-- ==== Proof.RefValueCnt.lean ====
/-
  The reference's counts: for each label the host adds, from zero, the converted label column over the 384 rows.
-/
import proofs.«128315_j16277926052524_1_alg».proof.Proof.RankSpec
import proofs.«128315_j16277926052524_1_alg».proof.Proof.RankArrays
import proofs.«128315_j16277926052524_1_alg».proof.Proof.RefGen

noncomputable section

namespace Cert.RankLoss.Ref

open Cert.ReferenceIdeal Cert.ReferenceIdeal.ReadP Cert.RankLoss Idealize.ShloMosaic

/-- The reference's count of label `i` is the sum of the label's column. -/
theorem ref_counts (x1 : (⟨S384x40, .i32⟩ : BufTy).Contents (Elt Ideal)) (i : S40.Idx) :
    val_main_v28 (F := Ideal) x1 i = cnt (posOf x1) (i 0) := by
  have e : ∀ k : Fin 384, idx_main_v27 (idx_main_v28 i k) = ValueIdx.ix2 k (i 0) := fun k =>
    funext fun a => Fin.ext (by match a with | ⟨0, _⟩ => rfl | ⟨1, _⟩ => rfl)
  rw [val_main_v28_apply]
  simp only [val_main_cst_8_apply, val_main_v27_apply, e, Ideal.ofBits_def, Ideal.ofBits_zero_f32, zero_add]
  rfl

end Cert.RankLoss.Ref

end
-- ==== Proof.RefValueSim.lean ====
/-
  The reference's affinity matrix read by coordinates. The host takes each row's length as the square root of the
  sum of its squares (from zero), floors it at the epsilon, divides the row by it, and contracts the scaled array
  with its own transpose: entry (q, k) is the sum over the 512 columns of the products of rows q and k.
-/
import proofs.«128315_j16277926052524_1_alg».proof.Proof.RankSpec
import proofs.«128315_j16277926052524_1_alg».proof.Proof.RankArrays
import proofs.«128315_j16277926052524_1_alg».proof.Proof.RefGen

noncomputable section

namespace Cert.RankLoss.Ref

open Cert.ReferenceIdeal Cert.ReferenceIdeal.ReadP Cert.RankLoss Idealize.ShloMosaic

open ValueIdx in
/-- Entry `(q, d)` of the scaled array is the embedding divided by its row's floored length. -/
theorem unit_apply (x0 : (⟨S384x512, .f32⟩ : BufTy).Contents (Elt Ideal)) (q : Fin 384) (d : Fin 512) :
    val_main_v4 (F := Ideal) x0 (ix2 q d) = unitRow (xOf x0) q d := by
  have e3 : idx_main_v3 (ix2 q d) = ix2 q (0 : Fin 1) :=
    funext fun a => Fin.ext (by match a with | ⟨0, _⟩ => rfl | ⟨1, _⟩ => rfl)
  have e2 : idx_main_call0_v2 (ix2 q (0 : Fin 1)) = ix1 q :=
    funext fun a => Fin.ext (by match a with | ⟨0, _⟩ => rfl)
  have e1 : ∀ d' : Fin 512, idx_main_call0_v1 (ix1 q) d' = ix2 q d' := fun d' =>
    funext fun a => Fin.ext (by match a with | ⟨0, _⟩ => rfl | ⟨1, _⟩ => rfl)
  rw [val_main_v4_apply, val_main_v3_apply, e3, val_main_v2_apply, val_main_v0_apply, val_main_call0_v2_apply, e2,
    val_main_call0_v1_apply, val_main_v1_apply, val_main_cst_apply, val_main_call0_cst_apply]
  simp only [val_main_call0_v0_apply, e1, Ideal.ofBits_def, Ideal.ofBits_zero_f32, zero_add, Ideal.hostDivf_def,
    Ideal.maximumf_def, Ideal.hostUnary_sqrt_def, Ideal.mulf_def]
  rfl

open ValueIdx in
/-- Entry `(q, k)` of the reference's affinity matrix. -/
theorem sim_apply (x0 : (⟨S384x512, .f32⟩ : BufTy).Contents (Elt Ideal)) (q k : Fin 384) :
    val_main_v6 (F := Ideal) x0 (ix2 q k) = simOf (xOf x0) q k := by
  have el : ∀ d : Fin 512, lidx_main_v6 (ix2 q k) d = ix2 q d := fun d =>
    funext fun a => Fin.ext (by match a with | ⟨0, _⟩ => rfl | ⟨1, _⟩ => rfl)
  have er : ∀ d : Fin 512, idx_main_v5 (ridx_main_v6 (ix2 q k) d) = ix2 k d := fun d =>
    funext fun a => Fin.ext (by match a with | ⟨0, _⟩ => rfl | ⟨1, _⟩ => rfl)
  rw [val_main_v6_apply]
  simp only [val_main_v5_apply, el, er, unit_apply]
  rfl

end Cert.RankLoss.Ref

end
-- ==== Proof.RefValueSg.lean ====
/-
  The reference's smoothed indicators and all-item ranks read by coordinates. Entry (q, j, k) of the indicator
  array is the temperature sigmoid of the affinity difference `sim q k - sim q j`: subtract, negate, divide by the
  temperature, clamp between the two bounds, exponentiate, add one, take the reciprocal. The rank of `j` among all
  items in row `q` is one plus the sum (from zero) of the indicators over `k`, minus one half.
-/
import proofs.«128315_j16277926052524_1_alg».proof.Proof.RankSpec
import proofs.«128315_j16277926052524_1_alg».proof.Proof.RankArrays
import proofs.«128315_j16277926052524_1_alg».proof.Proof.RefGen
import proofs.«128315_j16277926052524_1_alg».proof.Proof.RefValueSim

noncomputable section

namespace Cert.RankLoss.Ref

open Cert.ReferenceIdeal Cert.ReferenceIdeal.ReadP Cert.RankLoss Idealize.ShloMosaic

open ValueIdx in
/-- Entry `(q, j, k)` of the indicator array. -/
theorem sg_apply (x0 : (⟨S384x512, .f32⟩ : BufTy).Contents (Elt Ideal)) (q j k : Fin 384) :
    val_main_v20 (F := Ideal) x0 (ix3 q j k) = sgRow (simOf (xOf x0) q) j k := by
  have e9 : idx_main_v7 (idx_main_v9 (ix3 q j k)) = ix2 q k := funext fun a => Fin.ext (by match a with | ⟨0, _⟩ => rfl | ⟨1, _⟩ => rfl)
  have e10 : idx_main_v8 (idx_main_v10 (ix3 q j k)) = ix2 q j := funext fun a => Fin.ext (by match a with | ⟨0, _⟩ => rfl | ⟨1, _⟩ => rfl)
  rw [val_main_v20_apply, val_main_v19_apply, val_main_cst_4_apply, val_main_v18_apply, val_main_v17_apply,
    val_main_cst_3_apply, val_main_v16_apply, val_main_v15_apply, val_main_call1_v4_apply, val_main_call1_v3_apply,
    val_main_cst_2_apply, val_main_call1_v2_apply, val_main_call1_v1_apply, val_main_call1_v0_apply,
    val_main_cst_1_apply, val_main_v14_apply, val_main_v13_apply, val_main_cst_0_apply, val_main_v12_apply,
    val_main_v11_apply, val_main_v9_apply, val_main_v7_apply, e9, val_main_v10_apply, val_main_v8_apply, e10,
    sim_apply, sim_apply]
  rfl

open ValueIdx in
/-- Entry `(q, j)` of the all-item ranks. -/
theorem rankAll_apply (x0 : (⟨S384x512, .f32⟩ : BufTy).Contents (Elt Ideal)) (q j : Fin 384) :
    val_main_v25 (F := Ideal) x0 (ix2 q j) = rankAllR (simOf (xOf x0) q) j := by
  have e : ∀ k : Fin 384, idx_main_v21 (ix2 q j) k = ix3 q j k := fun k => funext fun a => Fin.ext (by match a with | ⟨0, _⟩ => rfl | ⟨1, _⟩ => rfl | ⟨2, _⟩ => rfl)
  rw [val_main_v25_apply, val_main_v24_apply, val_main_cst_7_apply, val_main_v23_apply, val_main_v22_apply,
    val_main_cst_6_apply, val_main_v21_apply, val_main_cst_5_apply]
  simp only [e, sg_apply, Ideal.ofBits_def, Ideal.ofBits_zero_f32, zero_add]
  rfl

end Cert.RankLoss.Ref

end
-- ==== Proof.RefValuePos.lean ====
/-
  The reference's per-label ranks, ratios and pair terms read by coordinates. The label array is converted and
  transposed, so its entry (l, q) is the label of row q. The rank of `j` among the positives of label `l` in row `q`
  is one plus the contraction over `k` of the label's column with the indicators, minus one half of `j`'s own label;
  the ratio divides it by the all-item rank; the pair term multiplies the ratio by the labels of `q` and `j`.
-/
import proofs.«128315_j16277926052524_1_alg».proof.Proof.RankSpec
import proofs.«128315_j16277926052524_1_alg».proof.Proof.RankArrays
import proofs.«128315_j16277926052524_1_alg».proof.Proof.RefGen
import proofs.«128315_j16277926052524_1_alg».proof.Proof.RefValueSg

noncomputable section

namespace Cert.RankLoss.Ref

open Cert.ReferenceIdeal Cert.ReferenceIdeal.ReadP Cert.RankLoss Idealize.ShloMosaic

open ValueIdx in
/-- Entry `(l, q)` of the transposed label array. -/
theorem posT_apply (x1 : (⟨S384x40, .i32⟩ : BufTy).Contents (Elt Ideal)) (l : Fin 40) (q : Fin 384) :
    val_main_v27 (F := Ideal) x1 (ix2 l q) = posOf x1 q l := by
  have e : idx_main_v27 (ix2 l q) = ix2 q l := funext fun a => Fin.ext (by match a with | ⟨0, _⟩ => rfl | ⟨1, _⟩ => rfl)
  rw [val_main_v27_apply, e]
  rfl

open ValueIdx in
/-- Entry `(l, q, j)` of the ranks among the positives. -/
theorem rankPos_apply (x0 : (⟨S384x512, .f32⟩ : BufTy).Contents (Elt Ideal)) (x1 : (⟨S384x40, .i32⟩ : BufTy).Contents (Elt Ideal))
    (l : Fin 40) (q j : Fin 384) :
    val_main_v36 (F := Ideal) x0 x1 (ix3 l q j) = rankPos (simOf (xOf x0) q) (posOf x1) j l := by
  have el : ∀ k : Fin 384, lidx_main_v29 (ix3 l q j) k = ix2 l k := fun k => funext fun a => Fin.ext (by match a with | ⟨0, _⟩ => rfl | ⟨1, _⟩ => rfl)
  have er : ∀ k : Fin 384, ridx_main_v29 (ix3 l q j) k = ix3 q j k := fun k => funext fun a => Fin.ext (by match a with | ⟨0, _⟩ => rfl | ⟨1, _⟩ => rfl | ⟨2, _⟩ => rfl)
  have e35 : idx_main_v32 (idx_main_v35 (ix3 l q j)) = ix2 l j := funext fun a => Fin.ext (by match a with | ⟨0, _⟩ => rfl | ⟨1, _⟩ => rfl)
  rw [val_main_v36_apply, val_main_v35_apply, val_main_v34_apply, val_main_v33_apply, val_main_cst_10_apply,
    val_main_v32_apply, e35, val_main_v31_apply, val_main_v30_apply, val_main_cst_9_apply, val_main_v29_apply]
  simp only [el, er, posT_apply, sg_apply]
  exact congrArg (fun t => (oneW + t) - halfW * posOf x1 j l) (Finset.sum_congr rfl fun k _ => mul_comm _ _)

open ValueIdx in
/-- Entry `(l, q, j)` of the ratios. -/
theorem ratio_apply (x0 : (⟨S384x512, .f32⟩ : BufTy).Contents (Elt Ideal)) (x1 : (⟨S384x40, .i32⟩ : BufTy).Contents (Elt Ideal))
    (l : Fin 40) (q j : Fin 384) :
    val_main_v44 (F := Ideal) x0 x1 (ix3 l q j) = ratioR (simOf (xOf x0) q) (posOf x1) j l := by
  have e43 : idx_main_v42 (idx_main_v43 (ix3 l q j)) = ix2 q j := funext fun a => Fin.ext (by match a with | ⟨0, _⟩ => rfl | ⟨1, _⟩ => rfl)
  rw [val_main_v44_apply, val_main_v43_apply, val_main_v42_apply, e43, rankAll_apply, rankPos_apply]
  rfl

open ValueIdx in
/-- Entry `(l, q, j)` of the pair terms. -/
theorem term_apply (x0 : (⟨S384x512, .f32⟩ : BufTy).Contents (Elt Ideal)) (x1 : (⟨S384x40, .i32⟩ : BufTy).Contents (Elt Ideal))
    (l : Fin 40) (q j : Fin 384) :
    val_main_v45 (F := Ideal) x0 x1 (ix3 l q j)
      = (posOf x1 q l * posOf x1 j l) * ratioR (simOf (xOf x0) q) (posOf x1) j l := by
  have e39 : idx_main_v37 (idx_main_v39 (ix3 l q j)) = ix2 l q := funext fun a => Fin.ext (by match a with | ⟨0, _⟩ => rfl | ⟨1, _⟩ => rfl)
  have e40 : idx_main_v38 (idx_main_v40 (ix3 l q j)) = ix2 l j := funext fun a => Fin.ext (by match a with | ⟨0, _⟩ => rfl | ⟨1, _⟩ => rfl)
  rw [val_main_v45_apply, ratio_apply, val_main_v41_apply, val_main_v39_apply, val_main_v37_apply, e39,
    val_main_v40_apply, val_main_v38_apply, e40, posT_apply, posT_apply]
  rfl

end Cert.RankLoss.Ref

end
-- ==== Proof.LibFlatPairs.lean ====
/-
  Sums and greatest elements over the pairs of two finite ranges, in the orders programs take them.

  A table `f s t` with `s` over `n` rows and `t` over `m` columns can be summed over the pairs `(s, t)`, row by row
  (each row first, then the row totals), or as one list of `N = n · m` entries in row-major order, entry `k` being
  `f (k / m) (k % m)`. In a commutative monoid the three sums agree; in a lattice with a least element the three
  greatest elements agree. A fold of `max` from the least element is that greatest element.
-/
import Mathlib.Algebra.BigOperators.Fin
import Mathlib.Order.CompleteLattice.Finset
import Mathlib.Data.Fintype.BigOperators
import Mathlib.Data.EReal.Basic

namespace Cert.FlatPairs

variable {n m N : ℕ}

/-- The row of entry `k` of the flattened table. -/
def rowOf (h : N = n * m) (k : Fin N) : Fin n :=
  ⟨k.val / m, by
    have hk := k.isLt
    rcases Nat.eq_zero_or_pos m with hm | hm
    · subst hm; omega
    · exact (Nat.div_lt_iff_lt_mul hm).2 (h ▸ hk)⟩
/-- Its column. -/
def colOf (h : N = n * m) (k : Fin N) : Fin m :=
  ⟨k.val % m, by
    have hk := k.isLt
    rcases Nat.eq_zero_or_pos m with hm | hm
    · subst hm; omega
    · exact Nat.mod_lt _ hm⟩

/-- Entry `(s, t)` sits at position `s · m + t`. -/
def posOf (h : N = n * m) (p : Fin n × Fin m) : Fin N :=
  ⟨p.1.val * m + p.2.val, by
    have h1 := p.1.isLt; have h2 := p.2.isLt
    calc p.1.val * m + p.2.val < p.1.val * m + m := by omega
      _ = (p.1.val + 1) * m := by ring
      _ ≤ n * m := Nat.mul_le_mul_right m h1
      _ = N := h.symm⟩

/-- Row-major flattening as a bijection between positions and pairs. -/
def pairEquiv (h : N = n * m) : Fin N ≃ Fin n × Fin m where
  toFun k := (rowOf h k, colOf h k)
  invFun := posOf h
  left_inv k := Fin.ext (by
    show k.val / m * m + k.val % m = k.val
    rw [Nat.mul_comm]; exact Nat.div_add_mod k.val m)
  right_inv p := by
    have h2 := p.2.isLt
    have hm : 0 < m := by omega
    refine Prod.ext (Fin.ext ?_) (Fin.ext ?_)
    · show (p.1.val * m + p.2.val) / m = p.1.val
      rw [Nat.mul_comm, Nat.mul_add_div hm, Nat.div_eq_of_lt h2, Nat.add_zero]
    · show (p.1.val * m + p.2.val) % m = p.2.val
      rw [Nat.mul_comm, Nat.mul_add_mod, Nat.mod_eq_of_lt h2]

section sums
variable {M : Type} [AddCommMonoid M]

/-- The sum over the pairs is the sum of the row totals. -/
theorem sum_rows (f : Fin n → Fin m → M) : ∑ p : Fin n × Fin m, f p.1 p.2 = ∑ s, ∑ t, f s t :=
  Fintype.sum_prod_type' f

/-- The sum of the flattened table is the sum over the pairs. -/
theorem sum_flat (h : N = n * m) (f : Fin n → Fin m → M) :
    ∑ k : Fin N, f (rowOf h k) (colOf h k) = ∑ p : Fin n × Fin m, f p.1 p.2 :=
  Fintype.sum_equiv (pairEquiv h) _ _ fun _ => rfl
end sums

section sups
variable {L : Type} [SemilatticeSup L] [OrderBot L]

/-- The greatest element over the pairs is the greatest of the rows' greatest elements. -/
theorem sup_rows (f : Fin n → Fin m → L) :
    (Finset.univ : Finset (Fin n × Fin m)).sup (fun p => f p.1 p.2)
      = (Finset.univ : Finset (Fin n)).sup fun s => (Finset.univ : Finset (Fin m)).sup fun t => f s t := by
  apply le_antisymm
  · refine Finset.sup_le fun p _ => ?_
    exact le_trans (Finset.le_sup (f := fun t => f p.1 t) (Finset.mem_univ p.2))
      (Finset.le_sup (f := fun s => (Finset.univ : Finset (Fin m)).sup fun t => f s t) (Finset.mem_univ p.1))
  · refine Finset.sup_le fun s _ => Finset.sup_le fun t _ => ?_
    exact Finset.le_sup (f := fun p : Fin n × Fin m => f p.1 p.2) (Finset.mem_univ (s, t))

/-- The greatest element of the flattened table is the greatest over the pairs. -/
theorem sup_flat (h : N = n * m) (f : Fin n → Fin m → L) :
    (Finset.univ : Finset (Fin N)).sup (fun k => f (rowOf h k) (colOf h k))
      = (Finset.univ : Finset (Fin n × Fin m)).sup fun p => f p.1 p.2 := by
  apply le_antisymm
  · refine Finset.sup_le fun k _ => ?_
    exact Finset.le_sup (f := fun p : Fin n × Fin m => f p.1 p.2) (Finset.mem_univ (pairEquiv h k))
  · refine Finset.sup_le fun p _ => ?_
    have := Finset.le_sup (f := fun k => f (rowOf h k) (colOf h k)) (Finset.mem_univ ((pairEquiv h).symm p))
    have e : pairEquiv h ((pairEquiv h).symm p) = p := (pairEquiv h).apply_symm_apply p
    have e1 : rowOf h ((pairEquiv h).symm p) = p.1 := congrArg Prod.fst e
    have e2 : colOf h ((pairEquiv h).symm p) = p.2 := congrArg Prod.snd e
    simpa only [e1, e2] using this
end sups

/-- A fold of `max` from the least element over a finite set is the set's greatest element. -/
theorem fold_max_bot {ι : Type} [DecidableEq ι] (s : Finset ι) (f : ι → EReal) : s.fold max ⊥ f = s.sup f := by
  induction s using Finset.induction_on with
  | empty => simp
  | insert a s ha ih => rw [Finset.fold_insert ha, Finset.sup_insert, ih]

end Cert.FlatPairs
-- ==== Proof.LibInnerPairs.lean ====
/-
  Host reductions of a table of pairs, read at a batch entry.

  An array `[a, b, c]` summed by the host across its two inner axes gives a vector `[a]` whose entry `i` is the
  initial value plus the sum, over the pairs `(s, t)` of inner coordinates, of the array at `(i, s, t)`. A matrix
  `[a, N]` reduced by the host along its second axis with the maximum, from minus infinity, gives at `i` the
  greatest entry of row `i`. Every index is written by its coordinates.
-/
import Idealize.ShloMosaic.PureOps.Ideal.Laws
import Idealize.ShloMosaic.Lib.ValueIdx
import proofs.«128315_j16277926052524_1_alg».proof.Proof.LibFlatPairs
import proofs.«128315_j16277926052524_1_alg».proof.Proof.LibRowForms

noncomputable section

namespace Cert.InnerPairs

open Idealize.ShloMosaic Idealize.ShloMosaic.ValueIdx

/-- The single-precision word of minus infinity denotes the least extended real. -/
theorem ofBits_neg_inf : Ideal.ofBits .f32 0xFF800000#32 = ⊥ := by simp [Ideal.ofBits, Ideal.ieee]

/-- Dropping the two inner coordinates of `(i, s, t)` leaves `i`. -/
theorem drop_inner {a b c : ℕ} (h : (⟨3, ![a, b, c]⟩ : Shape).ReducesTo [1, 2] ⟨1, ![a]⟩)
    (i : Fin a) (s : Fin b) (t : Fin c) : h.drop (ix3 i s t) = ix1 i := by
  funext d; apply Fin.ext
  match d with
  | ⟨0, _⟩ => rfl

/-- An index whose two inner coordinates are dropped to `i` has first coordinate `i`. -/
theorem eq_of_drop_inner {a b c : ℕ} (h : (⟨3, ![a, b, c]⟩ : Shape).ReducesTo [1, 2] ⟨1, ![a]⟩)
    (i : Fin a) (j : (⟨3, ![a, b, c]⟩ : Shape).Idx) (hj : h.drop j = ix1 i) :
    ix3 i (j 1 : Fin b) (j 2 : Fin c) = j := by
  have h0 : (j 0 : Fin a) = i := by
    have := congrFun hj ⟨0, Nat.one_pos⟩
    exact Fin.ext (congrArg Fin.val this)
  funext d
  match d with
  | ⟨0, _⟩ => exact h0.symm
  | ⟨1, _⟩ => rfl
  | ⟨2, _⟩ => rfl

/-- The host's float sum of `[a, b, c]` across the two inner axes, at `i`: the initial value plus the sum over the
    pairs `(s, t)` of the array at `(i, s, t)`. -/
theorem hostSum_inner_pairs {a b c : ℕ} (h : (⟨3, ![a, b, c]⟩ : Shape).ReducesTo [1, 2] ⟨1, ![a]⟩)
    (x : (⟨3, ![a, b, c]⟩ : Shape).Idx → EReal) (init : EReal) (i : Fin a) :
    Ideal.hostReduceAdd h x init (ix1 i) = init + ∑ p : Fin b × Fin c, x (ix3 i p.1 p.2) := by
  unfold Ideal.hostReduceAdd
  refine congrArg (init + ·) ?_
  refine Finset.sum_nbij' (fun j => ((j 1 : Fin b), (j 2 : Fin c))) (fun p => ix3 i p.1 p.2) ?_ ?_ ?_ ?_ ?_
  · intro j _; exact Finset.mem_univ _
  · intro p _; exact Finset.mem_filter.2 ⟨Finset.mem_univ _, drop_inner h i p.1 p.2⟩
  · intro j hj; exact eq_of_drop_inner h i j (Finset.mem_filter.1 hj).2
  · intro p _; rfl
  · intro j hj; exact congrArg x (eq_of_drop_inner h i j (Finset.mem_filter.1 hj).2).symm

/-- The host's maximum of `[a, N]` along its second axis, from an initial value that is minus infinity, at `i`: the
    greatest entry of row `i`. -/
theorem hostMax_row {a N : ℕ} (x : (⟨2, ![a, N]⟩ : Shape).Idx → EReal) (init : (⟨0, ![]⟩ : Shape).Idx → EReal)
    (h' : (⟨2, ![a, N]⟩ : Shape).ReducesTo [1] ⟨1, ![a]⟩) (hu : 0 < (⟨0, ![]⟩ : Shape).numel)
    (hinit : init (Shape.Idx.first hu) = ⊥) (i : Fin a) :
    Host.reduce (FloatOps.maximumf (F := Ideal) (φ := .f32)) x init h' hu (ix1 i)
      = (Finset.univ : Finset (Fin N)).sup fun k => x (ix2 i k) := by
  have h : (⟨2, ![a, N]⟩ : Shape).Reduces [1] ⟨1, ![a]⟩ := ⟨h'.1, Nat.one_pos, h'.2⟩
  rw [Host.reduce_eq_fold_single (FloatOps.maximumf (F := Ideal) (φ := .f32)) x init h' h hu (ix1 i), hinit]
  refine Eq.trans ?_ (Cert.FlatPairs.fold_max_bot (Finset.univ : Finset (Fin N)) fun k => x (ix2 i k))
  exact congrArg (fun f => Finset.fold max (⊥ : EReal) f (Finset.univ : Finset (Fin N)))
    (funext fun k => congrArg x (Cert.RowForms.lift_row h i k))

end Cert.InnerPairs

end
-- ==== Proof.RefValueTot.lean ====
/-
  The reference's totals per label. The host adds, from zero, the pair terms of label `l` over the two inner axes
  (q, j) of the [40, 384, 384] array: a sum over the pairs, which is the double sum over `q` and then `j`.
-/
import proofs.«128315_j16277926052524_1_alg».proof.Proof.RankSpec
import proofs.«128315_j16277926052524_1_alg».proof.Proof.RankArrays
import proofs.«128315_j16277926052524_1_alg».proof.Proof.RefGen
import proofs.«128315_j16277926052524_1_alg».proof.Proof.RefValuePos
import proofs.«128315_j16277926052524_1_alg».proof.Proof.LibInnerPairs

noncomputable section

namespace Cert.RankLoss.Ref

open Cert.ReferenceIdeal Cert.ReferenceIdeal.ReadP Cert.RankLoss Idealize.ShloMosaic

open ValueIdx in
/-- The total of label `l`, the index written by its coordinate. -/
theorem totals_ix (x0 : (⟨S384x512, .f32⟩ : BufTy).Contents (Elt Ideal)) (x1 : (⟨S384x40, .i32⟩ : BufTy).Contents (Elt Ideal)) (l : Fin 40) :
    val_main_v46 (F := Ideal) x0 x1 (ix1 l) = sRef (simOf (xOf x0)) (posOf x1) l := by
  unfold val_main_v46
  simp only [Host.reduceAdd, Ideal.hostReduceAdd_def]
  rw [Cert.InnerPairs.hostSum_inner_pairs, val_main_cst_11_apply, Ideal.ofBits_def, Ideal.ofBits_zero_f32, zero_add,
    Cert.FlatPairs.sum_rows (fun q j => val_main_v45 (F := Ideal) x0 x1 (ix3 l q j))]
  simp only [term_apply]
  rfl

/-- The reference's total of label `i` is the double sum over the pairs. -/
theorem ref_totals (x0 : (⟨S384x512, .f32⟩ : BufTy).Contents (Elt Ideal)) (x1 : (⟨S384x40, .i32⟩ : BufTy).Contents (Elt Ideal)) (i : S40.Idx) :
    val_main_v46 (F := Ideal) x0 x1 i = sRef (simOf (xOf x0)) (posOf x1) (i 0) :=
  (congrArg (val_main_v46 (F := Ideal) x0 x1) (ValueIdx.eq_ix1 i)).trans (totals_ix x0 x1 (i 0))

end Cert.RankLoss.Ref

end
-- ==== Proof.RefValue.lean ====
/-
  The reference program's value read index by index: its loss as the shared last stage of its totals and counts, its
  counts as column sums of the labels, and its totals as the double sum over pairs.
-/
import proofs.«128315_j16277926052524_1_alg».proof.Proof.RefValueLoss
import proofs.«128315_j16277926052524_1_alg».proof.Proof.RefValueCnt
import proofs.«128315_j16277926052524_1_alg».proof.Proof.RefValueTot
-- ==== Proof.RefValueRun.lean ====
/-
  The reference's run in final form: every weakly fair execution of the reference program ends with its result at the
  shared loss of the double-sum totals and the column-sum counts of the launch contents of its two arguments, and
  with the arguments unchanged.
-/
import proofs.«128315_j16277926052524_1_alg».proof.Proof.RefValue
import proofs.«128315_j16277926052524_1_alg».proof.Proof.RefGen

noncomputable section

namespace Cert.RankLoss.Ref

open Cert.ReferenceIdeal Cert.ReferenceIdeal.ReadP Cert.RankLoss Idealize.ShloMosaic Idealize.ShloMosaic.TcCoe Idealize.SL.Sem
  Idealize.ShloMosaic.StableHlo

/-- The reference's run, its result read as the loss of the specification's totals and counts. The three shape facts
    are propositions: the statement holds for any proofs of them. -/
theorem ref_run (hb : V0.BroadcastsInDim V40 (![] : Fin 0 → Fin V40.rank)) (hr : V40.ReducesTo [0] V0) (h0 : 0 < V0.numel)
    (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v63)
          = lossOf hb hr h0 (fun i => sRef (simOf (xOf (m ((c.tc : Thread _ _).loc Cert.ReferenceIdeal.main_arg0)))) (posOf (m ((c.tc : Thread _ _).loc Cert.ReferenceIdeal.main_arg1))) (i 0))
              (fun i => cnt (posOf (m ((c.tc : Thread _ _).loc Cert.ReferenceIdeal.main_arg1))) (i 0))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1) :=
  (θ_run (Cert.ReferenceIdeal.defs (F := Ideal)) _ _).mono (fun _ h c => ⟨by
      rw [(h c).1, val_main_v63_eq, ref_loss hb hr h0]
      exact congrArg₂ (lossOf hb hr h0) (funext fun i => ref_totals _ _ i) (funext fun i => ref_counts _ i), (h c).2⟩)
    (Cert.ReferenceIdeal.ValueP.run (F := Ideal) m ρ)

end Cert.RankLoss.Ref

end
-- ==== Proof.RankLawSum.lean ====
/-
  The kernel's arrangement of a per-label total is a regrouping of one sum over the 384 query rows: sixteen rows to a
  tile, twelve tiles to a core, two cores. Only commutativity and associativity of the sum are used, so the law holds
  for any affinity matrix and any labels.
-/
import proofs.«128315_j16277926052524_1_alg».proof.Proof.RankSpec

noncomputable section

namespace Cert.RankLoss

open Idealize.ShloMosaic

namespace Law

/-- A sum over `nb * bs` consecutive naturals, taken as `nb` consecutive blocks of `bs`. -/
theorem sum_range_blocks {M : Type*} [AddCommMonoid M] (bs : ℕ) (f : ℕ → M) (nb : ℕ) :
    ∑ m ∈ Finset.range (nb * bs), f m = ∑ b ∈ Finset.range nb, ∑ r ∈ Finset.range bs, f (bs * b + r) := by
  induction nb with
  | zero => simp
  | succ n ih =>
    rw [Nat.succ_mul, Finset.sum_range_add, ih, Finset.sum_range_succ, Nat.mul_comm n bs]

end Law

section
variable (sim : Fin 384 → Fin 384 → EReal) (pos : Fin 384 → Fin 40 → EReal)

/-- What query row `q` adds to label `l`'s total. -/
def rowK (l : Fin 40) (q : Fin 384) : EReal := rowTermK (sim q) pos (pos q) l

/-- The same, on the naturals: zero past the last row. -/
def rowKN (l : Fin 40) (m : ℕ) : EReal := if h : m < 384 then rowK sim pos l ⟨m, h⟩ else 0

theorem sum_rowK (l : Fin 40) : ∑ q, rowK sim pos l q = ∑ m ∈ Finset.range 384, rowKN sim pos l m := by
  rw [← Fin.sum_univ_eq_sum_range (rowKN sim pos l) 384]
  refine Finset.sum_congr rfl fun q _ => ?_
  simp [rowKN, q.isLt]

/-- A tile's total is the sum of its sixteen rows. -/
theorem tileN_eq (l : Fin 40) (n : ℕ) (h : n < 24) :
    tileN sim pos n l = ∑ r ∈ Finset.range 16, rowKN sim pos l (16 * n + r) := by
  rw [tileN, dif_pos h, tile, ← Fin.sum_univ_eq_sum_range (fun r => rowKN sim pos l (16 * n + r)) 16]
  refine Finset.sum_congr rfl fun r _ => ?_
  have hr : 16 * n + r.val < 384 := by have := r.isLt; omega
  simp only [rowKN, dif_pos hr]
  rfl

/-- A core's accumulator after `n` tiles is the sum of those tiles. -/
theorem accK_eq (c : Fin 2) (l : Fin 40) (n : ℕ) :
    accK sim pos c n l = ∑ i ∈ Finset.range n, tileN sim pos (12 * c.val + i) l := by
  induction n with
  | zero => simp [accK]
  | succ n ih => rw [accK, ih, Finset.sum_range_succ]

/-- The kernel's total is the sum over all query rows of what each row adds. -/
theorem sKer_eq_sum_rows (l : Fin 40) : sKer sim pos l = ∑ q, rowK sim pos l q := by
  rw [sum_rowK, show (384 : ℕ) = 24 * 16 from rfl, Law.sum_range_blocks, show (24 : ℕ) = 2 * 12 from rfl, Law.sum_range_blocks,
    sKer, ← Fin.sum_univ_eq_sum_range (fun c => ∑ i ∈ Finset.range 12, ∑ r ∈ Finset.range 16,
      rowKN sim pos l (16 * (12 * c + i) + r)) 2]
  refine Finset.sum_congr rfl fun c _ => ?_
  rw [accK_eq]
  refine Finset.sum_congr rfl fun i hi => ?_
  have hi' : i < 12 := Finset.mem_range.mp hi
  exact tileN_eq sim pos l (12 * c.val + i) (by have := c.isLt; omega)

end

end Cert.RankLoss

end
-- ==== Proof.RankLawConst.lean ====
/-
  The float words of the ranking loss as real numbers: one, one half, fifty and minus fifty, and the fact that a
  clamp to [-50, 50] of any extended real is a real number.
-/
import proofs.«128315_j16277926052524_1_alg».proof.Proof.RankSpec

noncomputable section

namespace Cert.RankLoss

open Idealize.ShloMosaic

theorem oneW_eq : oneW = ((1 : ℝ) : EReal) := by
  unfold oneW
  simp [Ideal.ofBits, Ideal.ieee, -EReal.coe_mul]; norm_num

theorem halfW_eq : halfW = (((1 : ℝ) / 2 : ℝ) : EReal) := by
  unfold halfW
  simp [Ideal.ofBits, Ideal.ieee, -EReal.coe_mul]; norm_num

theorem hiW_eq : hiW = ((50 : ℝ) : EReal) := by
  unfold hiW
  simp [Ideal.ofBits, Ideal.ieee, -EReal.coe_mul]; norm_num

theorem loW_eq : loW = ((-50 : ℝ) : EReal) := by
  unfold loW
  simp [Ideal.ofBits, Ideal.ieee, -EReal.coe_mul, -EReal.coe_neg]; norm_num

end Cert.RankLoss

end
-- ==== Proof.RankLawReal.lean ====
/-
  Realness of the smoothed ranks. Whatever the affinity row is, the clamp makes the exponent a real number, so the
  smoothed indicator is a positive real; the two arrangements of the rank among all items are then the same positive
  real, and with real labels the rank among the positives and the ratio of the two ranks are real numbers.
-/
import proofs.«128315_j16277926052524_1_alg».proof.Proof.RankLawConst

noncomputable section

namespace Cert.RankLoss

open Idealize.ShloMosaic

namespace Law

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A clamp to [-50, 50] of any extended real is a real number. -/
theorem clamp_real (z : EReal) : ∃ e : ℝ, min hiW (max loW z) = (e : EReal) := by
  rw [hiW_eq, loW_eq]
  have h1 : min ((50 : ℝ) : EReal) (max ((-50 : ℝ) : EReal) z) ≠ ⊤ :=
    ne_of_lt (lt_of_le_of_lt (min_le_left _ _) (EReal.coe_lt_top 50))
  have h2 : min ((50 : ℝ) : EReal) (max ((-50 : ℝ) : EReal) z) ≠ ⊥ := by
    have h : ((-50 : ℝ) : EReal) ≤ min ((50 : ℝ) : EReal) (max ((-50 : ℝ) : EReal) z) :=
      le_min (EReal.coe_le_coe_iff.mpr (by norm_num)) (le_max_left _ _)
    exact ne_of_gt (lt_of_lt_of_le (EReal.bot_lt_coe (-50)) h)
  exact ⟨_, (EReal.coe_toReal h1 h2).symm⟩

end Law

section Row
variable (s : Fin 384 → EReal)

/-- The smoothed indicator is a positive real, whatever the row. -/
theorem sgRow_real (j k : Fin 384) : ∃ σ : ℝ, 0 < σ ∧ sgRow s j k = (σ : EReal) := by
  obtain ⟨e, he⟩ := Law.clamp_real (Ideal.div (-(s k - s j)) tempW)
  have hpos : (0 : ℝ) < 1 + Real.exp e := by positivity
  refine ⟨1 * (1 / (1 + Real.exp e)), by positivity, ?_⟩
  rw [sgRow, he, Ideal.exp_coe, oneW_eq, ← EReal.coe_add, Ideal.div_coe hpos.ne', ← EReal.coe_mul]

/-- The two arrangements of the rank among all items are the same positive real. -/
theorem rankAll_real (j : Fin 384) :
    ∃ R : ℝ, 0 < R ∧ rankAllK s j = (R : EReal) ∧ rankAllR s j = (R : EReal) := by
  choose σ hσ hσe using fun k => sgRow_real s j k
  have hS : ∑ k, sgRow s j k = ((∑ k, σ k : ℝ) : EReal) := by
    rw [Law.coe_sum]; exact Finset.sum_congr rfl fun k _ => hσe k
  have hS0 : 0 ≤ ∑ k, σ k := Finset.sum_nonneg fun k _ => (hσ k).le
  refine ⟨1 / 2 + ∑ k, σ k, by positivity, ?_, ?_⟩
  · rw [rankAllK, hS, halfW_eq, ← EReal.coe_add]
  · rw [rankAllR, hS, oneW_eq, halfW_eq, ← EReal.coe_add, ← EReal.coe_sub]
    congr 1; ring

theorem rankAllK_eq_rankAllR (j : Fin 384) : rankAllK s j = rankAllR s j := by
  obtain ⟨R, _, h1, h2⟩ := rankAll_real s j
  rw [h1, h2]

/-- Hence the two ratios agree, for any labels. -/
theorem ratioK_eq_ratioR (pos : Fin 384 → Fin 40 → EReal) (j : Fin 384) (l : Fin 40) :
    ratioK s pos j l = ratioR s pos j l := by
  rw [ratioK, ratioR, rankAllK_eq_rankAllR]

variable (p : Fin 384 → Fin 40 → ℝ)

/-- With real labels the rank among the positives is a real number. -/
theorem rankPos_real (j : Fin 384) (l : Fin 40) :
    ∃ a : ℝ, rankPos s (fun q l => ((p q l : ℝ) : EReal)) j l = (a : EReal) := by
  choose σ hσ hσe using fun k => sgRow_real s j k
  refine ⟨(1 + ∑ k, σ k * p k l) - 1 / 2 * p j l, ?_⟩
  have hsum : ∑ k, sgRow s j k * ((p k l : ℝ) : EReal) = ((∑ k, σ k * p k l : ℝ) : EReal) := by
    rw [Law.coe_sum]; exact Finset.sum_congr rfl fun k _ => by rw [hσe k, EReal.coe_mul]
  show (oneW + ∑ k, sgRow s j k * ((p k l : ℝ) : EReal)) - halfW * ((p j l : ℝ) : EReal) = _
  rw [hsum, oneW_eq, halfW_eq, ← EReal.coe_add, ← EReal.coe_mul, ← EReal.coe_sub]

/-- With real labels the ratio of the two ranks is a real number. -/
theorem ratioR_real (j : Fin 384) (l : Fin 40) :
    ∃ ρ : ℝ, ratioR s (fun q l => ((p q l : ℝ) : EReal)) j l = (ρ : EReal) := by
  obtain ⟨R, hR, _, hRe⟩ := rankAll_real s j
  obtain ⟨a, ha⟩ := rankPos_real s p j l
  exact ⟨a * (1 / R), by rw [ratioR, hRe, ha, Ideal.div_coe hR.ne', ← EReal.coe_mul]⟩

end Row

end Cert.RankLoss

end
-- ==== Proof.RankLaw.lean ====
/-
  The law joining the two arrangements of the per-label total. The kernel's total is the sum over the query rows of
  `(sum_j ratio q j * p j) * p q`; the reference's is the double sum of `(p q * p j) * ratio q j`. The two ratios
  are the same real number, the labels are real, so the inner sums agree by distributivity over the reals and the
  outer sums by the regrouping of the rows into tiles and cores.
-/
import proofs.«128315_j16277926052524_1_alg».proof.Proof.RankLawSum
import proofs.«128315_j16277926052524_1_alg».proof.Proof.RankLawReal

noncomputable section

namespace Cert.RankLoss

open Idealize.ShloMosaic

/-- With real labels, what one query row adds in the kernel is the reference's inner sum for that row. -/
theorem rowK_eq_real (sim : Fin 384 → Fin 384 → EReal) (p : Fin 384 → Fin 40 → ℝ) (l : Fin 40) (q : Fin 384) :
    rowK sim (fun q l => ((p q l : ℝ) : EReal)) l q
      = ∑ j, (((p q l : ℝ) : EReal) * ((p j l : ℝ) : EReal)) * ratioR (sim q) (fun q l => ((p q l : ℝ) : EReal)) j l := by
  choose ρ hρ using fun j => ratioR_real (sim q) p j l
  have hL : rowK sim (fun q l => ((p q l : ℝ) : EReal)) l q = (((∑ j, ρ j * p j l) * p q l : ℝ) : EReal) := by
    show (∑ j, ratioK (sim q) (fun q l => ((p q l : ℝ) : EReal)) j l * ((p j l : ℝ) : EReal)) * ((p q l : ℝ) : EReal) = _
    rw [EReal.coe_mul, Law.coe_sum]
    congr 1
    exact Finset.sum_congr rfl fun j _ => by rw [ratioK_eq_ratioR, hρ j, EReal.coe_mul]
  have hR : ∑ j, (((p q l : ℝ) : EReal) * ((p j l : ℝ) : EReal)) * ratioR (sim q) (fun q l => ((p q l : ℝ) : EReal)) j l
      = ((∑ j, (p q l * p j l) * ρ j : ℝ) : EReal) := by
    rw [Law.coe_sum]
    exact Finset.sum_congr rfl fun j _ => by rw [hρ j, EReal.coe_mul, EReal.coe_mul]
  rw [hL, hR, Finset.sum_mul]
  congr 1
  exact Finset.sum_congr rfl fun j _ => by ring

/-- The kernel's and the reference's totals for a label agree, for any affinity matrix and any real labels. -/
theorem sKer_eq_sRef (sim : Fin 384 → Fin 384 → EReal) (p : Fin 384 → Fin 40 → ℝ) (l : Fin 40) :
    sKer sim (fun q l => ((p q l : ℝ) : EReal)) l = sRef sim (fun q l => ((p q l : ℝ) : EReal)) l := by
  rw [sKer_eq_sum_rows, sRef]
  exact Finset.sum_congr rfl fun q _ => rowK_eq_real sim p l q

end Cert.RankLoss

end
-- ==== Proof.lean ====
/-
  A smooth average-precision ranking loss: a two-kernel program against its plain reference, equal as extended reals.

  Both programs normalise the embedding rows (division by the row's length floored at an epsilon), take the cosine
  affinities, and for every query row q and every pair of items (j, k) the temperature sigmoid of
  sim(q,k) - sim(q,j) with its exponent clamped to [-50, 50]. From those: the rank of j among all items, its rank
  among the positives of each label l, their ratio, and per label the total of the ratio over the positive pairs
  (q, j); a last stage, identical in the two programs, turns the totals and the counts of positives into the loss.

  They differ in arrangement only. The kernel writes the rank among all items as 1/2 + sum where the reference
  writes (1 + sum) - 1/2; it sums over j first and multiplies by the query's own label afterwards, one query row at a
  time, sixteen rows to a grid point, twelve grid points accumulated in a scratch buffer per core, the two cores'
  results added on the host; the reference multiplies the two labels first and takes one double sum. On the extended
  reals these rearrangements need the summands to be real numbers, and they are, whatever the inputs: the clamp makes
  every exponent a real in [-50, 50], so every sigmoid is a real in (0, 1), every rank among all items a real of at
  least 1/2, every label entry is an integer read as a real, and so every ratio is a real. The precondition is not
  used.

  The parts: the frames of the two kernel programs, proved once for any float instance over the pipeline of two
  regions (the second with a scratch accumulator carried between grid points and two windows on one array); the
  reference's frame from its run; the idealized kernel program's run with its result named; the reference's run with
  its result named; and the law joining the two arrangements of the totals.
-/
import proofs.«128315_j16277926052524_1_alg».proof.Defs
import proofs.«128315_j16277926052524_1_alg».proof.Proof.Gen.Kernel
import proofs.«128315_j16277926052524_1_alg».proof.Proof.Gen.KernelIdeal
import proofs.«128315_j16277926052524_1_alg».proof.Proof.Gen.ReferenceIdeal
import proofs.«128315_j16277926052524_1_alg».proof.Proof.Gen.Pre_finite_inputs
import proofs.«128315_j16277926052524_1_alg».proof.Proof.KBFrame
import proofs.«128315_j16277926052524_1_alg».proof.Proof.KIValueRun
import proofs.«128315_j16277926052524_1_alg».proof.Proof.RefValueRun
import proofs.«128315_j16277926052524_1_alg».proof.Proof.RankLaw

noncomputable section

namespace Cert.Proof

open Idealize.ShloMosaic Idealize.SL.Sem Cert.RankLoss

/-! ## The frames -/

theorem frame_kernel : Cert.frame_Kernel := fun m ρ _ => Cert.Kernel.Hand.frame m ρ
theorem frame_kernelIdeal : Cert.frame_KernelIdeal := fun m ρ _ => Cert.KernelIdeal.Hand.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-! ## The two results are one function of the arguments -/

/-- The per-label totals in the reference's arrangement are the kernel's: every label entry is a real. -/
theorem totals_agree (a0 : (⟨A384x512, .f32⟩ : BufTy).Contents (Elt Ideal)) (a1 : (⟨A384x40, .i32⟩ : BufTy).Contents (Elt Ideal)) :
    (fun i : V40.Idx => sRef (simOf (xOf a0)) (posOf a1) (i 0)) = (fun i : V40.Idx => sKer (simOf (xOf a0)) (posOf a1) (i 0)) :=
  funext fun i => by unfold posOf; exact (sKer_eq_sRef (simOf (xOf a0)) (labelOf a1) (i 0)).symm

/-- At the ideal instance the two programs, run from memories agreeing on the arguments, end with equal results. -/
theorem algebraic : Cert.algebraic_KernelIdeal_ReferenceIdeal := by
  intro m ρ m' ρ' _ hagree
  refine ⟨_, Cert.KernelIdeal.Hand.value_run Cert.KernelIdeal.Facts₀.bcast_S_S40 Cert.KernelIdeal.Facts₀.reducesTo_S40_S_d0 Cert.KernelIdeal.Facts₀.h_S_ m ρ, ?_⟩
  refine (θ_run Cert.ReferenceIdeal.defs _ _).mono (fun _ h c => ⟨(h c).1.trans ?_, (h c).2⟩)
    (Cert.RankLoss.Ref.ref_run Cert.KernelIdeal.Facts₀.bcast_S_S40 Cert.KernelIdeal.Facts₀.reducesTo_S40_S_d0 Cert.KernelIdeal.Facts₀.h_S_ m' ρ')
  rw [(hagree c).1, (hagree c).2, totals_agree]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
